-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_v228) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S32768x128 : Shape := ⟨2, ![32768, 128]⟩
abbrev S6x160x1024 : Shape := ⟨3, ![6, 160, 1024]⟩
abbrev S6x1024 : Shape := ⟨2, ![6, 1024]⟩
abbrev S6x1024x1024 : Shape := ⟨3, ![6, 1024, 1024]⟩
abbrev S6x1024x64 : Shape := ⟨3, ![6, 1024, 64]⟩
abbrev S6x64 : Shape := ⟨2, ![6, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S32768x128 : S_.BroadcastsInDim S32768x128 (![] : Fin 0 → Fin S32768x128.rank)
  reducesTo_S32768x128_S_d0_1 : S32768x128.ReducesTo [0, 1] S_
  bcast_S_S6x160x1024 : S_.BroadcastsInDim S6x160x1024 (![] : Fin 0 → Fin S6x160x1024.rank)
  reducesTo_S6x160x1024_S_d0_1_2 : S6x160x1024.ReducesTo [0, 1, 2] S_
  bcast_S_S6x1024 : S_.BroadcastsInDim S6x1024 (![] : Fin 0 → Fin S6x1024.rank)
  reducesTo_S6x1024_S_d0_1 : S6x1024.ReducesTo [0, 1] S_
  bcast_S_S6x1024x1024 : S_.BroadcastsInDim S6x1024x1024 (![] : Fin 0 → Fin S6x1024x1024.rank)
  reducesTo_S6x1024x1024_S_d0_1_2 : S6x1024x1024.ReducesTo [0, 1, 2] S_
  bcast_S_S6x1024x64 : S_.BroadcastsInDim S6x1024x64 (![] : Fin 0 → Fin S6x1024x64.rank)
  reducesTo_S6x1024x64_S_d0_1_2 : S6x1024x64.ReducesTo [0, 1, 2] S_
  bcast_S_S6x64 : S_.BroadcastsInDim S6x64 (![] : Fin 0 → Fin S6x64.rank)
  reducesTo_S6x64_S_d0_1 : S6x64.ReducesTo [0, 1] S_

variable [Facts]

def fn_part2 {F : FTy → Type} [FloatOps F] (main_arg7 : FVec F S6x64 .f32) (main_v33 : IVec S_ 1) : IVec S_ 1 :=
  let main_v34 : FVec F S6x64 .f32 := Host.absf main_arg7
  let main_cst_12 : FVec F S_ .f32 := constant S_ .f32 0x7F800000#32
  let main_v35 : FVec F S6x64 .f32 := broadcastInDim S6x64 ![] bcast_S_S6x64 main_cst_12
  let main_v36 : IVec S6x64 1 := cmpf .olt main_v34 main_v35
  let main_c_13 : IVec S_ 1 := constantI S_ 1 1#1
  let main_v37 : IVec S_ 1 := (fun x v => Host.reduce IntOp.andi x v reducesTo_S6x64_S_d0_1 h_S_) main_v36 main_c_13
  let main_v38 : IVec S_ 1 := andi main_v33 main_v37
  main_v38

def fn_part1 {F : FTy → Type} [FloatOps F] (main_arg4 : FVec F S6x1024x1024 .f32) (main_arg5 : FVec F S6x1024 .f32) (main_arg6 : FVec F S6x1024x64 .f32) (main_arg7 : FVec F S6x64 .f32) (main_v13 : IVec S_ 1) (main_v16 : IVec S6x1024 1) : IVec S_ 1 :=
  let main_c_5 : IVec S_ 1 := constantI S_ 1 1#1
  let main_v17 : IVec S_ 1 := (fun x v => Host.reduce IntOp.andi x v reducesTo_S6x1024_S_d0_1 h_S_) main_v16 main_c_5
  let main_v18 : IVec S_ 1 := andi main_v13 main_v17
  let main_v19 : FVec F S6x1024x1024 .f32 := Host.absf main_arg4
  let main_cst_6 : FVec F S_ .f32 := constant S_ .f32 0x7F800000#32
  let main_v20 : FVec F S6x1024x1024 .f32 := broadcastInDim S6x1024x1024 ![] bcast_S_S6x1024x1024 main_cst_6
  let main_v21 : IVec S6x1024x1024 1 := cmpf .olt main_v19 main_v20
  let main_c_7 : IVec S_ 1 := constantI S_ 1 1#1
  let main_v22 : IVec S_ 1 := (fun x v => Host.reduce IntOp.andi x v reducesTo_S6x1024x1024_S_d0_1_2 h_S_) main_v21 main_c_7
  let main_v23 : IVec S_ 1 := andi main_v18 main_v22
  let main_v24 : FVec F S6x1024 .f32 := Host.absf main_arg5
  let main_cst_8 : FVec F S_ .f32 := constant S_ .f32 0x7F800000#32
  let main_v25 : FVec F S6x1024 .f32 := broadcastInDim S6x1024 ![] bcast_S_S6x1024 main_cst_8
  let main_v26 : IVec S6x1024 1 := cmpf .olt main_v24 main_v25
  let main_c_9 : IVec S_ 1 := constantI S_ 1 1#1
  let main_v27 : IVec S_ 1 := (fun x v => Host.reduce IntOp.andi x v reducesTo_S6x1024_S_d0_1 h_S_) main_v26 main_c_9
  let main_v28 : IVec S_ 1 := andi main_v23 main_v27
  let main_v29 : FVec F S6x1024x64 .f32 := Host.absf main_arg6
  let main_cst_10 : FVec F S_ .f32 := constant S_ .f32 0x7F800000#32
  let main_v30 : FVec F S6x1024x64 .f32 := broadcastInDim S6x1024x64 ![] bcast_S_S6x1024x64 main_cst_10
  let main_v31 : IVec S6x1024x64 1 := cmpf .olt main_v29 main_v30
  let main_c_11 : IVec S_ 1 := constantI S_ 1 1#1
  let main_v32 : IVec S_ 1 := (fun x v => Host.reduce IntOp.andi x v reducesTo_S6x1024x64_S_d0_1_2 h_S_) main_v31 main_c_11
  let main_v33 : IVec S_ 1 := andi main_v28 main_v32
  fn_part2 (F := F) main_arg7 main_v33

def fn {F : FTy → Type} [FloatOps F] (main_arg0 : FVec F S32768x64 .f32) (main_arg1 : FVec F S32768x128 .f32) (main_arg2 : FVec F S6x160x1024 .f32) (main_arg3 : FVec F S6x1024 .f32) (main_arg4 : FVec F S6x1024x1024 .f32) (main_arg5 : FVec F S6x1024 .f32) (main_arg6 : FVec F S6x1024x64 .f32) (main_arg7 : FVec F S6x64 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S32768x128 .f32 := Host.absf main_arg1
  let main_cst_0 : FVec F S_ .f32 := constant S_ .f32 0x7F800000#32
  let main_v5 : FVec F S32768x128 .f32 := broadcastInDim S32768x128 ![] bcast_S_S32768x128 main_cst_0
  let main_v6 : IVec S32768x128 1 := cmpf .olt main_v4 main_v5
  let main_c_1 : IVec S_ 1 := constantI S_ 1 1#1
  let main_v7 : IVec S_ 1 := (fun x v => Host.reduce IntOp.andi x v reducesTo_S32768x128_S_d0_1 h_S_) main_v6 main_c_1
  let main_v8 : IVec S_ 1 := andi main_v3 main_v7
  let main_v9 : FVec F S6x160x1024 .f32 := Host.absf main_arg2
  let main_cst_2 : FVec F S_ .f32 := constant S_ .f32 0x7F800000#32
  let main_v10 : FVec F S6x160x1024 .f32 := broadcastInDim S6x160x1024 ![] bcast_S_S6x160x1024 main_cst_2
  let main_v11 : IVec S6x160x1024 1 := cmpf .olt main_v9 main_v10
  let main_c_3 : IVec S_ 1 := constantI S_ 1 1#1
  let main_v12 : IVec S_ 1 := (fun x v => Host.reduce IntOp.andi x v reducesTo_S6x160x1024_S_d0_1_2 h_S_) main_v11 main_c_3
  let main_v13 : IVec S_ 1 := andi main_v8 main_v12
  let main_v14 : FVec F S6x1024 .f32 := Host.absf main_arg3
  let main_cst_4 : FVec F S_ .f32 := constant S_ .f32 0x7F800000#32
  let main_v15 : FVec F S6x1024 .f32 := broadcastInDim S6x1024 ![] bcast_S_S6x1024 main_cst_4
  let main_v16 : IVec S6x1024 1 := cmpf .olt main_v14 main_v15
  fn_part1 (F := F) main_arg4 main_arg5 main_arg6 main_arg7 main_v13 main_v16
-- ==== Kernel.lean ====
abbrev S32768x64 : Shape := ⟨2, ![32768, 64]⟩
abbrev S32768x128 : Shape := ⟨2, ![32768, 128]⟩
abbrev S6x160x1024 : Shape := ⟨3, ![6, 160, 1024]⟩
abbrev S6x1024 : Shape := ⟨2, ![6, 1024]⟩
abbrev S6x1024x1024 : Shape := ⟨3, ![6, 1024, 1024]⟩
abbrev S6x1024x64 : Shape := ⟨3, ![6, 1024, 64]⟩
abbrev S6x64 : Shape := ⟨2, ![6, 64]⟩
abbrev S32768x1 : Shape := ⟨2, ![32768, 1]⟩
abbrev S512x64 : Shape := ⟨2, ![512, 64]⟩
abbrev S512x128 : Shape := ⟨2, ![512, 128]⟩
abbrev S512x1 : Shape := ⟨2, ![512, 1]⟩
abbrev S512x32 : Shape := ⟨2, ![512, 32]⟩
abbrev S512x160 : Shape := ⟨2, ![512, 160]⟩
abbrev S1x160x1024 : Shape := ⟨3, ![1, 160, 1024]⟩
abbrev S160x1024 : Shape := ⟨2, ![160, 1024]⟩
abbrev S512x1024 : Shape := ⟨2, ![512, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩
abbrev S512 : Shape := ⟨1, ![512]⟩
abbrev S32768 : Shape := ⟨1, ![32768]⟩

abbrev nBuf : Space → Nat
  | .hbm => 14
  | .vmem => 14
  | .smem => 0
  | _ => 0

abbrev bufTy : (tb : Table) → Fin (tcTables nBuf tb) → BufTy
  | .hbm, ⟨0, _⟩ => ⟨S32768x64, .f32⟩
  | .hbm, ⟨1, _⟩ => ⟨S32768x128, .f32⟩
  | .hbm, ⟨2, _⟩ => ⟨S6x160x1024, .f32⟩
  | .hbm, ⟨3, _⟩ => ⟨S6x1024, .f32⟩
  | .hbm, ⟨4, _⟩ => ⟨S6x1024x1024, .f32⟩
  | .hbm, ⟨5, _⟩ => ⟨S6x1024, .f32⟩
  | .hbm, ⟨6, _⟩ => ⟨S6x1024x64, .f32⟩
  | .hbm, ⟨7, _⟩ => ⟨S6x64, .f32⟩
  | .hbm, ⟨8, _⟩ => ⟨S6x160x1024, .bf16⟩
  | .hbm, ⟨9, _⟩ => ⟨S6x1024x1024, .bf16⟩
  | .hbm, ⟨10, _⟩ => ⟨S6x1024x64, .bf16⟩
  | .hbm, ⟨11, _⟩ => ⟨S32768x64, .f32⟩
  | .hbm, ⟨12, _⟩ => ⟨S32768x1, .f32⟩
  | .hbm, ⟨13, _⟩ => ⟨S32768, .f32⟩
  | .local _ .vmem, ⟨0, _⟩ => ⟨S512x64, .f32⟩
  | .local _ .vmem, ⟨1, _⟩ => ⟨S512x64, .f32⟩
  | .local _ .vmem, ⟨2, _⟩ => ⟨S512x128, .f32⟩
  | .local _ .vmem, ⟨3, _⟩ => ⟨S512x128, .f32⟩
  | .local _ .vmem, ⟨4, _⟩ => ⟨S6x160x1024, .bf16⟩
  | .local _ .vmem, ⟨5, _⟩ => ⟨S6x1024, .f32⟩
  | .local _ .vmem, ⟨6, _⟩ => ⟨S6x1024x1024, .bf16⟩
  | .local _ .vmem, ⟨7, _⟩ => ⟨S6x1024, .f32⟩
  | .local _ .vmem, ⟨8, _⟩ => ⟨S6x1024x64, .bf16⟩
  | .local _ .vmem, ⟨9, _⟩ => ⟨S6x64, .f32⟩
  | .local _ .vmem, ⟨10, _⟩ => ⟨S512x64, .f32⟩
  | .local _ .vmem, ⟨11, _⟩ => ⟨S512x64, .f32⟩
  | .local _ .vmem, ⟨12, _⟩ => ⟨S512x1, .f32⟩
  | .local _ .vmem, ⟨13, _⟩ => ⟨S512x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c3_i32 : BitVec 32 := 3#32
  let v5 : BitVec 32 := Scalar.addi c0_i32 c3_i32
  let c1_i32 : BitVec 32 := 1#32
  ⟨c0_i32, v5, c1_i32⟩
def k0_off1 (k0_t1 : Fin k0_t1_loop.trips) : Fin 3 → Nat :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v15 : Index := Scalar.indexCast v10
  let c0_13 : Index := 0#32
  let c0_14 : Index := 0#32
  ![v15.toNat, 0, 0]
def k0_off2 (k0_t1 : Fin k0_t1_loop.trips) : Fin 2 → Nat :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v19 : Index := Scalar.indexCast v10
  let c0_16 : Index := 0#32
  ![v19.toNat, 0]
def k0_off3 (k0_t1 : Fin k0_t1_loop.trips) : Fin 3 → Nat :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v28 : Index := Scalar.indexCast v10
  let c0_18 : Index := 0#32
  let c0_19 : Index := 0#32
  ![v28.toNat, 0, 0]
def k0_off4 (k0_t1 : Fin k0_t1_loop.trips) : Fin 3 → Nat :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v41 : Index := Scalar.indexCast v10
  let c0_23 : Index := 0#32
  let c0_24 : Index := 0#32
  ![v41.toNat, 0, 0]
def k0_off5 (k0_t1 : Fin k0_t1_loop.trips) : Fin 2 → Nat :=
  let c2_i32 : BitVec 32 := 2#32
  let c0_i32 : BitVec 32 := 0#32
  let c1_i32 : BitVec 32 := 1#32
  let arg11 : BitVec 32 := Scf.iv c0_i32 c1_i32 k0_t1
  let v10 : BitVec 32 := Scalar.muli c2_i32 arg11
  let v45 : Index := Scalar.indexCast v10
  let c0_26 : Index := 0#32
  ![v45.toNat, 0]
def k0_off6 (k0_t1 : Fin k0_t1_loop.trips) : Fin 3 → Nat :=
  let c2_i32_11 : BitVec 32 := 2#32
  let c0_i32 : BitVec 32 := 0#32
  let c1_i32 : BitVec 32 := 1#32
  let arg11 : BitVec 32 := Scf.iv c0_i32 c1_i32 k0_t1
  let v11 : BitVec 32 := Scalar.muli c2_i32_11 arg11
  let c1_i32_12 : BitVec 32 := 1#32
  let v12 : BitVec 32 := Scalar.addi v11 c1_i32_12
  let v62 : Index := Scalar.indexCast v12
  let c0_28 : Index := 0#32
  let c0_29 : Index := 0#32
  ![v62.toNat, 0, 0]
def k0_off7 (k0_t1 : Fin k0_t1_loop.trips) : Fin 2 → Nat :=
  let c2_i32_11 : BitVec 32 := 2#32
  let c0_i32 : BitVec 32 := 0#32
  let c1_i32 : BitVec 32 := 1#32
  let arg11 : BitVec 32 := Scf.iv c0_i32 c1_i32 k0_t1
  let v11 : BitVec 32 := Scalar.muli c2_i32_11 arg11
  let c1_i32_12 : BitVec 32 := 1#32
  let v12 : BitVec 32 := Scalar.addi v11 c1_i32_12
  let v66 : Index := Scalar.indexCast v12
  let c0_31 : Index := 0#32
  ![v66.toNat, 0]
def k0_off8 (k0_t1 : Fin k0_t1_loop.trips) : Fin 3 → Nat :=
  let c2_i32_11 : BitVec 32 := 2#32
  let c0_i32 : BitVec 32 := 0#32
  let c1_i32 : BitVec 32 := 1#32
  let arg11 : BitVec 32 := Scf.iv c0_i32 c1_i32 k0_t1
  let v11 : BitVec 32 := Scalar.muli c2_i32_11 arg11
  let c1_i32_12 : BitVec 32 := 1#32
  let v12 : BitVec 32 := Scalar.addi v11 c1_i32_12
  let v75 : Index := Scalar.indexCast v12
  let c0_33 : Index := 0#32
  let c0_34 : Index := 0#32
  ![v75.toNat, 0, 0]
def k0_off9 (k0_t1 : Fin k0_t1_loop.trips) : Fin 3 → Nat :=
  let c2_i32_11 : BitVec 32 := 2#32
  let c0_i32 : BitVec 32 := 0#32
  let c1_i32 : BitVec 32 := 1#32
  let arg11 : BitVec 32 := Scf.iv c0_i32 c1_i32 k0_t1
  let v11 : BitVec 32 := Scalar.muli c2_i32_11 arg11
  let c1_i32_12 : BitVec 32 := 1#32
  let v12 : BitVec 32 := Scalar.addi v11 c1_i32_12
  let v88 : Index := Scalar.indexCast v12
  let c0_38 : Index := 0#32
  let c0_39 : Index := 0#32
  ![v88.toNat, 0, 0]
def k0_off10 (k0_t1 : Fin k0_t1_loop.trips) : Fin 2 → Nat :=
  let c2_i32_11 : BitVec 32 := 2#32
  let c0_i32 : BitVec 32 := 0#32
  let c1_i32 : BitVec 32 := 1#32
  let arg11 : BitVec 32 := Scf.iv c0_i32 c1_i32 k0_t1
  let v11 : BitVec 32 := Scalar.muli c2_i32_11 arg11
  let c1_i32_12 : BitVec 32 := 1#32
  let v12 : BitVec 32 := Scalar.addi v11 c1_i32_12
  let v92 : Index := Scalar.indexCast v12
  let c0_41 : Index := 0#32
  ![v92.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x160x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S512x64_S512x32_0_0 : ∀ a, (![0, 0] : Fin 2 → Nat) a + S512x32.size a ≤ S512x64.size a
  h_S512x32 : 0 < S512x32.numel
  inb_S512x64_S512x32_0_32 : ∀ a, (![0, 32] : Fin 2 → Nat) a + S512x32.size a ≤ S512x64.size a
  concatenates_S512x32_S512x128_S512x160_d1 : Shape.Concatenates [S512x32, S512x128] S512x160 1
  h_S1x160x1024 : 0 < S1x160x1024.numel
  shapeCasts_S1x160x1024_S160x1024 : S1x160x1024.ShapeCasts S160x1024
  h_S1x1024 : 0 < S1x1024.numel
  shapeCasts_S1x1024_S1024 : S1x1024.ShapeCasts S1024
  shapeCasts_S1024_S1x1024 : S1024.ShapeCasts S1x1024
  broadcasts_S1x1024_S512x1024 : S1x1024.Broadcasts S512x1024
  h_S1x1024x1024 : 0 < S1x1024x1024.numel
  shapeCasts_S1x1024x1024_S1024x1024 : S1x1024x1024.ShapeCasts S1024x1024
  h_S1x1024x64 : 0 < S1x1024x64.numel
  shapeCasts_S1x1024x64_S1024x64 : S1x1024x64.ShapeCasts S1024x64
  h_S1x64 : 0 < S1x64.numel
  shapeCasts_S1x64_S64 : S1x64.ShapeCasts S64
  shapeCasts_S64_S1x64 : S64.ShapeCasts S1x64
  broadcasts_S1x64_S512x64 : S1x64.Broadcasts S512x64
  slices_S512x64_o0_0_S512x32 : S512x64.Slices ![0, 0] S512x32
  slices_S512x64_o0_32_S512x32 : S512x64.Slices ![0, 32] S512x32
  reduces_S512x32_S512 : S512x32.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S32768x1_S32768 : S32768x1.ShapeCasts S32768
  dot_S512x160_S160x1024_S512x1024_1_0_0_1_n_n_wf : DotDims.WF S512x160 S160x1024 S512x1024 [1] [0] [0] [1] [] []
  dot_S512x1024_S1024x1024_S512x1024_1_0_0_1_n_n_wf : DotDims.WF S512x1024 S1024x1024 S512x1024 [1] [0] [0] [1] [] []
  dot_S512x1024_S1024x64_S512x64_1_0_0_1_n_n_wf : DotDims.WF S512x1024 S1024x64 S512x64 [1] [0] [0] [1] [] []
  hrank0 : 0 < grid0.rank
  k0_t1_ok : k0_t1_loop.OK
  k0_off1_inb : ∀ k0_t1 : Fin k0_t1_loop.trips, ∀ a, (k0_off1 k0_t1) a + S1x160x1024.size a ≤ S6x160x1024.size a
  k0_off2_inb : ∀ k0_t1 : Fin k0_t1_loop.trips, ∀ a, (k0_off2 k0_t1) a + S1x1024.size a ≤ S6x1024.size a
  k0_off3_inb : ∀ k0_t1 : Fin k0_t1_loop.trips, ∀ a, (k0_off3 k0_t1) a + S1x1024x1024.size a ≤ S6x1024x1024.size a
  k0_off4_inb : ∀ k0_t1 : Fin k0_t1_loop.trips, ∀ a, (k0_off4 k0_t1) a + S1x1024x64.size a ≤ S6x1024x64.size a
  k0_off5_inb : ∀ k0_t1 : Fin k0_t1_loop.trips, ∀ a, (k0_off5 k0_t1) a + S1x64.size a ≤ S6x64.size a
  k0_off6_inb : ∀ k0_t1 : Fin k0_t1_loop.trips, ∀ a, (k0_off6 k0_t1) a + S1x160x1024.size a ≤ S6x160x1024.size a
  k0_off7_inb : ∀ k0_t1 : Fin k0_t1_loop.trips, ∀ a, (k0_off7 k0_t1) a + S1x1024.size a ≤ S6x1024.size a
  k0_off8_inb : ∀ k0_t1 : Fin k0_t1_loop.trips, ∀ a, (k0_off8 k0_t1) a + S1x1024x1024.size a ≤ S6x1024x1024.size a
  k0_off9_inb : ∀ k0_t1 : Fin k0_t1_loop.trips, ∀ a, (k0_off9 k0_t1) a + S1x1024x64.size a ≤ S6x1024x64.size a
  k0_off10_inb : ∀ k0_t1 : Fin k0_t1_loop.trips, ∀ a, (k0_off10 k0_t1) a + S1x64.size a ≤ S6x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S32768x64.size a
  hwx0_0 : ∀ i : grid0.Coords, EltTy.bits .f32 = 32 ∨ (Rect.block (s := S32768x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S32768x128.size a
  hwx0_1 : ∀ i : grid0.Coords, EltTy.bits .f32 = 32 ∨ (Rect.block (s := S32768x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x160x1024.size a ≤ S6x160x1024.size a
  hwx0_2 : ∀ i : grid0.Coords, EltTy.bits .bf16 = 32 ∨ (Rect.block (s := S6x160x1024) S6x160x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x1024.size a ≤ S6x1024.size a
  hwx0_3 : ∀ i : grid0.Coords, EltTy.bits .f32 = 32 ∨ (Rect.block (s := S6x1024) S6x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x1024x1024.size a ≤ S6x1024x1024.size a
  hwx0_4 : ∀ i : grid0.Coords, EltTy.bits .bf16 = 32 ∨ (Rect.block (s := S6x1024x1024) S6x1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1024.size a ≤ S6x1024.size a
  hwx0_5 : ∀ i : grid0.Coords, EltTy.bits .f32 = 32 ∨ (Rect.block (s := S6x1024) S6x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x1024x64.size a ≤ S6x1024x64.size a
  hwx0_6 : ∀ i : grid0.Coords, EltTy.bits .bf16 = 32 ∨ (Rect.block (s := S6x1024x64) S6x1024x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S6x64.size a ≤ S6x64.size a
  hwx0_7 : ∀ i : grid0.Coords, EltTy.bits .f32 = 32 ∨ (Rect.block (s := S6x64) S6x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S32768x64.size a
  hwx0_8 : ∀ i : grid0.Coords, EltTy.bits .f32 = 32 ∨ (Rect.block (s := S32768x64) S512x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1.size a ≤ S32768x1.size a
  hwx0_9 : ∀ i : grid0.Coords, EltTy.bits .f32 = 32 ∨ (Rect.block (s := S32768x1) S512x1.size (cc0_transform_9 i) (hinb0_9 i)).WholeWords (EltTy.packing .f32)

variable [Facts₀]

def dot_S512x160_S160x1024_S512x1024_1_0_0_1_n_n : DotDims S512x160 S160x1024 S512x1024 where
  lhsContracting := [1]
  rhsContracting := [0]
  lhsNonContracting := [0]
  rhsNonContracting := [1]
  lhsBatch := []
  rhsBatch := []
  wf := dot_S512x160_S160x1024_S512x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S6x160x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S6x1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S6x1024x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S6x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S512x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S512x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S32768x64 : Shape := ⟨2, ![32768, 64]⟩
abbrev S32768x128 : Shape := ⟨2, ![32768, 128]⟩
abbrev S6x160x1024 : Shape := ⟨3, ![6, 160, 1024]⟩
abbrev S6x1024 : Shape := ⟨2, ![6, 1024]⟩
abbrev S6x1024x1024 : Shape := ⟨3, ![6, 1024, 1024]⟩
abbrev S6x1024x64 : Shape := ⟨3, ![6, 1024, 64]⟩
abbrev S6x64 : Shape := ⟨2, ![6, 64]⟩
abbrev S_ : Shape := ⟨0, ![]⟩
abbrev S32768 : Shape := ⟨1, ![32768]⟩
abbrev S32768x32 : Shape := ⟨2, ![32768, 32]⟩
abbrev S32768x160 : Shape := ⟨2, ![32768, 160]⟩
abbrev S1x160x1024 : Shape := ⟨3, ![1, 160, 1024]⟩
abbrev S160x1024 : Shape := ⟨2, ![160, 1024]⟩
abbrev S32768x1024 : Shape := ⟨2, ![32768, 1024]⟩
abbrev S1x1024 : Shape := ⟨2, ![1, 1024]⟩
abbrev S1024 : Shape := ⟨1, ![1024]⟩
abbrev S1x1024x1024 : Shape := ⟨3, ![1, 1024, 1024]⟩
abbrev S1024x1024 : Shape := ⟨2, ![1024, 1024]⟩
abbrev S1x1024x64 : Shape := ⟨3, ![1, 1024, 64]⟩
abbrev S1024x64 : Shape := ⟨2, ![1024, 64]⟩
abbrev S1x64 : Shape := ⟨2, ![1, 64]⟩
abbrev S64 : Shape := ⟨1, ![64]⟩

abbrev nBuf : Space → Nat
  | .hbm => 268
  | .vmem => 0
  | .smem => 0
  | _ => 0

abbrev hbmTy0_0 (i : Nat) : BufTy := match i % 128 with
  | 0 => ⟨S32768x64, .f32⟩
  | 1 => ⟨S32768x128, .f32⟩
  | 2 => ⟨S6x160x1024, .f32⟩
  | 3 => ⟨S6x1024, .f32⟩
  | 4 => ⟨S6x1024x1024, .f32⟩
  | 5 => ⟨S6x1024, .f32⟩
  | 6 => ⟨S6x1024x64, .f32⟩
  | 7 => ⟨S6x64, .f32⟩
  | 8 => ⟨S_, .f32⟩
  | 9 => ⟨S32768, .f32⟩
  | 10 => ⟨S32768x32, .f32⟩
  | 11 => ⟨S32768x32, .f32⟩
  | 12 => ⟨S32768x160, .f32⟩
  | 13 => ⟨S1x160x1024, .f32⟩
  | 14 => ⟨S160x1024, .f32⟩
  | 15 => ⟨S32768x1024, .f32⟩
  | 16 => ⟨S1x1024, .f32⟩
  | 17 => ⟨S1024, .f32⟩
  | 18 => ⟨S1x1024, .f32⟩
  | 19 => ⟨S32768x1024, .f32⟩
  | 20 => ⟨S32768x1024, .f32⟩
  | 21 => ⟨S_, .f32⟩
  | 22 => ⟨S32768x1024, .f32⟩
  | 23 => ⟨S32768x1024, .f32⟩
  | 24 => ⟨S1x1024x1024, .f32⟩
  | 25 => ⟨S1024x1024, .f32⟩
  | 26 => ⟨S32768x1024, .f32⟩
  | 27 => ⟨S1x1024, .f32⟩
  | 28 => ⟨S1024, .f32⟩
  | 29 => ⟨S1x1024, .f32⟩
  | 30 => ⟨S32768x1024, .f32⟩
  | 31 => ⟨S32768x1024, .f32⟩
  | 32 => ⟨S_, .f32⟩
  | 33 => ⟨S32768x1024, .f32⟩
  | 34 => ⟨S32768x1024, .f32⟩
  | 35 => ⟨S1x1024x64, .f32⟩
  | 36 => ⟨S1024x64, .f32⟩
  | 37 => ⟨S32768x64, .f32⟩
  | 38 => ⟨S1x64, .f32⟩
  | 39 => ⟨S64, .f32⟩
  | 40 => ⟨S1x64, .f32⟩
  | 41 => ⟨S32768x64, .f32⟩
  | 42 => ⟨S32768x64, .f32⟩
  | 43 => ⟨S32768x32, .f32⟩
  | 44 => ⟨S32768x32, .f32⟩
  | 45 => ⟨S32768x32, .f32⟩
  | 46 => ⟨S32768x32, .f32⟩
  | 47 => ⟨S32768x32, .f32⟩
  | 48 => ⟨S32768x32, .f32⟩
  | 49 => ⟨S32768x64, .f32⟩
  | 50 => ⟨S_, .f32⟩
  | 51 => ⟨S32768, .f32⟩
  | 52 => ⟨S32768, .f32⟩
  | 53 => ⟨S32768x32, .f32⟩
  | 54 => ⟨S32768x32, .f32⟩
  | 55 => ⟨S32768x160, .f32⟩
  | 56 => ⟨S1x160x1024, .f32⟩
  | 57 => ⟨S160x1024, .f32⟩
  | 58 => ⟨S32768x1024, .f32⟩
  | 59 => ⟨S1x1024, .f32⟩
  | 60 => ⟨S1024, .f32⟩
  | 61 => ⟨S1x1024, .f32⟩
  | 62 => ⟨S32768x1024, .f32⟩
  | 63 => ⟨S32768x1024, .f32⟩
  | 64 => ⟨S_, .f32⟩
  | 65 => ⟨S32768x1024, .f32⟩
  | 66 => ⟨S32768x1024, .f32⟩
  | 67 => ⟨S1x1024x1024, .f32⟩
  | 68 => ⟨S1024x1024, .f32⟩
  | 69 => ⟨S32768x1024, .f32⟩
  | 70 => ⟨S1x1024, .f32⟩
  | 71 => ⟨S1024, .f32⟩
  | 72 => ⟨S1x1024, .f32⟩
  | 73 => ⟨S32768x1024, .f32⟩
  | 74 => ⟨S32768x1024, .f32⟩
  | 75 => ⟨S_, .f32⟩
  | 76 => ⟨S32768x1024, .f32⟩
  | 77 => ⟨S32768x1024, .f32⟩
  | 78 => ⟨S1x1024x64, .f32⟩
  | 79 => ⟨S1024x64, .f32⟩
  | 80 => ⟨S32768x64, .f32⟩
  | 81 => ⟨S1x64, .f32⟩
  | 82 => ⟨S64, .f32⟩
  | 83 => ⟨S1x64, .f32⟩
  | 84 => ⟨S32768x64, .f32⟩
  | 85 => ⟨S32768x64, .f32⟩
  | 86 => ⟨S32768x32, .f32⟩
  | 87 => ⟨S32768x32, .f32⟩
  | 88 => ⟨S32768x32, .f32⟩
  | 89 => ⟨S32768x32, .f32⟩
  | 90 => ⟨S32768x32, .f32⟩
  | 91 => ⟨S32768x32, .f32⟩
  | 92 => ⟨S32768x64, .f32⟩
  | 93 => ⟨S_, .f32⟩
  | 94 => ⟨S32768, .f32⟩
  | 95 => ⟨S32768, .f32⟩
  | 96 => ⟨S32768x32, .f32⟩
  | 97 => ⟨S32768x32, .f32⟩
  | 98 => ⟨S32768x160, .f32⟩
  | 99 => ⟨S1x160x1024, .f32⟩
  | 100 => ⟨S160x1024, .f32⟩
  | 101 => ⟨S32768x1024, .f32⟩
  | 102 => ⟨S1x1024, .f32⟩
  | 103 => ⟨S1024, .f32⟩
  | 104 => ⟨S1x1024, .f32⟩
  | 105 => ⟨S32768x1024, .f32⟩
  | 106 => ⟨S32768x1024, .f32⟩
  | 107 => ⟨S_, .f32⟩
  | 108 => ⟨S32768x1024, .f32⟩
  | 109 => ⟨S32768x1024, .f32⟩
  | 110 => ⟨S1x1024x1024, .f32⟩
  | 111 => ⟨S1024x1024, .f32⟩
  | 112 => ⟨S32768x1024, .f32⟩
  | 113 => ⟨S1x1024, .f32⟩
  | 114 => ⟨S1024, .f32⟩
  | 115 => ⟨S1x1024, .f32⟩
  | 116 => ⟨S32768x1024, .f32⟩
  | 117 => ⟨S32768x1024, .f32⟩
  | 118 => ⟨S_, .f32⟩
  | 119 => ⟨S32768x1024, .f32⟩
  | 120 => ⟨S32768x1024, .f32⟩
  | 121 => ⟨S1x1024x64, .f32⟩
  | 122 => ⟨S1024x64, .f32⟩
  | 123 => ⟨S32768x64, .f32⟩
  | 124 => ⟨S1x64, .f32⟩
  | 125 => ⟨S64, .f32⟩
  | 126 => ⟨S1x64, .f32⟩
  | 127 => ⟨S32768x64, .f32⟩
  | _ => ⟨S32768x64, .f32⟩

abbrev hbmTy0_1 (i : Nat) : BufTy := match i % 128 with
  | 0 => ⟨S32768x64, .f32⟩
  | 1 => ⟨S32768x32, .f32⟩
  | 2 => ⟨S32768x32, .f32⟩
  | 3 => ⟨S32768x32, .f32⟩
  | 4 => ⟨S32768x32, .f32⟩
  | 5 => ⟨S32768x32, .f32⟩
  | 6 => ⟨S32768x32, .f32⟩
  | 7 => ⟨S32768x64, .f32⟩
  | 8 => ⟨S_, .f32⟩
  | 9 => ⟨S32768, .f32⟩
  | 10 => ⟨S32768, .f32⟩
  | 11 => ⟨S32768x32, .f32⟩
  | 12 => ⟨S32768x32, .f32⟩
  | 13 => ⟨S32768x160, .f32⟩
  | 14 => ⟨S1x160x1024, .f32⟩
  | 15 => ⟨S160x1024, .f32⟩
  | 16 => ⟨S32768x1024, .f32⟩
  | 17 => ⟨S1x1024, .f32⟩
  | 18 => ⟨S1024, .f32⟩
  | 19 => ⟨S1x1024, .f32⟩
  | 20 => ⟨S32768x1024, .f32⟩
  | 21 => ⟨S32768x1024, .f32⟩
  | 22 => ⟨S_, .f32⟩
  | 23 => ⟨S32768x1024, .f32⟩
  | 24 => ⟨S32768x1024, .f32⟩
  | 25 => ⟨S1x1024x1024, .f32⟩
  | 26 => ⟨S1024x1024, .f32⟩
  | 27 => ⟨S32768x1024, .f32⟩
  | 28 => ⟨S1x1024, .f32⟩
  | 29 => ⟨S1024, .f32⟩
  | 30 => ⟨S1x1024, .f32⟩
  | 31 => ⟨S32768x1024, .f32⟩
  | 32 => ⟨S32768x1024, .f32⟩
  | 33 => ⟨S_, .f32⟩
  | 34 => ⟨S32768x1024, .f32⟩
  | 35 => ⟨S32768x1024, .f32⟩
  | 36 => ⟨S1x1024x64, .f32⟩
  | 37 => ⟨S1024x64, .f32⟩
  | 38 => ⟨S32768x64, .f32⟩
  | 39 => ⟨S1x64, .f32⟩
  | 40 => ⟨S64, .f32⟩
  | 41 => ⟨S1x64, .f32⟩
  | 42 => ⟨S32768x64, .f32⟩
  | 43 => ⟨S32768x64, .f32⟩
  | 44 => ⟨S32768x32, .f32⟩
  | 45 => ⟨S32768x32, .f32⟩
  | 46 => ⟨S32768x32, .f32⟩
  | 47 => ⟨S32768x32, .f32⟩
  | 48 => ⟨S32768x32, .f32⟩
  | 49 => ⟨S32768x32, .f32⟩
  | 50 => ⟨S32768x64, .f32⟩
  | 51 => ⟨S_, .f32⟩
  | 52 => ⟨S32768, .f32⟩
  | 53 => ⟨S32768, .f32⟩
  | 54 => ⟨S32768x32, .f32⟩
  | 55 => ⟨S32768x32, .f32⟩
  | 56 => ⟨S32768x160, .f32⟩
  | 57 => ⟨S1x160x1024, .f32⟩
  | 58 => ⟨S160x1024, .f32⟩
  | 59 => ⟨S32768x1024, .f32⟩
  | 60 => ⟨S1x1024, .f32⟩
  | 61 => ⟨S1024, .f32⟩
  | 62 => ⟨S1x1024, .f32⟩
  | 63 => ⟨S32768x1024, .f32⟩
  | 64 => ⟨S32768x1024, .f32⟩
  | 65 => ⟨S_, .f32⟩
  | 66 => ⟨S32768x1024, .f32⟩
  | 67 => ⟨S32768x1024, .f32⟩
  | 68 => ⟨S1x1024x1024, .f32⟩
  | 69 => ⟨S1024x1024, .f32⟩
  | 70 => ⟨S32768x1024, .f32⟩
  | 71 => ⟨S1x1024, .f32⟩
  | 72 => ⟨S1024, .f32⟩
  | 73 => ⟨S1x1024, .f32⟩
  | 74 => ⟨S32768x1024, .f32⟩
  | 75 => ⟨S32768x1024, .f32⟩
  | 76 => ⟨S_, .f32⟩
  | 77 => ⟨S32768x1024, .f32⟩
  | 78 => ⟨S32768x1024, .f32⟩
  | 79 => ⟨S1x1024x64, .f32⟩
  | 80 => ⟨S1024x64, .f32⟩
  | 81 => ⟨S32768x64, .f32⟩
  | 82 => ⟨S1x64, .f32⟩
  | 83 => ⟨S64, .f32⟩
  | 84 => ⟨S1x64, .f32⟩
  | 85 => ⟨S32768x64, .f32⟩
  | 86 => ⟨S32768x64, .f32⟩
  | 87 => ⟨S32768x32, .f32⟩
  | 88 => ⟨S32768x32, .f32⟩
  | 89 => ⟨S32768x32, .f32⟩
  | 90 => ⟨S32768x32, .f32⟩
  | 91 => ⟨S32768x32, .f32⟩
  | 92 => ⟨S32768x32, .f32⟩
  | 93 => ⟨S32768x64, .f32⟩
  | 94 => ⟨S_, .f32⟩
  | 95 => ⟨S32768, .f32⟩
  | 96 => ⟨S32768, .f32⟩
  | 97 => ⟨S32768x32, .f32⟩
  | 98 => ⟨S32768x32, .f32⟩
  | 99 => ⟨S32768x160, .f32⟩
  | 100 => ⟨S1x160x1024, .f32⟩
  | 101 => ⟨S160x1024, .f32⟩
  | 102 => ⟨S32768x1024, .f32⟩
  | 103 => ⟨S1x1024, .f32⟩
  | 104 => ⟨S1024, .f32⟩
  | 105 => ⟨S1x1024, .f32⟩
  | 106 => ⟨S32768x1024, .f32⟩
  | 107 => ⟨S32768x1024, .f32⟩
  | 108 => ⟨S_, .f32⟩
  | 109 => ⟨S32768x1024, .f32⟩
  | 110 => ⟨S32768x1024, .f32⟩
  | 111 => ⟨S1x1024x1024, .f32⟩
  | 112 => ⟨S1024x1024, .f32⟩
  | 113 => ⟨S32768x1024, .f32⟩
  | 114 => ⟨S1x1024, .f32⟩
  | 115 => ⟨S1024, .f32⟩
  | 116 => ⟨S1x1024, .f32⟩
  | 117 => ⟨S32768x1024, .f32⟩
  | 118 => ⟨S32768x1024, .f32⟩
  | 119 => ⟨S_, .f32⟩
  | 120 => ⟨S32768x1024, .f32⟩
  | 121 => ⟨S32768x1024, .f32⟩
  | 122 => ⟨S1x1024x64, .f32⟩
  | 123 => ⟨S1024x64, .f32⟩
  | 124 => ⟨S32768x64, .f32⟩
  | 125 => ⟨S1x64, .f32⟩
  | 126 => ⟨S64, .f32⟩
  | 127 => ⟨S1x64, .f32⟩
  | _ => ⟨S32768x64, .f32⟩

abbrev hbmTy0_2 (i : Nat) : BufTy := match i % 128 with
  | 0 => ⟨S32768x64, .f32⟩
  | 1 => ⟨S32768x64, .f32⟩
  | 2 => ⟨S32768x32, .f32⟩
  | 3 => ⟨S32768x32, .f32⟩
  | 4 => ⟨S32768x32, .f32⟩
  | 5 => ⟨S32768x32, .f32⟩
  | 6 => ⟨S32768x32, .f32⟩
  | 7 => ⟨S32768x32, .f32⟩
  | 8 => ⟨S32768x64, .f32⟩
  | 9 => ⟨S_, .f32⟩
  | 10 => ⟨S32768, .f32⟩
  | 11 => ⟨S32768, .f32⟩
  | _ => ⟨S32768x64, .f32⟩

abbrev hbmTy (i : Nat) : BufTy := match i / 128 with
  | 0 => hbmTy0_0 i
  | 1 => hbmTy0_1 i
  | 2 => hbmTy0_2 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_cst : Ref sig .tc := ⟨.hbm, 32, rfl⟩
abbrev main_call1_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_0 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call2_cst : Ref sig .tc := ⟨.hbm, 64, rfl⟩
abbrev main_call2_v0 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_call3_cst : Ref sig .tc := ⟨.hbm, 75, rfl⟩
abbrev main_call3_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_1 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_call4_cst : Ref sig .tc := ⟨.hbm, 107, rfl⟩
abbrev main_call4_v0 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_call5_cst : Ref sig .tc := ⟨.hbm, 118, rfl⟩
abbrev main_call5_v0 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_2 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_call6_cst : Ref sig .tc := ⟨.hbm, 150, rfl⟩
abbrev main_call6_v0 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call7_cst : Ref sig .tc := ⟨.hbm, 161, rfl⟩
abbrev main_call7_v0 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_cst_3 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_call8_cst : Ref sig .tc := ⟨.hbm, 193, rfl⟩
abbrev main_call8_v0 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_call9_cst : Ref sig .tc := ⟨.hbm, 204, rfl⟩
abbrev main_call9_v0 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_cst_4 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_call10_cst : Ref sig .tc := ⟨.hbm, 236, rfl⟩
abbrev main_call10_v0 : Ref sig .tc := ⟨.hbm, 237, rfl⟩
abbrev main_v202 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_call11_cst : Ref sig .tc := ⟨.hbm, 247, rfl⟩
abbrev main_call11_v0 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_v221 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_cst_5 : Ref sig .tc := ⟨.hbm, 265, rfl⟩
abbrev main_v227 : Ref sig .tc := ⟨.hbm, 266, rfl⟩
abbrev main_v228 : Ref sig .tc := ⟨.hbm, 267, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  slices_S32768x64_S32768x32_0_0 : S32768x64.Slices ![0, 0] S32768x32
  slices_S32768x64_S32768x32_0_32 : S32768x64.Slices ![0, 32] S32768x32
  concatenates_S32768x32_S32768x128_S32768x160_d1 : Shape.Concatenates [S32768x32, S32768x128] S32768x160 1
  slices_S6x160x1024_S1x160x1024_0_0_0 : S6x160x1024.Slices ![0, 0, 0] S1x160x1024
  shapeCasts_S1x160x1024_S160x1024 : S1x160x1024.ShapeCasts S160x1024
  slices_S6x1024_S1x1024_0_0 : S6x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  slices_S6x1024x1024_S1x1024x1024_0_0_0 : S6x1024x1024.Slices ![0, 0, 0] S1x1024x1024
  shapeCasts_S1x1024x1024_S1024x1024 : S1x1024x1024.ShapeCasts S1024x1024
  slices_S6x1024x64_S1x1024x64_0_0_0 : S6x1024x64.Slices ![0, 0, 0] S1x1024x64
  shapeCasts_S1x1024x64_S1024x64 : S1x1024x64.ShapeCasts S1024x64
  slices_S6x64_S1x64_0_0 : S6x64.Slices ![0, 0] S1x64
  shapeCasts_S1x64_S64 : S1x64.ShapeCasts S64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  concatenates_S32768x32_S32768x32_S32768x64_d1 : Shape.Concatenates [S32768x32, S32768x32] S32768x64 1
  reducesTo_S32768x32_S32768_d1 : S32768x32.ReducesTo [1] S32768
  h_S_ : 0 < S_.numel
  slices_S6x160x1024_S1x160x1024_1_0_0 : S6x160x1024.Slices ![1, 0, 0] S1x160x1024
  slices_S6x1024_S1x1024_1_0 : S6x1024.Slices ![1, 0] S1x1024
  slices_S6x1024x1024_S1x1024x1024_1_0_0 : S6x1024x1024.Slices ![1, 0, 0] S1x1024x1024
  slices_S6x1024x64_S1x1024x64_1_0_0 : S6x1024x64.Slices ![1, 0, 0] S1x1024x64
  slices_S6x64_S1x64_1_0 : S6x64.Slices ![1, 0] S1x64
  slices_S6x160x1024_S1x160x1024_2_0_0 : S6x160x1024.Slices ![2, 0, 0] S1x160x1024
  slices_S6x1024_S1x1024_2_0 : S6x1024.Slices ![2, 0] S1x1024
  slices_S6x1024x1024_S1x1024x1024_2_0_0 : S6x1024x1024.Slices ![2, 0, 0] S1x1024x1024
  slices_S6x1024x64_S1x1024x64_2_0_0 : S6x1024x64.Slices ![2, 0, 0] S1x1024x64
  slices_S6x64_S1x64_2_0 : S6x64.Slices ![2, 0] S1x64
  slices_S6x160x1024_S1x160x1024_3_0_0 : S6x160x1024.Slices ![3, 0, 0] S1x160x1024
  slices_S6x1024_S1x1024_3_0 : S6x1024.Slices ![3, 0] S1x1024
  slices_S6x1024x1024_S1x1024x1024_3_0_0 : S6x1024x1024.Slices ![3, 0, 0] S1x1024x1024
  slices_S6x1024x64_S1x1024x64_3_0_0 : S6x1024x64.Slices ![3, 0, 0] S1x1024x64
  slices_S6x64_S1x64_3_0 : S6x64.Slices ![3, 0] S1x64
  slices_S6x160x1024_S1x160x1024_4_0_0 : S6x160x1024.Slices ![4, 0, 0] S1x160x1024
  slices_S6x1024_S1x1024_4_0 : S6x1024.Slices ![4, 0] S1x1024
  slices_S6x1024x1024_S1x1024x1024_4_0_0 : S6x1024x1024.Slices ![4, 0, 0] S1x1024x1024
  slices_S6x1024x64_S1x1024x64_4_0_0 : S6x1024x64.Slices ![4, 0, 0] S1x1024x64
  slices_S6x64_S1x64_4_0 : S6x64.Slices ![4, 0] S1x64
  slices_S6x160x1024_S1x160x1024_5_0_0 : S6x160x1024.Slices ![5, 0, 0] S1x160x1024
  slices_S6x1024_S1x1024_5_0 : S6x1024.Slices ![5, 0] S1x1024
  slices_S6x1024x1024_S1x1024x1024_5_0_0 : S6x1024x1024.Slices ![5, 0, 0] S1x1024x1024
  slices_S6x1024x64_S1x1024x64_5_0_0 : S6x1024x64.Slices ![5, 0, 0] S1x1024x64
  slices_S6x64_S1x64_5_0 : S6x64.Slices ![5, 0] S1x64
  dot_S32768x160_S160x1024_S32768x1024_1_0_0_1_n_n_wf : DotDims.WF S32768x160 S160x1024 S32768x1024 [1] [0] [0] [1] [] []
  dot_S32768x1024_S1024x1024_S32768x1024_1_0_0_1_n_n_wf : DotDims.WF S32768x1024 S1024x1024 S32768x1024 [1] [0] [0] [1] [] []
  dot_S32768x1024_S1024x64_S32768x64_1_0_0_1_n_n_wf : DotDims.WF S32768x1024 S1024x64 S32768x64 [1] [0] [0] [1] [] []

variable [Facts₀]

def dot_S32768x160_S160x1024_S32768x1024_1_0_0_1_n_n : DotDims S32768x160 S160x1024 S32768x1024 where
  lhsContracting := [1]
  rhsContracting := [0]
  lhsNonContracting := [0]
  rhsNonContracting := [1]
  lhsBatch := []
  rhsBatch := []
  wf := dot_S32768x160_S160x1024_S32768x1024_1_0_0_1_n_n_wf
def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x64_S32768x64_1_0_0_1_n_n : DotDims S32768x1024 S1024x64 S32768x64 where
  lhsContracting := [1]
  rhsContracting := [0]
  lhsNonContracting := [0]
  rhsNonContracting := [1]
  lhsBatch := []
  rhsBatch := []
  wf := dot_S32768x1024_S1024x64_S32768x64_1_0_0_1_n_n_wf

class Facts : Prop extends Facts₀ where

variable [Facts]
-- ==== Proof.CouplingSpec.lean ====
/-
  The conditional normalizing flow as a function of the argument arrays at the extended reals, one batch row at a
  time.  A row carries the two halves `z0`, `z1` of its 64 coordinates and the accumulated log-determinant.  Coupling
  layer `l` (of six) feeds the unmasked half joined with the row's 128 conditioning values through a three-stage
  perceptron with weights `W1 l`, `W2 l`, `W3 l` and biases `b1 l`, `b2 l`, `b3 l` (max with 0 after the first two
  stages); of its 64 outputs the first 32, through tanh, are the log-scales `s` and the last 32 the shifts `t`; the
  masked half becomes `masked * exp s + t` and the log-determinant grows by the sum of `s`.  Even layers transform
  `z0` reading `z1`, odd layers transform `z1` reading `z0`; the flow is layers 0 … 5 in order, from `z0`, `z1` the
  two halves of the row of `T` and a log-determinant of 0.
-/
import Idealize.ShloMosaic.PureOps.Ideal
import Idealize.ShloMosaic.Lib.ValueIdx

noncomputable section

namespace Cert.Flow

open Idealize.ShloMosaic Idealize.ShloMosaic.ValueIdx

/-- One batch row's state: the first half of `z`, the second half, the log-determinant so far. -/
abbrev RowState : Type := (Fin 32 → EReal) × (Fin 32 → EReal) × EReal

/-- The perceptron's input row: the unmasked half (32 values) followed by the conditioning row (128 values). -/
def joined (u : Fin 32 → EReal) (cnd : Fin 128 → EReal) (k : Fin 160) : EReal :=
  if h : k.val < 32 then u ⟨k.val, h⟩ else cnd ⟨k.val - 32, by have := k.isLt; omega⟩

section Layer

variable (W1 : FVec Ideal ⟨3, ![6, 160, 1024]⟩ .f32) (b1 : FVec Ideal ⟨2, ![6, 1024]⟩ .f32)
  (W2 : FVec Ideal ⟨3, ![6, 1024, 1024]⟩ .f32) (b2 : FVec Ideal ⟨2, ![6, 1024]⟩ .f32)
  (W3 : FVec Ideal ⟨3, ![6, 1024, 64]⟩ .f32) (b3 : FVec Ideal ⟨2, ![6, 64]⟩ .f32)

/-- Layer `l`'s first hidden row: `max (x · W1 l + b1 l) 0`. -/
def hidden1 (l : Fin 6) (x : Fin 160 → EReal) (n : Fin 1024) : EReal :=
  max ((∑ k : Fin 160, x k * W1 (ix3 l k n)) + b1 (ix2 l n)) 0

/-- Layer `l`'s second hidden row: `max (h · W2 l + b2 l) 0`. -/
def hidden2 (l : Fin 6) (h : Fin 1024 → EReal) (n : Fin 1024) : EReal :=
  max ((∑ k : Fin 1024, h k * W2 (ix3 l k n)) + b2 (ix2 l n)) 0

/-- Layer `l`'s 64 outputs: `h · W3 l + b3 l`. -/
def outputs (l : Fin 6) (h : Fin 1024 → EReal) (n : Fin 64) : EReal :=
  (∑ k : Fin 1024, h k * W3 (ix3 l k n)) + b3 (ix2 l n)

/-- Layer `l`'s perceptron on the unmasked half `u` and the conditioning row. -/
def params (l : Fin 6) (u : Fin 32 → EReal) (cnd : Fin 128 → EReal) : Fin 64 → EReal :=
  outputs W3 b3 l (hidden2 W2 b2 l (hidden1 W1 b1 l (joined u cnd)))

/-- The log-scales: tanh of the first 32 outputs. -/
def logScale (l : Fin 6) (u : Fin 32 → EReal) (cnd : Fin 128 → EReal) (j : Fin 32) : EReal :=
  Ideal.tanh (params W1 b1 W2 b2 W3 b3 l u cnd ⟨j.val, by have := j.isLt; omega⟩)

/-- The shifts: the last 32 outputs. -/
def shift (l : Fin 6) (u : Fin 32 → EReal) (cnd : Fin 128 → EReal) (j : Fin 32) : EReal :=
  params W1 b1 W2 b2 W3 b3 l u cnd ⟨32 + j.val, by have := j.isLt; omega⟩

/-- The transformed masked half: `masked * exp s + t`. -/
def transformed (l : Fin 6) (msk u : Fin 32 → EReal) (cnd : Fin 128 → EReal) (j : Fin 32) : EReal :=
  msk j * Ideal.exp (logScale W1 b1 W2 b2 W3 b3 l u cnd j) + shift W1 b1 W2 b2 W3 b3 l u cnd j

/-- The layer's log-determinant: the sum of the log-scales. -/
def logDet (l : Fin 6) (u : Fin 32 → EReal) (cnd : Fin 128 → EReal) : EReal :=
  ∑ j : Fin 32, logScale W1 b1 W2 b2 W3 b3 l u cnd j

/-- An even layer transforms the first half, reading the second. -/
def evenLayer (l : Fin 6) (cnd : Fin 128 → EReal) (s : RowState) : RowState :=
  (transformed W1 b1 W2 b2 W3 b3 l s.1 s.2.1 cnd, s.2.1, s.2.2 + logDet W1 b1 W2 b2 W3 b3 l s.2.1 cnd)

/-- An odd layer transforms the second half, reading the first. -/
def oddLayer (l : Fin 6) (cnd : Fin 128 → EReal) (s : RowState) : RowState :=
  (s.1, transformed W1 b1 W2 b2 W3 b3 l s.2.1 s.1 cnd, s.2.2 + logDet W1 b1 W2 b2 W3 b3 l s.1 cnd)

/-- Layers `le` (even) then `lo` (odd): one pair. -/
def layerPair (le lo : Fin 6) (cnd : Fin 128 → EReal) (s : RowState) : RowState :=
  oddLayer W1 b1 W2 b2 W3 b3 lo cnd (evenLayer W1 b1 W2 b2 W3 b3 le cnd s)

/-- The row's state after the first `n` pairs of layers (layers 0 … 2n-1), `n ≤ 3`. -/
def afterPairs (cnd : Fin 128 → EReal) (s : RowState) : Nat → RowState
  | 0 => s
  | n + 1 => layerPair W1 b1 W2 b2 W3 b3 ⟨(2 * n) % 6, Nat.mod_lt _ (by decide)⟩ ⟨(2 * n + 1) % 6, Nat.mod_lt _ (by decide)⟩ cnd
      (afterPairs cnd s n)

end Layer

section Arrays

variable (T : FVec Ideal ⟨2, ![32768, 64]⟩ .f32) (C : FVec Ideal ⟨2, ![32768, 128]⟩ .f32)
  (W1 : FVec Ideal ⟨3, ![6, 160, 1024]⟩ .f32) (b1 : FVec Ideal ⟨2, ![6, 1024]⟩ .f32)
  (W2 : FVec Ideal ⟨3, ![6, 1024, 1024]⟩ .f32) (b2 : FVec Ideal ⟨2, ![6, 1024]⟩ .f32)
  (W3 : FVec Ideal ⟨3, ![6, 1024, 64]⟩ .f32) (b3 : FVec Ideal ⟨2, ![6, 64]⟩ .f32)

/-- Row `r` of the conditioning array. -/
def condRow (r : Fin 32768) (k : Fin 128) : EReal := C (ix2 r k)

/-- Row `r` of a `[32768, 64]` array and a `[32768]` array as a row state. -/
def rowOf (Z : FVec Ideal ⟨2, ![32768, 64]⟩ .f32) (L : FVec Ideal ⟨1, ![32768]⟩ .f32) (r : Fin 32768) : RowState :=
  (fun j => Z (ix2 r ⟨j.val, by have := j.isLt; omega⟩), fun j => Z (ix2 r ⟨32 + j.val, by have := j.isLt; omega⟩), L (ix1 r))

/-- Row `r` at the start: the two halves of `T`'s row, log-determinant 0. -/
def startRow (r : Fin 32768) : RowState :=
  (fun j => T (ix2 r ⟨j.val, by have := j.isLt; omega⟩), fun j => T (ix2 r ⟨32 + j.val, by have := j.isLt; omega⟩), 0)

/-- Row `r` after all six layers. -/
def flowRow (r : Fin 32768) : RowState :=
  afterPairs W1 b1 W2 b2 W3 b3 (condRow C r) (startRow T r) 3

/-- The flow's `z` result: columns 0 … 31 the first half, 32 … 63 the second. -/
def zOut : FVec Ideal ⟨2, ![32768, 64]⟩ .f32 := fun i =>
  if h : (i 1).val < 32 then (flowRow T C W1 b1 W2 b2 W3 b3 (i 0)).1 ⟨(i 1).val, h⟩
  else (flowRow T C W1 b1 W2 b2 W3 b3 (i 0)).2.1 ⟨(i 1).val - 32, by have := idx2_lt1 i; omega⟩

/-- The flow's log-determinant result. -/
def logDetOut : FVec Ideal ⟨1, ![32768]⟩ .f32 := fun i => (flowRow T C W1 b1 W2 b2 W3 b3 (i 0)).2.2

end Arrays

end Cert.Flow

end
-- ==== Proof.KernelTripDefs.lean ====
/-
  One trip of the kernel's loop over pairs of coupling layers, as a function of what it reads.  The loop carries, for the
  512 rows of a block, the two halves of `z` (two `[512, 32]` blocks) and the log-determinant (a `[512, 1]` block).  Trip
  `j` runs layer `2j` on the first half reading the second, then layer `2j + 1` on the second half reading the NEW first
  half; it reads the block of conditioning rows and, for each of the two layers, that layer's slice of the three weight
  arrays and the three bias arrays.  `tripYield` is the trip's result over the kernel's named arithmetic; `blockRow` is
  one row of a carried triple as the specification's row state.
-/
import proofs.«157287_j66073776882121_2_alg».proof.Proof.Gen.KernelIdeal.Skeleton
import proofs.«157287_j66073776882121_2_alg».proof.Proof.CouplingSpec

noncomputable section

namespace Cert.Flow.Kernel

open Cert.KernelIdeal Cert.KernelIdeal.Gen Idealize.ShloMosaic Idealize.ShloMosaic.ValueIdx

/-- What the loop carries: the first half of `z`, the second half, the log-determinant, for the 512 rows of a block. -/
abbrev Carry : Type := Vec Ideal S512x32 .f32 × Vec Ideal S512x32 .f32 × FVec Ideal S512x1 .f32

/-- One trip's result from the conditioning block `v0`, the even layer's six loaded slices (`v16` … `v46`: W1, b1, W2, b2,
    W3, b3 of that layer), the odd layer's six (`v63` … `v93`) and the carried triple. -/
def tripYield (v0 : Vec Ideal S512x128 .f32)
    (v16 : Vec Ideal S1x160x1024 .bf16) (v20 : Vec Ideal S1x1024 .f32) (v29 : Vec Ideal S1x1024x1024 .bf16)
    (v33 : Vec Ideal S1x1024 .f32) (v42 : Vec Ideal S1x1024x64 .bf16) (v46 : Vec Ideal S1x64 .f32)
    (v63 : Vec Ideal S1x160x1024 .bf16) (v67 : Vec Ideal S1x1024 .f32) (v76 : Vec Ideal S1x1024x1024 .bf16)
    (v80 : Vec Ideal S1x1024 .f32) (v89 : Vec Ideal S1x1024x64 .bf16) (v93 : Vec Ideal S1x64 .f32)
    (acc : Carry) : Carry :=
  (k0_pay10 acc.1 (k0_pay7 (k0_pay1 v0) acc.2.1 v16 v20 v29 v33 v42 v46) (k0_pay8 (k0_pay1 v0) acc.2.1 v16 v20 v29 v33 v42 v46),
   k0_pay5 acc.2.1
     (k0_pay12 (k0_pay1 v0) acc.1 (k0_pay7 (k0_pay1 v0) acc.2.1 v16 v20 v29 v33 v42 v46)
       (k0_pay8 (k0_pay1 v0) acc.2.1 v16 v20 v29 v33 v42 v46) v63 v67 v76 v80 v89)
     (k0_pay13 v93),
   k0_pay6 (k0_pay11 acc.2.2 (k0_pay8 (k0_pay1 v0) acc.2.1 v16 v20 v29 v33 v42 v46))
     (k0_pay12 (k0_pay1 v0) acc.1 (k0_pay7 (k0_pay1 v0) acc.2.1 v16 v20 v29 v33 v42 v46)
       (k0_pay8 (k0_pay1 v0) acc.2.1 v16 v20 v29 v33 v42 v46) v63 v67 v76 v80 v89)
     (k0_pay13 v93))

/-- Row `p` of a carried triple, as a row state. -/
def blockRow (acc : Carry) (p : Fin 512) : Cert.Flow.RowState :=
  (fun j => acc.1 (ix2 p j), fun j => acc.2.1 (ix2 p j), acc.2.2 (ix2 p (0 : Fin 1)))

end Cert.Flow.Kernel

end
-- ==== Proof.KernelTrips.lean ====
/-
  The kernel's loop, read as values.  The frame run goes through the loop by an invariant whose carried value before trip
  `k` is found by the run, trip by trip; here each trip's found result is shown to be `tripYield` of the slices the trip
  loads (layer `2k`'s and layer `2k + 1`'s, out of the whole weight and bias buffers), and a slice loaded at offset `l` on
  the layer axis is the whole buffer's contents at layer `l`.
-/
import proofs.«157287_j66073776882121_2_alg».proof.Proof.Gen.KernelIdeal.Frame
import proofs.«157287_j66073776882121_2_alg».proof.Proof.KernelTripDefs

set_option maxRecDepth 16384

noncomputable section

namespace Cert.Flow.Kernel

open Cert.KernelIdeal Cert.KernelIdeal.Gen
open Idealize.ShloMosaic Idealize.ShloMosaic.TcCoe Idealize.ShloMosaic.ValueIdx
open Idealize.SL Idealize.SL.Sem

/-- One trip's result, as the run finds it, is `tripYield` of the twelve slices the trip loads from the buffers' contents. -/
theorem tripR_eq (𝒱 : Variants) (c : Dev nD) (bd : Option 𝒱.V) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
    (v0 : Vec Ideal S512x128 .f32)
    (X3 : BufTy.Contents (Elt Ideal) arg3.view.ty) (X4 : BufTy.Contents (Elt Ideal) arg4.view.ty) (X5 : BufTy.Contents (Elt Ideal) arg5.view.ty)
    (X6 : BufTy.Contents (Elt Ideal) arg6.view.ty) (X7 : BufTy.Contents (Elt Ideal) arg7.view.ty) (X8 : BufTy.Contents (Elt Ideal) arg8.view.ty)
    (k : Fin k0_t1_loop.trips) (acc : Carry) :
    tripR_k0_t1 (F := Ideal) 𝒱 c bd i arg1 harg1 arg2 harg2 arg3 harg3 arg4 harg4 arg5 harg5 arg6 harg6 arg7 harg7 arg8 harg8 arg9 harg9 arg10 harg10 v0 X3 X4 X5 X6 X7 X8 k acc
      = tripYield v0
          (View.readAt (Elt Ideal) arg3.view (Rect.unit (s := S6x160x1024) (k0_off1 k) S1x160x1024.size (k0_off1_inb k)).toLoadRect X3)
          (View.readAt (Elt Ideal) arg4.view (Rect.unit (s := S6x1024) (k0_off2 k) S1x1024.size (k0_off2_inb k)).toLoadRect X4)
          (View.readAt (Elt Ideal) arg5.view (Rect.unit (s := S6x1024x1024) (k0_off3 k) S1x1024x1024.size (k0_off3_inb k)).toLoadRect X5)
          (View.readAt (Elt Ideal) arg6.view (Rect.unit (s := S6x1024) (k0_off2 k) S1x1024.size (k0_off2_inb k)).toLoadRect X6)
          (View.readAt (Elt Ideal) arg7.view (Rect.unit (s := S6x1024x64) (k0_off4 k) S1x1024x64.size (k0_off4_inb k)).toLoadRect X7)
          (View.readAt (Elt Ideal) arg8.view (Rect.unit (s := S6x64) (k0_off5 k) S1x64.size (k0_off5_inb k)).toLoadRect X8)
          (View.readAt (Elt Ideal) arg3.view (Rect.unit (s := S6x160x1024) (k0_off6 k) S1x160x1024.size (k0_off6_inb k)).toLoadRect X3)
          (View.readAt (Elt Ideal) arg4.view (Rect.unit (s := S6x1024) (k0_off7 k) S1x1024.size (k0_off7_inb k)).toLoadRect X4)
          (View.readAt (Elt Ideal) arg5.view (Rect.unit (s := S6x1024x1024) (k0_off8 k) S1x1024x1024.size (k0_off8_inb k)).toLoadRect X5)
          (View.readAt (Elt Ideal) arg6.view (Rect.unit (s := S6x1024) (k0_off7 k) S1x1024.size (k0_off7_inb k)).toLoadRect X6)
          (View.readAt (Elt Ideal) arg7.view (Rect.unit (s := S6x1024x64) (k0_off9 k) S1x1024x64.size (k0_off9_inb k)).toLoadRect X7)
          (View.readAt (Elt Ideal) arg8.view (Rect.unit (s := S6x64) (k0_off10 k) S1x64.size (k0_off10_inb k)).toLoadRect X8)
          acc := by
  unfold tripR_k0_t1 trip_k0_t1
  rfl

end Cert.Flow.Kernel

end
-- ==== Proof.KernelRow.lean ====
/-
  One trip of the kernel's loop, one batch row at a time, against the specification's pair of coupling layers.

  The kernel's arithmetic on a block of 512 rows is read at an index: a block product into a zero accumulator is the sum
  over the contracted coordinate; a bias block, flattened and broadcast, is its entry; the join of a half with the
  conditioning block is the specification's joined row; the lane sum of the log-scales is the sum over the row.  Both
  layers of a trip run the same chain of operations, named once (`chain`, `coupled`, `logDetCol`); each payload is that chain
  by unfolding.  Row `p` of the trip's result is then the even layer followed by the odd layer on row `p` of what the trip
  was given (`tripYield_row`).  No finiteness is needed: every step is an identity of extended reals.
-/
import proofs.«157287_j66073776882121_2_alg».proof.Proof.KernelTripDefs
import Idealize.ShloMosaic.Lib.ValueLayout
import Idealize.ShloMosaic.PureOps.Ideal.Laws

noncomputable section

namespace Cert.Flow.Kernel

open Idealize.ShloMosaic Idealize.ShloMosaic.ValueIdx Cert.KernelIdeal Cert.KernelIdeal.Gen

/-! ## The three block products at an index -/

theorem lhs1_0 (i : S512x1024.Idx) (q : dot_S512x160_S160x1024_S512x1024_1_0_0_1_n_n.contr.Idx) : (dot_S512x160_S160x1024_S512x1024_1_0_0_1_n_n.lhsIdx i q 0).val = (i 0).val := by
  unfold DotDims.lhsIdx
  rw [dif_neg (show ¬(0 : Fin S512x160.rank) ∈ dot_S512x160_S160x1024_S512x1024_1_0_0_1_n_n.lhsBatch by decide), dif_pos (show (0 : Fin S512x160.rank) ∈ dot_S512x160_S160x1024_S512x1024_1_0_0_1_n_n.lhsNonContracting by decide)]
  rfl
theorem lhs1_1 (i : S512x1024.Idx) (q : dot_S512x160_S160x1024_S512x1024_1_0_0_1_n_n.contr.Idx) : (dot_S512x160_S160x1024_S512x1024_1_0_0_1_n_n.lhsIdx i q 1).val = (q ⟨0, by decide⟩).val :=
  dot_S512x160_S160x1024_S512x1024_1_0_0_1_n_n.lhsIdx_val_of_single rfl i q
theorem rhs1_0 (i : S512x1024.Idx) (q : dot_S512x160_S160x1024_S512x1024_1_0_0_1_n_n.contr.Idx) : (dot_S512x160_S160x1024_S512x1024_1_0_0_1_n_n.rhsIdx i q 0).val = (q ⟨0, by decide⟩).val :=
  dot_S512x160_S160x1024_S512x1024_1_0_0_1_n_n.rhsIdx_val_of_single rfl i q
theorem rhs1_1 (i : S512x1024.Idx) (q : dot_S512x160_S160x1024_S512x1024_1_0_0_1_n_n.contr.Idx) : (dot_S512x160_S160x1024_S512x1024_1_0_0_1_n_n.rhsIdx i q 1).val = (i 1).val := by
  unfold DotDims.rhsIdx
  rw [dif_neg (show ¬(1 : Fin S160x1024.rank) ∈ dot_S512x160_S160x1024_S512x1024_1_0_0_1_n_n.rhsBatch by decide), dif_pos (show (1 : Fin S160x1024.rank) ∈ dot_S512x160_S160x1024_S512x1024_1_0_0_1_n_n.rhsNonContracting by decide)]
  rfl

/-- The block product into a zero accumulator, read at row `p`, column `n`: the sum over the 160 contracted coordinates. -/
theorem matmul1_apply (lhs : FVec Ideal S512x160 .bf16) (rhs : FVec Ideal S160x1024 .bf16) (p : Fin 512) (n : Fin 1024) :
    matmul dot_S512x160_S160x1024_S512x1024_1_0_0_1_n_n none lhs rhs (constant (F := Ideal) S512x1024 .f32 0x00000000#32) (ix2 p n)
      = ∑ k : Fin 160, lhs (ix2 p k) * rhs (ix2 k n) := by
  refine (Ideal.matmul_constant_zero_apply dot_S512x160_S160x1024_S512x1024_1_0_0_1_n_n none lhs rhs (ix2 p n)).trans ?_
  rw [← Equiv.sum_comp (contrEquiv1 dot_S512x160_S160x1024_S512x1024_1_0_0_1_n_n 160 rfl rfl).symm]
  refine Finset.sum_congr rfl fun k _ => ?_
  have hk := contrEquiv1_symm_val dot_S512x160_S160x1024_S512x1024_1_0_0_1_n_n 160 rfl rfl k
  have el : dot_S512x160_S160x1024_S512x1024_1_0_0_1_n_n.lhsIdx (ix2 p n) ((contrEquiv1 dot_S512x160_S160x1024_S512x1024_1_0_0_1_n_n 160 rfl rfl).symm k) = ix2 p k :=
    funext fun a => Fin.ext (by
      match a with
      | ⟨0, _⟩ => exact lhs1_0 _ _
      | ⟨1, _⟩ => exact (lhs1_1 _ _).trans hk)
  have er : dot_S512x160_S160x1024_S512x1024_1_0_0_1_n_n.rhsIdx (ix2 p n) ((contrEquiv1 dot_S512x160_S160x1024_S512x1024_1_0_0_1_n_n 160 rfl rfl).symm k) = ix2 k n :=
    funext fun a => Fin.ext (by
      match a with
      | ⟨0, _⟩ => exact (rhs1_0 _ _).trans hk
      | ⟨1, _⟩ => exact rhs1_1 _ _)
  rw [el, er]

theorem lhs2_0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs2_1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs2_0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs2_1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block product into a zero accumulator, read at row `p`, column `n`: the sum over the 1024 contracted coordinates. -/
theorem matmul2_apply (lhs : FVec Ideal S512x1024 .bf16) (rhs : FVec Ideal S1024x1024 .bf16) (p : Fin 512) (n : Fin 1024) :
    matmul dot_S512x1024_S1024x1024_S512x1024_1_0_0_1_n_n none lhs rhs (constant (F := Ideal) S512x1024 .f32 0x00000000#32) (ix2 p n)
      = ∑ k : Fin 1024, lhs (ix2 p k) * rhs (ix2 k n) := by
  refine (Ideal.matmul_constant_zero_apply dot_S512x1024_S1024x1024_S512x1024_1_0_0_1_n_n none lhs rhs (ix2 p n)).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p n) ((contrEquiv1 dot_S512x1024_S1024x1024_S512x1024_1_0_0_1_n_n 1024 rfl rfl).symm k) = ix2 p k :=
    funext fun a => Fin.ext (by
      match a with
      | ⟨0, _⟩ => exact lhs2_0 _ _
      | ⟨1, _⟩ => exact (lhs2_1 _ _).trans hk)
  have er : dot_S512x1024_S1024x1024_S512x1024_1_0_0_1_n_n.rhsIdx (ix2 p n) ((contrEquiv1 dot_S512x1024_S1024x1024_S512x1024_1_0_0_1_n_n 1024 rfl rfl).symm k) = ix2 k n :=
    funext fun a => Fin.ext (by
      match a with
      | ⟨0, _⟩ => exact (rhs2_0 _ _).trans hk
      | ⟨1, _⟩ => exact rhs2_1 _ _)
  rw [el, er]

theorem lhs3_0 (i : S512x64.Idx) (q : dot_S512x1024_S1024x64_S512x64_1_0_0_1_n_n.contr.Idx) : (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs3_1 (i : S512x64.Idx) (q : dot_S512x1024_S1024x64_S512x64_1_0_0_1_n_n.contr.Idx) : (dot_S512x1024_S1024x64_S512x64_1_0_0_1_n_n.lhsIdx i q 1).val = (q ⟨0, by decide⟩).val :=
  dot_S512x1024_S1024x64_S512x64_1_0_0_1_n_n.lhsIdx_val_of_single rfl i q
theorem rhs3_0 (i : S512x64.Idx) (q : dot_S512x1024_S1024x64_S512x64_1_0_0_1_n_n.contr.Idx) : (dot_S512x1024_S1024x64_S512x64_1_0_0_1_n_n.rhsIdx i q 0).val = (q ⟨0, by decide⟩).val :=
  dot_S512x1024_S1024x64_S512x64_1_0_0_1_n_n.rhsIdx_val_of_single rfl i q
theorem rhs3_1 (i : S512x64.Idx) (q : dot_S512x1024_S1024x64_S512x64_1_0_0_1_n_n.contr.Idx) : (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- The block product into a zero accumulator, read at row `p`, column `n`: the sum over the 1024 contracted coordinates. -/
theorem matmul3_apply (lhs : FVec Ideal S512x1024 .bf16) (rhs : FVec Ideal S1024x64 .bf16) (p : Fin 512) (n : Fin 64) :
    matmul dot_S512x1024_S1024x64_S512x64_1_0_0_1_n_n none lhs rhs (constant (F := Ideal) S512x64 .f32 0x00000000#32) (ix2 p n)
      = ∑ k : Fin 1024, lhs (ix2 p k) * rhs (ix2 k n) := by
  refine (Ideal.matmul_constant_zero_apply dot_S512x1024_S1024x64_S512x64_1_0_0_1_n_n none lhs rhs (ix2 p n)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 p n) ((contrEquiv1 dot_S512x1024_S1024x64_S512x64_1_0_0_1_n_n 1024 rfl rfl).symm k) = ix2 p k :=
    funext fun a => Fin.ext (by
      match a with
      | ⟨0, _⟩ => exact lhs3_0 _ _
      | ⟨1, _⟩ => exact (lhs3_1 _ _).trans hk)
  have er : dot_S512x1024_S1024x64_S512x64_1_0_0_1_n_n.rhsIdx (ix2 p n) ((contrEquiv1 dot_S512x1024_S1024x64_S512x64_1_0_0_1_n_n 1024 rfl rfl).symm k) = ix2 k n :=
    funext fun a => Fin.ext (by
      match a with
      | ⟨0, _⟩ => exact (rhs3_0 _ _).trans hk
      | ⟨1, _⟩ => exact rhs3_1 _ _)
  rw [el, er]

/-! ## A bias block and the lane sum at an index -/

/-- A `[1, N]` bias block, flattened, given its unit axis back and broadcast over the 512 rows, reads its entry `n`
    at every row. -/
theorem bias_apply {N : ℕ} (b : (⟨2, ![1, N]⟩ : Shape).Idx → EReal) (h1 : (⟨2, ![1, N]⟩ : Shape).ShapeCasts ⟨1, ![N]⟩)
    (h2 : (⟨1, ![N]⟩ : Shape).ShapeCasts ⟨2, ![1, N]⟩) (h3 : (⟨2, ![1, N]⟩ : Shape).Broadcasts ⟨2, ![512, N]⟩) (p : Fin 512) (n : Fin N) :
    broadcastTo ⟨2, ![512, N]⟩ (shapeCast ⟨2, ![1, N]⟩ (shapeCast ⟨1, ![N]⟩ b h1) h2) h3 (ix2 p n) = b (ix2 (0 : Fin 1) n) := by
  rw [broadcastTo_1b_ab_apply, shapeCast_a_1a_apply, shapeCast_1a_a_apply]

/-- The sum over the 32 lanes of a `[512, 32]` block, as a `[512, 1]` column, reads at row `p` the sum of the row. -/
theorem laneSum_apply (x : FVec Ideal S512x32 .f32) (p : Fin 512) :
    shapeCast S512x1 (multiReduction (F := Ideal) .add [1] S512 x 0x00000000#32 reduces_S512x32_S512 (.inl rfl) rfl) shapeCasts_S512_S512x1
      (ix2 p (0 : Fin 1)) = ∑ j : Fin 32, x (ix2 p j) := by
  refine (shapeCast_apply _ shapeCasts_S512_S512x1 (ix2 p (0 : Fin 1)) (ix1 p) ?_).trans ?_
  · rw [Shape.rowMajor_val_one, Shape.rowMajor_val_two]
    show p.val = p.val * 1 + 0
    omega
  refine (Ideal.multiReduction_add_single x 0x00000000#32 reduces_S512x32_S512 (.inl rfl) rfl (ix1 p)).trans ?_
  show ∑ k : Fin 32, x (reduces_S512x32_S512.lift (ix1 p) k) = ∑ j : Fin 32, x (ix2 p j)
  refine Finset.sum_congr rfl fun k _ => congrArg x (funext fun c => Fin.ext ?_)
  match c with
  | ⟨0, _⟩ => rfl
  | ⟨1, _⟩ => rfl

/-- Columns 0 … 31 of a `[512, 64]` block. -/
theorem lowHalf_apply (x : FVec Ideal S512x64 .f32) (p : Fin 512) (j : Fin 32) :
    extractStridedSlice S512x32 ![0, 0] x slices_S512x64_o0_0_S512x32 (ix2 p j) = x (ix2 p ⟨j.val, by have := j.isLt; omega⟩) :=
  slice2_axis1_apply 0 x slices_S512x64_o0_0_S512x32 p j _ (Nat.zero_add _).symm

/-- Columns 32 … 63 of a `[512, 64]` block. -/
theorem highHalf_apply (x : FVec Ideal S512x64 .f32) (p : Fin 512) (j : Fin 32) :
    extractStridedSlice S512x32 ![0, 32] x slices_S512x64_o0_32_S512x32 (ix2 p j) = x (ix2 p ⟨32 + j.val, by have := j.isLt; omega⟩) :=
  slice2_axis1_apply 32 x slices_S512x64_o0_32_S512x32 p j _ rfl

/-! ## The perceptron of one coupling layer on a block, stage by stage

The kernel's two layers per trip run the same chain of operations on a `[512, 32]` half joined with the conditioning
block; the chain is named here once, for any float instance, and each payload is that chain by unfolding. -/

section Chain
variable {F : FTy → Type} [FloatOps F]

/-- The perceptron's input block: the half, narrowed, joined with the conditioning block along the columns. -/
def inputBlock (u : FVec F S512x32 .f32) (c : FVec F S512x128 .bf16) : FVec F S512x160 .bf16 :=
  concatenate S512x160 1 [⟨S512x32, truncf .bf16 u bitsLt_bf16_f32⟩, ⟨S512x128, c⟩] concatenates_S512x32_S512x128_S512x160_d1

/-- First hidden block: product with the `[1, 160, 1024]` weight block, plus the bias row, maximum with zero, narrowed. -/
def stage1 (x : FVec F S512x160 .bf16) (w : FVec F S1x160x1024 .bf16) (b : FVec F S1x1024 .f32) : FVec F S512x1024 .bf16 :=
  truncf .bf16 (maximumf
    (addf (matmul dot_S512x160_S160x1024_S512x1024_1_0_0_1_n_n none x (shapeCast S160x1024 w shapeCasts_S1x160x1024_S160x1024) (constant S512x1024 .f32 0x00000000#32))
      (broadcastTo S512x1024 (shapeCast S1x1024 (shapeCast S1024 b shapeCasts_S1x1024_S1024) shapeCasts_S1024_S1x1024) broadcasts_S1x1024_S512x1024))
    (broadcast S512x1024 (Scalar.ofBits .f32 0x00000000#32))) bitsLt_bf16_f32

/-- Second hidden block: the same with the `[1, 1024, 1024]` weight block. -/
def stage2 (x : FVec F S512x1024 .bf16) (w : FVec F S1x1024x1024 .bf16) (b : FVec F S1x1024 .f32) : FVec F S512x1024 .bf16 :=
  truncf .bf16 (maximumf
    (addf (matmul dot_S512x1024_S1024x1024_S512x1024_1_0_0_1_n_n none x (shapeCast S1024x1024 w shapeCasts_S1x1024x1024_S1024x1024) (constant S512x1024 .f32 0x00000000#32))
      (broadcastTo S512x1024 (shapeCast S1x1024 (shapeCast S1024 b shapeCasts_S1x1024_S1024) shapeCasts_S1024_S1x1024) broadcasts_S1x1024_S512x1024))
    (broadcast S512x1024 (Scalar.ofBits .f32 0x00000000#32))) bitsLt_bf16_f32

/-- The output block before its bias: product with the `[1, 1024, 64]` weight block. -/
def stage3 (x : FVec F S512x1024 .bf16) (w : FVec F S1x1024x64 .bf16) : FVec F S512x64 .f32 :=
  matmul dot_S512x1024_S1024x64_S512x64_1_0_0_1_n_n none x (shapeCast S1024x64 w shapeCasts_S1x1024x64_S1024x64) (constant S512x64 .f32 0x00000000#32)

/-- The whole chain before the last bias. -/
def chain (c : FVec F S512x128 .bf16) (u : FVec F S512x32 .f32) (w1 : FVec F S1x160x1024 .bf16) (b1 : FVec F S1x1024 .f32)
    (w2 : FVec F S1x1024x1024 .bf16) (b2 : FVec F S1x1024 .f32) (w3 : FVec F S1x1024x64 .bf16) : FVec F S512x64 .f32 :=
  stage3 (stage2 (stage1 (inputBlock u c) w1 b1) w2 b2) w3

/-- The first layer's 64 outputs are the chain plus the last bias … -/
theorem pay7_eq (v1 : FVec F S512x128 .bf16) (arg13 : Vec F S512x32 .f32) (v16 : Vec F S1x160x1024 .bf16) (v20 : Vec F S1x1024 .f32)
    (v29 : Vec F S1x1024x1024 .bf16) (v33 : Vec F S1x1024 .f32) (v42 : Vec F S1x1024x64 .bf16) (v46 : Vec F S1x64 .f32) :
    k0_pay7 v1 arg13 v16 v20 v29 v33 v42 v46 = addf (chain v1 arg13 v16 v20 v29 v33 v42) (k0_pay13 v46) := rfl

/-- … and the second layer's product chain is the chain on the half the first layer produced. -/
theorem pay12_eq (v1 : FVec F S512x128 .bf16) (arg12 : Vec F S512x32 .f32) (v50 : FVec F S512x64 .f32) (v51 : FVec F S512x32 .f32)
    (v63 : Vec F S1x160x1024 .bf16) (v67 : Vec F S1x1024 .f32) (v76 : Vec F S1x1024x1024 .bf16) (v80 : Vec F S1x1024 .f32)
    (v89 : Vec F S1x1024x64 .bf16) :
    k0_pay12 v1 arg12 v50 v51 v63 v67 v76 v80 v89 = chain v1 (k0_pay10 arg12 v50 v51) v63 v67 v76 v80 v89 := rfl

end Chain

/-! ## The stages at an index, at the extended reals -/

theorem stage1_apply (x : FVec Ideal S512x160 .bf16) (w : FVec Ideal S1x160x1024 .bf16) (b : FVec Ideal S1x1024 .f32) (p : Fin 512) (n : Fin 1024) :
    stage1 x w b (ix2 p n) = max ((∑ k : Fin 160, x (ix2 p k) * w (ix3 (0 : Fin 1) k n)) + b (ix2 (0 : Fin 1) n)) 0 := by
  show max (matmul dot_S512x160_S160x1024_S512x1024_1_0_0_1_n_n none x (shapeCast S160x1024 w shapeCasts_S1x160x1024_S160x1024) (constant (F := Ideal) S512x1024 .f32 0x00000000#32) (ix2 p n)
      + broadcastTo S512x1024 (shapeCast S1x1024 (shapeCast S1024 b shapeCasts_S1x1024_S1024) shapeCasts_S1024_S1x1024) broadcasts_S1x1024_S512x1024 (ix2 p n))
    (Ideal.ofBits .f32 0x00000000#32) = _
  rw [matmul1_apply, bias_apply, Ideal.ofBits_zero_f32]
  refine congrArg (fun s => max (s + b (ix2 (0 : Fin 1) n)) 0) (Finset.sum_congr rfl fun k _ => ?_)
  rw [shapeCast_1ab_ab_apply]

theorem stage2_apply (x : FVec Ideal S512x1024 .bf16) (w : FVec Ideal S1x1024x1024 .bf16) (b : FVec Ideal S1x1024 .f32) (p : Fin 512) (n : Fin 1024) :
    stage2 x w b (ix2 p n) = max ((∑ k : Fin 1024, x (ix2 p k) * w (ix3 (0 : Fin 1) k n)) + b (ix2 (0 : Fin 1) n)) 0 := by
  show max (matmul dot_S512x1024_S1024x1024_S512x1024_1_0_0_1_n_n none x (shapeCast S1024x1024 w shapeCasts_S1x1024x1024_S1024x1024) (constant (F := Ideal) S512x1024 .f32 0x00000000#32) (ix2 p n)
      + broadcastTo S512x1024 (shapeCast S1x1024 (shapeCast S1024 b shapeCasts_S1x1024_S1024) shapeCasts_S1024_S1x1024) broadcasts_S1x1024_S512x1024 (ix2 p n))
    (Ideal.ofBits .f32 0x00000000#32) = _
  rw [matmul2_apply, bias_apply, Ideal.ofBits_zero_f32]
  refine congrArg (fun s => max (s + b (ix2 (0 : Fin 1) n)) 0) (Finset.sum_congr rfl fun k _ => ?_)
  rw [shapeCast_1ab_ab_apply]

theorem stage3_apply (x : FVec Ideal S512x1024 .bf16) (w : FVec Ideal S1x1024x64 .bf16) (b : FVec Ideal S1x64 .f32) (p : Fin 512) (n : Fin 64) :
    addf (stage3 x w) (k0_pay13 b) (ix2 p n) = (∑ k : Fin 1024, x (ix2 p k) * w (ix3 (0 : Fin 1) k n)) + b (ix2 (0 : Fin 1) n) := by
  show matmul dot_S512x1024_S1024x64_S512x64_1_0_0_1_n_n none x (shapeCast S1024x64 w shapeCasts_S1x1024x64_S1024x64) (constant (F := Ideal) S512x64 .f32 0x00000000#32) (ix2 p n)
      + broadcastTo S512x64 (shapeCast S1x64 (shapeCast S64 b shapeCasts_S1x64_S64) shapeCasts_S64_S1x64) broadcasts_S1x64_S512x64 (ix2 p n) = _
  rw [matmul3_apply, bias_apply]
  refine congrArg (fun s => s + b (ix2 (0 : Fin 1) n)) (Finset.sum_congr rfl fun k _ => ?_)
  rw [shapeCast_1ab_ab_apply]

/-! ## The chain against the specification's perceptron, one row at a time -/

open Cert.Flow

/-- Row `p` of the input block is the specification's joined row. -/
theorem inputBlock_apply (u : FVec Ideal S512x32 .f32) (c : FVec Ideal S512x128 .bf16) (p : Fin 512) (k : Fin 160) :
    inputBlock u c (ix2 p k) = joined (fun j => u (ix2 p j)) (fun j => c (ix2 p j)) k := by
  unfold joined inputBlock
  split
  · next h =>
    exact concatenate_pair_apply_left (1 : Fin S512x160.rank) (truncf .bf16 u bitsLt_bf16_f32) c
      concatenates_S512x32_S512x128_S512x160_d1 (ix2 p k) rfl (ix2 p ⟨k.val, h⟩)
      (fun b => match b with | ⟨0, _⟩ => rfl | ⟨1, _⟩ => rfl)
  · next h =>
    exact concatenate_pair_apply_right (1 : Fin S512x160.rank) (truncf .bf16 u bitsLt_bf16_f32) c
      concatenates_S512x32_S512x128_S512x160_d1 (ix2 p k) rfl rfl (ix2 p ⟨k.val - 32, by have := k.isLt; omega⟩)
      (fun b hb => match b, hb with | ⟨0, _⟩, _ => rfl | ⟨1, _⟩, hb => absurd (Fin.ext rfl) hb)
      (by show k.val - 32 + 32 = k.val; omega)

section Rows
variable (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32) (l : Fin 6) (p : Fin 512)

/-- A first hidden block whose weights are layer `l`'s, on a block whose row `p` is `X`: row `p` is `hidden1` of `X`. -/
theorem stage1_row (x : FVec Ideal S512x160 .bf16) (w : FVec Ideal S1x160x1024 .bf16) (b : FVec Ideal S1x1024 .f32)
    (hw : ∀ a n, w (ix3 (0 : Fin 1) a n) = W1 (ix3 l a n)) (hb : ∀ n, b (ix2 (0 : Fin 1) n) = b1 (ix2 l n))
    (X : Fin 160 → EReal) (hx : ∀ k, x (ix2 p k) = X k) (n : Fin 1024) :
    stage1 x w b (ix2 p n) = hidden1 W1 b1 l X n := by
  rw [stage1_apply, hb n]
  exact congrArg (fun s => max (s + b1 (ix2 l n)) 0) (Finset.sum_congr rfl fun k _ => by rw [hx k, hw k n])

/-- Likewise the second hidden block. -/
theorem stage2_row (x : FVec Ideal S512x1024 .bf16) (w : FVec Ideal S1x1024x1024 .bf16) (b : FVec Ideal S1x1024 .f32)
    (hw : ∀ a n, w (ix3 (0 : Fin 1) a n) = W2 (ix3 l a n)) (hb : ∀ n, b (ix2 (0 : Fin 1) n) = b2 (ix2 l n))
    (X : Fin 1024 → EReal) (hx : ∀ k, x (ix2 p k) = X k) (n : Fin 1024) :
    stage2 x w b (ix2 p n) = hidden2 W2 b2 l X n := by
  rw [stage2_apply, hb n]
  exact congrArg (fun s => max (s + b2 (ix2 l n)) 0) (Finset.sum_congr rfl fun k _ => by rw [hx k, hw k n])

/-- Likewise the output block with its bias. -/
theorem stage3_row (x : FVec Ideal S512x1024 .bf16) (w : FVec Ideal S1x1024x64 .bf16) (b : FVec Ideal S1x64 .f32)
    (hw : ∀ a n, w (ix3 (0 : Fin 1) a n) = W3 (ix3 l a n)) (hb : ∀ n, b (ix2 (0 : Fin 1) n) = b3 (ix2 l n))
    (X : Fin 1024 → EReal) (hx : ∀ k, x (ix2 p k) = X k) (n : Fin 64) :
    addf (stage3 x w) (k0_pay13 b) (ix2 p n) = outputs W3 b3 l X n := by
  rw [stage3_apply, hb n]
  exact congrArg (fun s => s + b3 (ix2 l n)) (Finset.sum_congr rfl fun k _ => by rw [hx k, hw k n])

/-- The chain with layer `l`'s six blocks, on the half `u` and the conditioning block `v0`: row `p` of its 64 outputs is the
    specification's perceptron on row `p` of `u` and of `v0`. -/
theorem chain_row (v0 : FVec Ideal S512x128 .f32) (u : FVec Ideal S512x32 .f32)
    (w1 : FVec Ideal S1x160x1024 .bf16) (c1 : FVec Ideal S1x1024 .f32) (w2 : FVec Ideal S1x1024x1024 .bf16) (c2 : FVec Ideal S1x1024 .f32)
    (w3 : FVec Ideal S1x1024x64 .bf16) (c3 : FVec Ideal S1x64 .f32)
    (hw1 : ∀ a n, w1 (ix3 (0 : Fin 1) a n) = W1 (ix3 l a n)) (hc1 : ∀ n, c1 (ix2 (0 : Fin 1) n) = b1 (ix2 l n))
    (hw2 : ∀ a n, w2 (ix3 (0 : Fin 1) a n) = W2 (ix3 l a n)) (hc2 : ∀ n, c2 (ix2 (0 : Fin 1) n) = b2 (ix2 l n))
    (hw3 : ∀ a n, w3 (ix3 (0 : Fin 1) a n) = W3 (ix3 l a n)) (hc3 : ∀ n, c3 (ix2 (0 : Fin 1) n) = b3 (ix2 l n)) (n : Fin 64) :
    addf (chain (k0_pay1 v0) u w1 c1 w2 c2 w3) (k0_pay13 c3) (ix2 p n)
      = params W1 b1 W2 b2 W3 b3 l (fun j => u (ix2 p j)) (fun k => v0 (ix2 p k)) n :=
  stage3_row W3 b3 l p _ w3 c3 hw3 hc3 _
    (fun k => stage2_row W2 b2 l p _ w2 c2 hw2 hc2 _
      (fun k' => stage1_row W1 b1 l p _ w1 c1 hw1 hc1 _ (fun k'' => inputBlock_apply u (k0_pay1 v0) p k'') k') k) n

end Rows

/-! ## The coupling update and the log-determinant column -/

section Update
variable {F : FTy → Type} [FloatOps F]

/-- The masked half times the exponential of the log-scales (tanh of output columns 0 … 31) plus the shifts (output columns
    32 … 63). -/
def coupled (msk : FVec F S512x32 .f32) (o : FVec F S512x64 .f32) : FVec F S512x32 .f32 :=
  addf (mulf msk (exp (tanh (extractStridedSlice S512x32 ![0, 0] o slices_S512x64_o0_0_S512x32))))
    (extractStridedSlice S512x32 ![0, 32] o slices_S512x64_o0_32_S512x32)

/-- The log-determinant column plus the lane sum of the log-scales. -/
def logDetCol (ld : FVec F S512x1 .f32) (o : FVec F S512x64 .f32) : FVec F S512x1 .f32 :=
  addf ld (shapeCast S512x1
    (multiReduction .add [1] S512 (tanh (extractStridedSlice S512x32 ![0, 0] o slices_S512x64_o0_0_S512x32)) 0x00000000#32
      reduces_S512x32_S512 (.inl rfl) rfl) shapeCasts_S512_S512x1)

theorem pay10_eq (arg12 : Vec F S512x32 .f32) (v1 : FVec F S512x128 .bf16) (arg13 : Vec F S512x32 .f32) (v16 : Vec F S1x160x1024 .bf16)
    (v20 : Vec F S1x1024 .f32) (v29 : Vec F S1x1024x1024 .bf16) (v33 : Vec F S1x1024 .f32) (v42 : Vec F S1x1024x64 .bf16) (v46 : Vec F S1x64 .f32) :
    k0_pay10 arg12 (k0_pay7 v1 arg13 v16 v20 v29 v33 v42 v46) (k0_pay8 v1 arg13 v16 v20 v29 v33 v42 v46)
      = coupled arg12 (k0_pay7 v1 arg13 v16 v20 v29 v33 v42 v46) := rfl

theorem pay11_eq (arg14 : FVec F S512x1 .f32) (v1 : FVec F S512x128 .bf16) (arg13 : Vec F S512x32 .f32) (v16 : Vec F S1x160x1024 .bf16)
    (v20 : Vec F S1x1024 .f32) (v29 : Vec F S1x1024x1024 .bf16) (v33 : Vec F S1x1024 .f32) (v42 : Vec F S1x1024x64 .bf16) (v46 : Vec F S1x64 .f32) :
    k0_pay11 arg14 (k0_pay8 v1 arg13 v16 v20 v29 v33 v42 v46) = logDetCol arg14 (k0_pay7 v1 arg13 v16 v20 v29 v33 v42 v46) := rfl

theorem pay5_eq (arg13 : Vec F S512x32 .f32) (v91 v96 : FVec F S512x64 .f32) :
    k0_pay5 arg13 v91 v96 = coupled arg13 (addf v91 v96) := rfl

theorem pay6_eq (v59 : FVec F S512x1 .f32) (v91 v96 : FVec F S512x64 .f32) :
    k0_pay6 v59 v91 v96 = logDetCol v59 (addf v91 v96) := rfl

end Update

section UpdateRows
variable (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32) (l : Fin 6) (p : Fin 512)
  (o : FVec Ideal S512x64 .f32) (u : Fin 32 → EReal) (cnd : Fin 128 → EReal)
  (ho : ∀ n, o (ix2 p n) = params W1 b1 W2 b2 W3 b3 l u cnd n)
include ho

/-- When row `p` of the output block is the perceptron's row, row `p` of the update is the specification's transformed half. -/
theorem coupled_row (msk : FVec Ideal S512x32 .f32) (j : Fin 32) :
    coupled msk o (ix2 p j) = transformed W1 b1 W2 b2 W3 b3 l (fun j => msk (ix2 p j)) u cnd j := by
  show msk (ix2 p j) * Ideal.exp (Ideal.tanh (extractStridedSlice S512x32 ![0, 0] o slices_S512x64_o0_0_S512x32 (ix2 p j)))
    + extractStridedSlice S512x32 ![0, 32] o slices_S512x64_o0_32_S512x32 (ix2 p j) = _
  rw [lowHalf_apply, highHalf_apply, ho, ho]
  rfl

/-- … and entry `p` of the new column is the old entry plus the specification's log-determinant of the layer. -/
theorem logDetCol_row (ld : FVec Ideal S512x1 .f32) :
    logDetCol ld o (ix2 p (0 : Fin 1)) = ld (ix2 p (0 : Fin 1)) + logDet W1 b1 W2 b2 W3 b3 l u cnd := by
  show ld (ix2 p (0 : Fin 1)) + shapeCast S512x1 (multiReduction (F := Ideal) .add [1] S512
    (tanh (extractStridedSlice S512x32 ![0, 0] o slices_S512x64_o0_0_S512x32)) 0x00000000#32 reduces_S512x32_S512 (.inl rfl) rfl)
    shapeCasts_S512_S512x1 (ix2 p (0 : Fin 1)) = _
  rw [laneSum_apply]
  refine congrArg (ld (ix2 p (0 : Fin 1)) + ·) (Finset.sum_congr rfl fun j _ => ?_)
  show Ideal.tanh (extractStridedSlice S512x32 ![0, 0] o slices_S512x64_o0_0_S512x32 (ix2 p j)) = _
  rw [lowHalf_apply, ho]
  rfl

end UpdateRows

/-! ## One trip, row by row -/

/-- ROW `p` OF ONE TRIP. When the six blocks `v16` … `v46` are layer `le`'s slices of the weight and bias arrays and
    `v63` … `v93` layer `lo`'s, row `p` of the trip's result is the specification's even layer `le` followed by its odd layer
    `lo`, on row `p` of the conditioning block and row `p` of the carried triple. -/
theorem tripYield_row (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32) (le lo : Fin 6)
    (v0 : Vec Ideal S512x128 .f32)
    (v16 : Vec Ideal S1x160x1024 .bf16) (v20 : Vec Ideal S1x1024 .f32) (v29 : Vec Ideal S1x1024x1024 .bf16)
    (v33 : Vec Ideal S1x1024 .f32) (v42 : Vec Ideal S1x1024x64 .bf16) (v46 : Vec Ideal S1x64 .f32)
    (v63 : Vec Ideal S1x160x1024 .bf16) (v67 : Vec Ideal S1x1024 .f32) (v76 : Vec Ideal S1x1024x1024 .bf16)
    (v80 : Vec Ideal S1x1024 .f32) (v89 : Vec Ideal S1x1024x64 .bf16) (v93 : Vec Ideal S1x64 .f32) (acc : Carry)
    (h16 : ∀ a n, v16 (ix3 (0 : Fin 1) a n) = W1 (ix3 le a n)) (h20 : ∀ n, v20 (ix2 (0 : Fin 1) n) = b1 (ix2 le n))
    (h29 : ∀ a n, v29 (ix3 (0 : Fin 1) a n) = W2 (ix3 le a n)) (h33 : ∀ n, v33 (ix2 (0 : Fin 1) n) = b2 (ix2 le n))
    (h42 : ∀ a n, v42 (ix3 (0 : Fin 1) a n) = W3 (ix3 le a n)) (h46 : ∀ n, v46 (ix2 (0 : Fin 1) n) = b3 (ix2 le n))
    (h63 : ∀ a n, v63 (ix3 (0 : Fin 1) a n) = W1 (ix3 lo a n)) (h67 : ∀ n, v67 (ix2 (0 : Fin 1) n) = b1 (ix2 lo n))
    (h76 : ∀ a n, v76 (ix3 (0 : Fin 1) a n) = W2 (ix3 lo a n)) (h80 : ∀ n, v80 (ix2 (0 : Fin 1) n) = b2 (ix2 lo n))
    (h89 : ∀ a n, v89 (ix3 (0 : Fin 1) a n) = W3 (ix3 lo a n)) (h93 : ∀ n, v93 (ix2 (0 : Fin 1) n) = b3 (ix2 lo n))
    (p : Fin 512) :
    blockRow (tripYield v0 v16 v20 v29 v33 v42 v46 v63 v67 v76 v80 v89 v93 acc) p
      = layerPair W1 b1 W2 b2 W3 b3 le lo (fun k => v0 (ix2 p k)) (blockRow acc p) := by
  obtain ⟨a12, a13, a14⟩ := acc
  -- the even layer's 64 outputs, row `p`
  have ho1 : ∀ n, k0_pay7 (k0_pay1 v0) a13 v16 v20 v29 v33 v42 v46 (ix2 p n)
      = params W1 b1 W2 b2 W3 b3 le (fun j => a13 (ix2 p j)) (fun k => v0 (ix2 p k)) n := fun n =>
    (congrFun (pay7_eq (F := Ideal) (k0_pay1 v0) a13 v16 v20 v29 v33 v42 v46) (ix2 p n)).trans
      (chain_row W1 b1 W2 b2 W3 b3 le p v0 a13 v16 v20 v29 v33 v42 v46 h16 h20 h29 h33 h42 h46 n)
  -- the new first half, row `p`
  have hz : (fun j => k0_pay10 a12 (k0_pay7 (k0_pay1 v0) a13 v16 v20 v29 v33 v42 v46)
        (k0_pay8 (k0_pay1 v0) a13 v16 v20 v29 v33 v42 v46) (ix2 p j))
      = transformed W1 b1 W2 b2 W3 b3 le (fun j => a12 (ix2 p j)) (fun j => a13 (ix2 p j)) (fun k => v0 (ix2 p k)) :=
    funext fun j =>
      (congrFun (pay10_eq (F := Ideal) a12 (k0_pay1 v0) a13 v16 v20 v29 v33 v42 v46) (ix2 p j)).trans
        (coupled_row W1 b1 W2 b2 W3 b3 le p _ _ _ ho1 a12 j)
  -- the odd layer's 64 outputs, row `p`: the chain on the new first half
  have ho2 : ∀ n, addf (k0_pay12 (k0_pay1 v0) a12 (k0_pay7 (k0_pay1 v0) a13 v16 v20 v29 v33 v42 v46)
        (k0_pay8 (k0_pay1 v0) a13 v16 v20 v29 v33 v42 v46) v63 v67 v76 v80 v89) (k0_pay13 v93) (ix2 p n)
      = params W1 b1 W2 b2 W3 b3 lo
          (transformed W1 b1 W2 b2 W3 b3 le (fun j => a12 (ix2 p j)) (fun j => a13 (ix2 p j)) (fun k => v0 (ix2 p k)))
          (fun k => v0 (ix2 p k)) n := fun n =>
    (congrArg (fun c => addf c (k0_pay13 v93) (ix2 p n))
        (pay12_eq (F := Ideal) (k0_pay1 v0) a12 (k0_pay7 (k0_pay1 v0) a13 v16 v20 v29 v33 v42 v46)
          (k0_pay8 (k0_pay1 v0) a13 v16 v20 v29 v33 v42 v46) v63 v67 v76 v80 v89)).trans
      ((chain_row W1 b1 W2 b2 W3 b3 lo p v0 _ v63 v67 v76 v80 v89 v93 h63 h67 h76 h80 h89 h93 n).trans
        (congrArg (fun z => params W1 b1 W2 b2 W3 b3 lo z (fun k => v0 (ix2 p k)) n) hz))
  -- the new second half, row `p`
  have hz' : (fun j => k0_pay5 a13 (k0_pay12 (k0_pay1 v0) a12 (k0_pay7 (k0_pay1 v0) a13 v16 v20 v29 v33 v42 v46)
        (k0_pay8 (k0_pay1 v0) a13 v16 v20 v29 v33 v42 v46) v63 v67 v76 v80 v89) (k0_pay13 v93) (ix2 p j))
      = transformed W1 b1 W2 b2 W3 b3 lo (fun j => a13 (ix2 p j))
          (transformed W1 b1 W2 b2 W3 b3 le (fun j => a12 (ix2 p j)) (fun j => a13 (ix2 p j)) (fun k => v0 (ix2 p k)))
          (fun k => v0 (ix2 p k)) :=
    funext fun j =>
      (congrFun (pay5_eq (F := Ideal) a13 _ (k0_pay13 v93)) (ix2 p j)).trans
        (coupled_row W1 b1 W2 b2 W3 b3 lo p _ _ _ ho2 a13 j)
  -- the log-determinant after the even layer, then after the odd layer, entry `p`
  have hd : k0_pay11 a14 (k0_pay8 (k0_pay1 v0) a13 v16 v20 v29 v33 v42 v46) (ix2 p (0 : Fin 1))
      = a14 (ix2 p (0 : Fin 1)) + logDet W1 b1 W2 b2 W3 b3 le (fun j => a13 (ix2 p j)) (fun k => v0 (ix2 p k)) :=
    (congrFun (pay11_eq (F := Ideal) a14 (k0_pay1 v0) a13 v16 v20 v29 v33 v42 v46) (ix2 p (0 : Fin 1))).trans
      (logDetCol_row W1 b1 W2 b2 W3 b3 le p _ _ _ ho1 a14)
  have hd' : k0_pay6 (k0_pay11 a14 (k0_pay8 (k0_pay1 v0) a13 v16 v20 v29 v33 v42 v46))
        (k0_pay12 (k0_pay1 v0) a12 (k0_pay7 (k0_pay1 v0) a13 v16 v20 v29 v33 v42 v46)
          (k0_pay8 (k0_pay1 v0) a13 v16 v20 v29 v33 v42 v46) v63 v67 v76 v80 v89) (k0_pay13 v93) (ix2 p (0 : Fin 1))
      = (a14 (ix2 p (0 : Fin 1)) + logDet W1 b1 W2 b2 W3 b3 le (fun j => a13 (ix2 p j)) (fun k => v0 (ix2 p k)))
        + logDet W1 b1 W2 b2 W3 b3 lo
            (transformed W1 b1 W2 b2 W3 b3 le (fun j => a12 (ix2 p j)) (fun j => a13 (ix2 p j)) (fun k => v0 (ix2 p k)))
            (fun k => v0 (ix2 p k)) :=
    (congrFun (pay6_eq (F := Ideal) _ _ (k0_pay13 v93)) (ix2 p (0 : Fin 1))).trans
      ((logDetCol_row W1 b1 W2 b2 W3 b3 lo p _ _ _ ho2 _).trans (congrArg (· + _) hd))
  exact congrArg₂ Prod.mk hz (congrArg₂ Prod.mk hz' hd')

end Cert.Flow.Kernel

end
-- ==== Proof.KernelOutSpec.lean ====
/-
  What the kernel's body leaves in its two output blocks at a grid point, as a statement: row `p` of the `z` block is the
  flow's result on row `p` of the block of `T` with row `p` of the conditioning block (columns 0 … 31 the first half, 32 … 63
  the second), and row `p` of the `[512, 1]` block is that row's log-determinant — the whole weight and bias arrays being
  the body's other six inputs.  The loop induction proves it; the passage from blocks to the result arrays uses it.
-/
import proofs.«157287_j66073776882121_2_alg».proof.Proof.Gen.KernelIdeal.Frame
import proofs.«157287_j66073776882121_2_alg».proof.Proof.CouplingSpec

noncomputable section

namespace Cert.Flow.Kernel

open Cert.KernelIdeal Cert.KernelIdeal.Gen Idealize.ShloMosaic Idealize.ShloMosaic.ValueIdx

/-- Column `q` of a row's `z`: the first half for `q < 32`, the second half from 32 on. -/
def zcol (s : Cert.Flow.RowState) (q : Fin 64) : EReal :=
  if h : q.val < 32 then s.1 ⟨q.val, h⟩ else s.2.1 ⟨q.val - 32, by have := q.isLt; omega⟩

/-- Row `p` of a block of `T` at the start: its two halves, log-determinant 0. -/
def blockStart (x0 : Vec Ideal S512x64 .f32) (p : Fin 512) : Cert.Flow.RowState :=
  (fun j => x0 (ix2 p ⟨j.val, by have := j.isLt; omega⟩), fun j => x0 (ix2 p ⟨32 + j.val, by have := j.isLt; omega⟩), 0)

/-- Row `p` of a block after all six layers. -/
def blockFlow (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32) (p : Fin 512) : Cert.Flow.RowState :=
  Cert.Flow.afterPairs x2 x3 x4 x5 x6 x7 (fun k => x1 (ix2 p k)) (blockStart x0 p) 3

/-- The body's two output blocks, row by row. -/
def OutBlocksSpec : Prop :=
  ∀ (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
    (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32) (p : Fin 512),
    (∀ q : Fin 64, out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 p q)
        = zcol (blockFlow x0 x1 x2 x3 x4 x5 x6 x7 p) q)
    ∧ out0_A_9 (F := Ideal) c i arg1 harg1 arg2 harg2 arg3 harg3 arg4 harg4 arg5 harg5 arg6 harg6 arg7 harg7 arg8 harg8 arg9 harg9 arg10 harg10 x0 x1 x2 x3 x4 x5 x6 x7 (ix2 p (0 : Fin 1))
        = (blockFlow x0 x1 x2 x3 x4 x5 x6 x7 p).2.2

/-- The flow's `z` result, by `zcol`. -/
theorem zOut_apply (T : FVec Ideal ⟨2, ![32768, 64]⟩ .f32) (C : FVec Ideal ⟨2, ![32768, 128]⟩ .f32)
    (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32) (r : Fin 32768) (q : Fin 64) :
    Cert.Flow.zOut T C W1 b1 W2 b2 W3 b3 (ix2 r q) = zcol (Cert.Flow.flowRow T C W1 b1 W2 b2 W3 b3 r) q := rfl

end Cert.Flow.Kernel

end
-- ==== Proof.KernelBlock.lean ====
/-
  The kernel's two output blocks at a grid point, read as the specification's row states.  Row `p` of the carried triple
  before trip `k` is the row's state after the first `k` pairs of layers (induction on `k`, one trip being one pair of
  layers on every row); the loop starts from the two column halves of the block of `T` and a zero log-determinant; the
  body stores the final first half into columns 0 … 31 of the `z` block, the second half into columns 32 … 63, and the
  log-determinant into the `[512, 1]` block.
-/
import proofs.«157287_j66073776882121_2_alg».proof.Proof.KernelTrips
import proofs.«157287_j66073776882121_2_alg».proof.Proof.KernelRow
import proofs.«157287_j66073776882121_2_alg».proof.Proof.KernelOutSpec
import Idealize.ShloMosaic.Lib.Pipeline.Value
import Idealize.ShloMosaic.PureOps.Ideal.Laws

set_option maxRecDepth 16384

noncomputable section

namespace Cert.Flow.Kernel

open Cert.KernelIdeal Cert.KernelIdeal.Gen
open Idealize.ShloMosaic Idealize.ShloMosaic.TcCoe Idealize.ShloMosaic.ValueIdx
open Idealize.SL Idealize.SL.Sem

/-! ## Loads through unit-stride rectangles, at an index -/

/-- A slice of extent 1 on the layer axis of a `[6, n1, n2]` array, taken at layer `l`, reads the array at layer `l`. -/
theorem ld_layer3 {n1 n2 : Nat} {e : EltTy} (x : Vec Ideal ⟨3, ![6, n1, n2]⟩ e) (off : Fin 3 → Nat) (l : Fin 6)
    (hoff : off = ![l.val, 0, 0])
    (inb : ∀ a, off a + (⟨3, ![1, n1, n2]⟩ : Shape).size a ≤ (⟨3, ![6, n1, n2]⟩ : Shape).size a) (a : Fin n1) (n : Fin n2) :
    View.ld (Val := Elt Ideal) x (Rect.unit (s := ⟨3, ![6, n1, n2]⟩) off (⟨3, ![1, n1, n2]⟩ : Shape).size inb) (ix3 (0 : Fin 1) a n)
      = x (ix3 l a n) := by
  subst hoff
  show x ((Rect.unit (s := ⟨3, ![6, n1, n2]⟩) _ _ inb).idx (ix3 (0 : Fin 1) a n)) = _
  refine congrArg x (funext fun d => Fin.ext ?_)
  match d with
  | ⟨0, _⟩ => show l.val + 1 * 0 = l.val; omega
  | ⟨1, _⟩ => show 0 + 1 * a.val = a.val; omega
  | ⟨2, _⟩ => show 0 + 1 * n.val = n.val; omega

/-- The same for a `[6, n1]` array. -/
theorem ld_layer2 {n1 : Nat} {e : EltTy} (x : Vec Ideal ⟨2, ![6, n1]⟩ e) (off : Fin 2 → Nat) (l : Fin 6)
    (hoff : off = ![l.val, 0])
    (inb : ∀ a, off a + (⟨2, ![1, n1]⟩ : Shape).size a ≤ (⟨2, ![6, n1]⟩ : Shape).size a) (n : Fin n1) :
    View.ld (Val := Elt Ideal) x (Rect.unit (s := ⟨2, ![6, n1]⟩) off (⟨2, ![1, n1]⟩ : Shape).size inb) (ix2 (0 : Fin 1) n)
      = x (ix2 l n) := by
  subst hoff
  show x ((Rect.unit (s := ⟨2, ![6, n1]⟩) _ _ inb).idx (ix2 (0 : Fin 1) n)) = _
  refine congrArg x (funext fun d => Fin.ext ?_)
  match d with
  | ⟨0, _⟩ => show l.val + 1 * 0 = l.val; omega
  | ⟨1, _⟩ => show 0 + 1 * n.val = n.val; omega

/-- Thirty-two columns of a `[512, 64]` block, from column `o` on, read the block at column `o + j`. -/
theorem ld_cols {e : EltTy} (x : Vec Ideal ⟨2, ![512, 64]⟩ e) (off : Fin 2 → Nat) (o : Nat) (ho : o + 32 ≤ 64)
    (hoff : off = ![0, o])
    (inb : ∀ a, off a + (⟨2, ![512, 32]⟩ : Shape).size a ≤ (⟨2, ![512, 64]⟩ : Shape).size a) (p : Fin 512) (j : Fin 32) :
    View.ld (Val := Elt Ideal) x (Rect.unit (s := ⟨2, ![512, 64]⟩) off (⟨2, ![512, 32]⟩ : Shape).size inb) (ix2 p j)
      = x (ix2 p ⟨o + j.val, by have := j.isLt; omega⟩) := by
  subst hoff
  show x ((Rect.unit (s := ⟨2, ![512, 64]⟩) _ _ inb).idx (ix2 p j)) = _
  refine congrArg x (funext fun d => Fin.ext ?_)
  match d with
  | ⟨0, _⟩ => show 0 + 1 * p.val = p.val; omega
  | ⟨1, _⟩ => show o + 1 * j.val = o + j.val; omega

/-! ## The carried value before each trip -/

section Trips

variable (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
variable (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)

/-- The conditioning block as the body loads it. -/
abbrev condLoaded : Vec Ideal S512x128 .f32 :=
  View.readAt (Elt Ideal) arg2.view (Rect.unit (s := S512x128) ![0, 0] S512x128.size inb_S512x128_S512x128_0_0).toLoadRect (harg2.unread x1)

/-- The loop's starting value as the body builds it: the two column halves of the block of `T`, and zeros. -/
abbrev carry0 : Carry :=
  (View.readAt (Elt Ideal) arg1.view (Rect.unit (s := S512x64) ![0, 0] S512x32.size inb_S512x64_S512x32_0_0).toLoadRect (harg1.unread x0),
   View.readAt (Elt Ideal) arg1.view (Rect.unit (s := S512x64) ![0, 32] S512x32.size inb_S512x64_S512x32_0_32).toLoadRect (harg1.unread x0),
   k0_pay2)

/-- The carried value before trip `k`, as the frame run finds it. -/
abbrev carryAt (k : Nat) : Carry :=
  st_k0_t1 (F := Ideal) Variants.none c none i arg1 harg1 arg2 harg2 arg3 harg3 arg4 harg4 arg5 harg5 arg6 harg6 arg7 harg7 arg8 harg8 arg9 harg9 arg10 harg10 (condLoaded arg2 harg2 x1)
    (harg3.unread x2) (harg4.unread x3) (harg5.unread x4) (harg6.unread x5) (harg7.unread x6) (harg8.unread x7)
    (carry0 arg1 harg1 x0) k

theorem hz2 : (![0, 0] : Fin 2 → Nat) = fun _ => 0 := funext fun a => by fin_cases a <;> rfl

/-- The conditioning block is loaded whole. -/
theorem condLoaded_eq : condLoaded arg2 harg2 x1 = x1 := by
  unfold condLoaded
  rw [View.readAt_eq_ld, harg2.read_unread]
  exact View.ld_unit_zero (S := S512x128) hz2 _ x1

/-- Row `p` of the starting value: the two halves of row `p` of the block of `T`, log-determinant 0. -/
theorem carry0_row (p : Fin 512) : blockRow (carry0 arg1 harg1 x0) p = blockStart x0 p := by
  unfold blockRow blockStart carry0
  dsimp only
  rw [View.readAt_eq_ld, View.readAt_eq_ld, harg1.read_unread]
  refine Prod.ext (funext fun j => ?_) (Prod.ext (funext fun j => ?_) ?_)
  · refine (ld_cols x0 ![0, 0] 0 (by omega) rfl _ p j).trans ?_
    exact congrArg x0 (congrArg (ix2 p) (Fin.ext (by show 0 + j.val = j.val; omega)))
  · exact ld_cols x0 ![0, 32] 32 (by omega) rfl _ p j
  · show k0_pay2 (F := Ideal) (ix2 p (0 : Fin 1)) = 0
    unfold k0_pay2
    exact Ideal.ofBits_zero_f32

end Trips

section Induction

variable (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
variable (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)

theorem trips_eq : k0_t1_loop.trips = 3 := by decide

/-- Row `p` of the carried value before trip `k` is the row's state after the first `k` pairs of layers. -/
theorem carryAt_row (p : Fin 512) : ∀ k : Nat, k ≤ 3 →
    blockRow (carryAt c i arg1 harg1 arg2 harg2 arg3 harg3 arg4 harg4 arg5 harg5 arg6 harg6 arg7 harg7 arg8 harg8 arg9 harg9 arg10 harg10 x0 x1 x2 x3 x4 x5 x6 x7 k) p
      = Cert.Flow.afterPairs x2 x3 x4 x5 x6 x7 (fun kk => x1 (ix2 p kk)) (blockStart x0 p) k
  | 0, _ => carry0_row arg1 harg1 x0 p
  | k + 1, hk => by
    have hk' : k < k0_t1_loop.trips := by rw [trips_eq]; omega
    have e0 : 2 * k % 6 = 2 * k := Nat.mod_eq_of_lt (by omega)
    have e1 : (2 * k + 1) % 6 = 2 * k + 1 := Nat.mod_eq_of_lt (by omega)
    have ih := carryAt_row p k (by omega)
    have hs := st_k0_t1_succ (F := Ideal) Variants.none c none i arg1 harg1 arg2 harg2 arg3 harg3 arg4 harg4 arg5 harg5 arg6 harg6 arg7 harg7 arg8 harg8 arg9 harg9 arg10 harg10 (condLoaded arg2 harg2 x1)
      (harg3.unread x2) (harg4.unread x3) (harg5.unread x4) (harg6.unread x5) (harg7.unread x6) (harg8.unread x7)
      (carry0 arg1 harg1 x0) ⟨k, hk'⟩
    show blockRow (st_k0_t1 (F := Ideal) Variants.none c none i arg1 harg1 arg2 harg2 arg3 harg3 arg4 harg4 arg5 harg5 arg6 harg6 arg7 harg7 arg8 harg8 arg9 harg9 arg10 harg10 (condLoaded arg2 harg2 x1)
      (harg3.unread x2) (harg4.unread x3) (harg5.unread x4) (harg6.unread x5) (harg7.unread x6) (harg8.unread x7)
      (carry0 arg1 harg1 x0) (k + 1)) p = _
    rw [hs, tripR_eq]
    refine (tripYield_row x2 x3 x4 x5 x6 x7 ⟨2 * k % 6, Nat.mod_lt _ (by decide)⟩ ⟨(2 * k + 1) % 6, Nat.mod_lt _ (by decide)⟩
      _ _ _ _ _ _ _ _ _ _ _ _ _ _ ?h16 ?h20 ?h29 ?h33 ?h42 ?h46 ?h63 ?h67 ?h76 ?h80 ?h89 ?h93 p).trans ?_
    case h16 => intro a n; rw [View.readAt_eq_ld, harg3.read_unread]; exact ld_layer3 x2 _ _ (by rw [k0_off1_eq]; show ![2 * k, 0, 0] = ![2 * k % 6, 0, 0]; rw [e0]) _ a n
    case h20 => intro n; rw [View.readAt_eq_ld, harg4.read_unread]; exact ld_layer2 x3 _ _ (by rw [k0_off2_eq]; show ![2 * k, 0] = ![2 * k % 6, 0]; rw [e0]) _ n
    case h29 => intro a n; rw [View.readAt_eq_ld, harg5.read_unread]; exact ld_layer3 x4 _ _ (by rw [k0_off3_eq]; show ![2 * k, 0, 0] = ![2 * k % 6, 0, 0]; rw [e0]) _ a n
    case h33 => intro n; rw [View.readAt_eq_ld, harg6.read_unread]; exact ld_layer2 x5 _ _ (by rw [k0_off2_eq]; show ![2 * k, 0] = ![2 * k % 6, 0]; rw [e0]) _ n
    case h42 => intro a n; rw [View.readAt_eq_ld, harg7.read_unread]; exact ld_layer3 x6 _ _ (by rw [k0_off4_eq]; show ![2 * k, 0, 0] = ![2 * k % 6, 0, 0]; rw [e0]) _ a n
    case h46 => intro n; rw [View.readAt_eq_ld, harg8.read_unread]; exact ld_layer2 x7 _ _ (by rw [k0_off5_eq]; show ![2 * k, 0] = ![2 * k % 6, 0]; rw [e0]) _ n
    case h63 => intro a n; rw [View.readAt_eq_ld, harg3.read_unread]; exact ld_layer3 x2 _ _ (by rw [k0_off6_eq]; show ![2 * k + 1, 0, 0] = ![(2 * k + 1) % 6, 0, 0]; rw [e1]) _ a n
    case h67 => intro n; rw [View.readAt_eq_ld, harg4.read_unread]; exact ld_layer2 x3 _ _ (by rw [k0_off7_eq]; show ![2 * k + 1, 0] = ![(2 * k + 1) % 6, 0]; rw [e1]) _ n
    case h76 => intro a n; rw [View.readAt_eq_ld, harg5.read_unread]; exact ld_layer3 x4 _ _ (by rw [k0_off8_eq]; show ![2 * k + 1, 0, 0] = ![(2 * k + 1) % 6, 0, 0]; rw [e1]) _ a n
    case h80 => intro n; rw [View.readAt_eq_ld, harg6.read_unread]; exact ld_layer2 x5 _ _ (by rw [k0_off7_eq]; show ![2 * k + 1, 0] = ![(2 * k + 1) % 6, 0]; rw [e1]) _ n
    case h89 => intro a n; rw [View.readAt_eq_ld, harg7.read_unread]; exact ld_layer3 x6 _ _ (by rw [k0_off9_eq]; show ![2 * k + 1, 0, 0] = ![(2 * k + 1) % 6, 0, 0]; rw [e1]) _ a n
    case h93 => intro n; rw [View.readAt_eq_ld, harg8.read_unread]; exact ld_layer2 x7 _ _ (by rw [k0_off10_eq]; show ![2 * k + 1, 0] = ![(2 * k + 1) % 6, 0]; rw [e1]) _ n
    have hc : (fun kk : Fin 128 => condLoaded arg2 harg2 x1 (ix2 p kk)) = fun kk => x1 (ix2 p kk) := by rw [condLoaded_eq]
    rw [hc]
    show Cert.Flow.layerPair x2 x3 x4 x5 x6 x7 _ _ (fun kk => x1 (ix2 p kk)) (blockRow (carryAt c i arg1 harg1 arg2 harg2 arg3 harg3 arg4 harg4 arg5 harg5 arg6 harg6 arg7 harg7 arg8 harg8 arg9 harg9 arg10 harg10 x0 x1 x2 x3 x4 x5 x6 x7 k) p) = _
    rw [ih]
    rfl

end Induction

/-! ## The two output blocks -/

/-- Two stores into a `[512, 64]` block — first `a` into columns 0 … 31, then `b` into columns 32 … 63 — leave, in row `p`,
    `a`'s row in the first half and `b`'s row in the second. -/
theorem canon_halves (acc : Carry) (p : Fin 512) (q : Fin 64) :
    View.canon (Val := Elt Ideal)
        [(⟨Rect.unit (s := S512x64) ![0, 32] S512x32.size inb_S512x64_S512x32_0_32, acc.2.1⟩ : View.Piece (Elt Ideal) S512x64 .f32),
          ⟨Rect.unit (s := S512x64) ![0, 0] S512x32.size inb_S512x64_S512x32_0_0, acc.1⟩] (ix2 p q)
      = zcol (blockRow acc p) q := by
  by_cases hq : q.val < 32
  · have hnot : ix2 p q ∉ (Rect.unit (s := S512x64) ![0, 32] S512x32.size inb_S512x64_S512x32_0_32).set := by
      rw [Rect.mem_set_unit]
      intro h
      have h1 : 32 ≤ q.val := (h 1).1
      omega
    refine (View.canon_cons_of_not_mem
      (⟨Rect.unit (s := S512x64) ![0, 32] S512x32.size inb_S512x64_S512x32_0_32, acc.2.1⟩ : View.Piece (Elt Ideal) S512x64 .f32)
      [⟨Rect.unit (s := S512x64) ![0, 0] S512x32.size inb_S512x64_S512x32_0_0, acc.1⟩] hnot).trans ?_
    have he : ix2 p q = (Rect.unit (s := S512x64) ![0, 0] S512x32.size inb_S512x64_S512x32_0_0).emb (ix2 p (⟨q.val, hq⟩ : Fin 32)) :=
      funext fun a => Fin.ext (by
        match a with
        | ⟨0, _⟩ => show p.val = 0 + 1 * p.val; omega
        | ⟨1, _⟩ => show q.val = 0 + 1 * q.val; omega)
    rw [he]
    refine (View.canon_cons_emb (Rect.unit (s := S512x64) ![0, 0] S512x32.size inb_S512x64_S512x32_0_0) acc.1 [] _).trans ?_
    unfold zcol
    rw [dif_pos hq]
    rfl
  · have hq64 : q.val < 64 := q.isLt
    have he : ix2 p q = (Rect.unit (s := S512x64) ![0, 32] S512x32.size inb_S512x64_S512x32_0_32).emb (ix2 p (⟨q.val - 32, by omega⟩ : Fin 32)) :=
      funext fun a => Fin.ext (by
        match a with
        | ⟨0, _⟩ => show p.val = 0 + 1 * p.val; omega
        | ⟨1, _⟩ => show q.val = 32 + 1 * (q.val - 32); omega)
    rw [he]
    refine (View.canon_cons_emb (Rect.unit (s := S512x64) ![0, 32] S512x32.size inb_S512x64_S512x32_0_32) acc.2.1
      [⟨Rect.unit (s := S512x64) ![0, 0] S512x32.size inb_S512x64_S512x32_0_0, acc.1⟩] _).trans ?_
    unfold zcol
    rw [dif_neg hq]
    rfl

section Outputs

variable (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
variable (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)

/-- The loop makes three trips. -/
theorem ntrips : Scf.trips (0#32) (Scalar.addi 0#32 3#32) 1#32 = 3 := by decide

/-- Row `p` of the `z` block the body leaves: the first half of the final carried value in columns 0 … 31 (the earlier
    store), the second half in columns 32 … 63 (the later store). -/
theorem out8_row (p : Fin 512) (q : Fin 64) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 p q) = zcol (blockFlow x0 x1 x2 x3 x4 x5 x6 x7 p) q := by
  have hrow := carryAt_row c i arg1 harg1 arg2 harg2 arg3 harg3 arg4 harg4 arg5 harg5 arg6 harg6 arg7 harg7 arg8 harg8 arg9 harg9 arg10 harg10 x0 x1 x2 x3 x4 x5 x6 x7 p 3 (le_refl 3)
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  rw [ntrips]
  exact (canon_halves (carryAt c i arg1 harg1 arg2 harg2 arg3 harg3 arg4 harg4 arg5 harg5 arg6 harg6 arg7 harg7 arg8 harg8 arg9 harg9 arg10 harg10 x0 x1 x2 x3 x4 x5 x6 x7 3) p q).trans (congrArg (fun s => zcol s q) hrow)

/-- Row `p` of the `[512, 1]` block the body leaves: the final carried log-determinant. -/
theorem out9_row (p : Fin 512) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 (ix2 p (0 : Fin 1)) = (blockFlow x0 x1 x2 x3 x4 x5 x6 x7 p).2.2 := by
  have hrow := carryAt_row c i arg1 harg1 arg2 harg2 arg3 harg3 arg4 harg4 arg5 harg5 arg6 harg6 arg7 harg7 arg8 harg8 arg9 harg9 arg10 harg10 x0 x1 x2 x3 x4 x5 x6 x7 p 3 (le_refl 3)
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  rw [ntrips, View.canon_unit_zero (S := S512x1) hz2]
  unfold blockFlow
  rw [← hrow]
  rfl

end Outputs

/-- The body's two output blocks are the flow of its input blocks, row by row. -/
theorem outBlocks : OutBlocksSpec := fun c i arg1 harg1 arg2 harg2 arg3 harg3 arg4 harg4 arg5 harg5 arg6 harg6 arg7 harg7 arg8 harg8 arg9 harg9 arg10 harg10 x0 x1 x2 x3 x4 x5 x6 x7 p =>
  ⟨fun q => out8_row c i arg1 harg1 arg2 harg2 arg3 harg3 arg4 harg4 arg5 harg5 arg6 harg6 arg7 harg7 arg8 harg8 arg9 harg9 arg10 harg10 x0 x1 x2 x3 x4 x5 x6 x7 p q, out9_row c i arg1 harg1 arg2 harg2 arg3 harg3 arg4 harg4 arg5 harg5 arg6 harg6 arg7 harg7 arg8 harg8 arg9 harg9 arg10 harg10 x0 x1 x2 x3 x4 x5 x6 x7 p⟩

end Cert.Flow.Kernel

end
-- ==== Proof.KernelArrays.lean ====
/-
  From the kernel's output blocks to its run.  The grid has 64 points; point t works on rows 512 t … 512 t + 511 of
  the batch: the blocks of the first two arguments and of the two results at point t are those rows, and the six
  weight and bias arrays are read whole at every point.  Given what the body leaves in its two output blocks (row by
  row, the flow of the body's input blocks), every point writes back the rows 512 t … of the flow of the argument
  arrays; the 64 blocks cover the result arrays, so the first result array ends holding the flow's z, the [32768, 1]
  array its log-determinant, and the reshape after the region reads that array as the [32768] result.
-/
import proofs.«157287_j66073776882121_2_alg».proof.Proof.KernelOutSpec
import Idealize.ShloMosaic.Lib.Pipeline.Value
import Idealize.ShloMosaic.Lib.StableHlo.Run
import Idealize.ShloMosaic.Lib.Tactic

set_option maxRecDepth 16384

noncomputable section

namespace Cert.Flow.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The windows' index maps over the grid -/

/-- Point t's blocks of the first two arguments and of the two results are row block t; the other six windows'
    blocks are their whole arrays at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem idx_whole : ∀ t : Fin cfg0.N,
    (win0_2.index t (0 : Fin 3) = 0 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0) :=
  (by decide +kernel : ∀ t : Fin grid0.N, _)

/-! ## The input blocks as rows of the arrays -/

/-- The block of the first argument at point t is rows 512 t … of the array. -/
theorem iblk0_apply (c : Dev nD) (t : Fin cfg0.N) (x : S512x64.Idx) (k : S32768x64.Idx)
    (hk0 : (k 0).val = 512 * t.val + (x 0).val) (hk1 : (k 1).val = (x 1).val) :
    (iblk m c 0 t : Vec Ideal S512x64 .f32) x = (V m c main_arg0 : S32768x64.Idx → Elt Ideal .f32) k := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * (x 0).val = (k 0).val; rw [e0, hk0]; omega
  | ⟨1, _⟩ => show win0_0.index t 1 * 64 + 1 * (x 1).val = (k 1).val; rw [e1, hk1]; omega

/-- The block of the conditioning array at point t is rows 512 t … of the array. -/
theorem iblk1_apply (c : Dev nD) (t : Fin cfg0.N) (x : S512x128.Idx) (k : S32768x128.Idx)
    (hk0 : (k 0).val = 512 * t.val + (x 0).val) (hk1 : (k 1).val = (x 1).val) :
    (iblk m c 1 t : Vec Ideal S512x128 .f32) x = (V m c main_arg1 : S32768x128.Idx → Elt Ideal .f32) k := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t 0 * 512 + 1 * (x 0).val = (k 0).val; rw [e0, hk0]; omega
  | ⟨1, _⟩ => show win0_1.index t 1 * 128 + 1 * (x 1).val = (k 1).val; rw [e1, hk1]; omega

/-- Window 2 reads its whole array at every point. -/
theorem iblk2_eq (c : Dev nD) (t : Fin cfg0.N) :
    (iblk m c 2 t : Vec Ideal S6x160x1024 .bf16) = (V m c main_v0 : S6x160x1024.Idx → Elt Ideal .bf16) := by
  obtain ⟨⟨e0, e1, e2⟩, -⟩ := idx_whole t
  funext x
  unfold iblk
  rw [View.read_apply]
  show V m c main_v0 _ = V m c main_v0 x
  congr 1
  funext a
  apply Fin.ext
  match a with
  | ⟨0, _⟩ => show win0_2.index t 0 * 6 + 1 * (x 0).val = (x 0).val; rw [e0]; omega
  | ⟨1, _⟩ => show win0_2.index t 1 * 160 + 1 * (x 1).val = (x 1).val; rw [e1]; omega
  | ⟨2, _⟩ => show win0_2.index t 2 * 1024 + 1 * (x 2).val = (x 2).val; rw [e2]; omega

/-- Window 3 reads its whole array at every point. -/
theorem iblk3_eq (c : Dev nD) (t : Fin cfg0.N) :
    (iblk m c 3 t : Vec Ideal S6x1024 .f32) = (V m c main_arg3 : S6x1024.Idx → Elt Ideal .f32) := by
  obtain ⟨-, ⟨e0, e1⟩, -⟩ := idx_whole t
  funext x
  unfold iblk
  rw [View.read_apply]
  show V m c main_arg3 _ = V m c main_arg3 x
  congr 1
  funext a
  apply Fin.ext
  match a with
  | ⟨0, _⟩ => show win0_3.index t 0 * 6 + 1 * (x 0).val = (x 0).val; rw [e0]; omega
  | ⟨1, _⟩ => show win0_3.index t 1 * 1024 + 1 * (x 1).val = (x 1).val; rw [e1]; omega

/-- Window 4 reads its whole array at every point. -/
theorem iblk4_eq (c : Dev nD) (t : Fin cfg0.N) :
    (iblk m c 4 t : Vec Ideal S6x1024x1024 .bf16) = (V m c main_v1 : S6x1024x1024.Idx → Elt Ideal .bf16) := by
  obtain ⟨-, -, ⟨e0, e1, e2⟩, -⟩ := idx_whole t
  funext x
  unfold iblk
  rw [View.read_apply]
  show V m c main_v1 _ = V m c main_v1 x
  congr 1
  funext a
  apply Fin.ext
  match a with
  | ⟨0, _⟩ => show win0_4.index t 0 * 6 + 1 * (x 0).val = (x 0).val; rw [e0]; omega
  | ⟨1, _⟩ => show win0_4.index t 1 * 1024 + 1 * (x 1).val = (x 1).val; rw [e1]; omega
  | ⟨2, _⟩ => show win0_4.index t 2 * 1024 + 1 * (x 2).val = (x 2).val; rw [e2]; omega

/-- Window 5 reads its whole array at every point. -/
theorem iblk5_eq (c : Dev nD) (t : Fin cfg0.N) :
    (iblk m c 5 t : Vec Ideal S6x1024 .f32) = (V m c main_arg5 : S6x1024.Idx → Elt Ideal .f32) := by
  obtain ⟨-, -, -, ⟨e0, e1⟩, -⟩ := idx_whole t
  funext x
  unfold iblk
  rw [View.read_apply]
  show V m c main_arg5 _ = V m c main_arg5 x
  congr 1
  funext a
  apply Fin.ext
  match a with
  | ⟨0, _⟩ => show win0_5.index t 0 * 6 + 1 * (x 0).val = (x 0).val; rw [e0]; omega
  | ⟨1, _⟩ => show win0_5.index t 1 * 1024 + 1 * (x 1).val = (x 1).val; rw [e1]; omega

/-- Window 6 reads its whole array at every point. -/
theorem iblk6_eq (c : Dev nD) (t : Fin cfg0.N) :
    (iblk m c 6 t : Vec Ideal S6x1024x64 .bf16) = (V m c main_v2 : S6x1024x64.Idx → Elt Ideal .bf16) := by
  obtain ⟨-, -, -, -, ⟨e0, e1, e2⟩, -⟩ := idx_whole t
  funext x
  unfold iblk
  rw [View.read_apply]
  show V m c main_v2 _ = V m c main_v2 x
  congr 1
  funext a
  apply Fin.ext
  match a with
  | ⟨0, _⟩ => show win0_6.index t 0 * 6 + 1 * (x 0).val = (x 0).val; rw [e0]; omega
  | ⟨1, _⟩ => show win0_6.index t 1 * 1024 + 1 * (x 1).val = (x 1).val; rw [e1]; omega
  | ⟨2, _⟩ => show win0_6.index t 2 * 64 + 1 * (x 2).val = (x 2).val; rw [e2]; omega

/-- Window 7 reads its whole array at every point. -/
theorem iblk7_eq (c : Dev nD) (t : Fin cfg0.N) :
    (iblk m c 7 t : Vec Ideal S6x64 .f32) = (V m c main_arg7 : S6x64.Idx → Elt Ideal .f32) := by
  obtain ⟨-, -, -, -, -, ⟨e0, e1⟩⟩ := idx_whole t
  funext x
  unfold iblk
  rw [View.read_apply]
  show V m c main_arg7 _ = V m c main_arg7 x
  congr 1
  funext a
  apply Fin.ext
  match a with
  | ⟨0, _⟩ => show win0_7.index t 0 * 6 + 1 * (x 0).val = (x 0).val; rw [e0]; omega
  | ⟨1, _⟩ => show win0_7.index t 1 * 64 + 1 * (x 1).val = (x 1).val; rw [e1]; omega

/-! ## A block's row is a row of the batch -/

/-- The flow of row p of a block is the flow of row r of the arrays, when row p of the two blocks is row r of the two
    arrays and the weights and biases are the same. -/
theorem blockFlow_of_rows (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)
    (T : FVec Ideal ⟨2, ![32768, 64]⟩ .f32) (C : FVec Ideal ⟨2, ![32768, 128]⟩ .f32)
    (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32)
    (p : Fin 512) (r : Fin 32768)
    (h0 : ∀ q : Fin 64, x0 (ix2 p q) = T (ix2 r q)) (h1 : ∀ k : Fin 128, x1 (ix2 p k) = C (ix2 r k))
    (h2 : x2 = W1) (h3 : x3 = b1) (h4 : x4 = W2) (h5 : x5 = b2) (h6 : x6 = W3) (h7 : x7 = b3) :
    blockFlow x0 x1 x2 x3 x4 x5 x6 x7 p = Cert.Flow.flowRow T C W1 b1 W2 b2 W3 b3 r := by
  subst h2 h3 h4 h5 h6 h7
  have hs : blockStart x0 p = Cert.Flow.startRow T r := by
    unfold blockStart Cert.Flow.startRow
    refine Prod.ext (funext fun j => h0 _) (Prod.ext (funext fun j => h0 _) rfl)
  have hc : (fun k => x1 (ix2 p k)) = Cert.Flow.condRow C r := funext h1
  unfold blockFlow Cert.Flow.flowRow
  rw [hs, hc]

/-- The z block the body leaves, as rows of the flow's z. -/
theorem out8_of_blocks (hout : OutBlocksSpec) (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
    (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)
    (T : FVec Ideal ⟨2, ![32768, 64]⟩ .f32) (C : FVec Ideal ⟨2, ![32768, 128]⟩ .f32)
    (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32)
    (p : Fin 512) (q : Fin 64) (r : Fin 32768)
    (h0 : ∀ q : Fin 64, x0 (ix2 p q) = T (ix2 r q)) (h1 : ∀ k : Fin 128, x1 (ix2 p k) = C (ix2 r k))
    (h2 : x2 = W1) (h3 : x3 = b1) (h4 : x4 = W2) (h5 : x5 = b2) (h6 : x6 = W3) (h7 : x7 = b3) :
    out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 p q)
      = Cert.Flow.zOut T C W1 b1 W2 b2 W3 b3 (ix2 r q) := by
  rw [(hout c i arg1 harg1 arg2 harg2 arg3 harg3 arg4 harg4 arg5 harg5 arg6 harg6 arg7 harg7 arg8 harg8 arg9 harg9 arg10 harg10 x0 x1 x2 x3 x4 x5 x6 x7 p).1 q, zOut_apply,
    blockFlow_of_rows x0 x1 x2 x3 x4 x5 x6 x7 T C W1 b1 W2 b2 W3 b3 p r h0 h1 h2 h3 h4 h5 h6 h7]

/-- The log-determinant block the body leaves, as rows of the flow's log-determinant. -/
theorem out9_of_blocks (hout : OutBlocksSpec) (c : Dev nD) (i : grid0.Coords) (arg1 : Memref sig .tc .vmem S512x64 .f32) (harg1 : arg1.IsWhole) (arg2 : Memref sig .tc .vmem S512x128 .f32) (harg2 : arg2.IsWhole) (arg3 : Memref sig .tc .vmem S6x160x1024 .bf16) (harg3 : arg3.IsWhole) (arg4 : Memref sig .tc .vmem S6x1024 .f32) (harg4 : arg4.IsWhole) (arg5 : Memref sig .tc .vmem S6x1024x1024 .bf16) (harg5 : arg5.IsWhole) (arg6 : Memref sig .tc .vmem S6x1024 .f32) (harg6 : arg6.IsWhole) (arg7 : Memref sig .tc .vmem S6x1024x64 .bf16) (harg7 : arg7.IsWhole) (arg8 : Memref sig .tc .vmem S6x64 .f32) (harg8 : arg8.IsWhole) (arg9 : Memref sig .tc .vmem S512x64 .f32) (harg9 : arg9.IsWhole) (arg10 : Memref sig .tc .vmem S512x1 .f32) (harg10 : arg10.IsWhole)
    (x0 : Vec Ideal S512x64 .f32) (x1 : Vec Ideal S512x128 .f32) (x2 : Vec Ideal S6x160x1024 .bf16) (x3 : Vec Ideal S6x1024 .f32) (x4 : Vec Ideal S6x1024x1024 .bf16) (x5 : Vec Ideal S6x1024 .f32) (x6 : Vec Ideal S6x1024x64 .bf16) (x7 : Vec Ideal S6x64 .f32)
    (T : FVec Ideal ⟨2, ![32768, 64]⟩ .f32) (C : FVec Ideal ⟨2, ![32768, 128]⟩ .f32)
    (W1 : FVec Ideal ⟨3, ![6, 160, 1024]⟩ .f32) (b1 : FVec Ideal ⟨2, ![6, 1024]⟩ .f32)
    (W2 : FVec Ideal ⟨3, ![6, 1024, 1024]⟩ .f32) (b2 : FVec Ideal ⟨2, ![6, 1024]⟩ .f32)
    (W3 : FVec Ideal ⟨3, ![6, 1024, 64]⟩ .f32) (b3 : FVec Ideal ⟨2, ![6, 64]⟩ .f32)
    (p : Fin 512) (r : Fin 32768)
    (h0 : ∀ q : Fin 64, x0 (ix2 p q) = T (ix2 r q)) (h1 : ∀ k : Fin 128, x1 (ix2 p k) = C (ix2 r k))
    (h2 : x2 = W1) (h3 : x3 = b1) (h4 : x4 = W2) (h5 : x5 = b2) (h6 : x6 = W3) (h7 : x7 = b3) :
    out0_A_9 (F := Ideal) c i arg1 harg1 arg2 harg2 arg3 harg3 arg4 harg4 arg5 harg5 arg6 harg6 arg7 harg7 arg8 harg8 arg9 harg9 arg10 harg10 x0 x1 x2 x3 x4 x5 x6 x7 (ix2 p (0 : Fin 1))
      = Cert.Flow.logDetOut T C W1 b1 W2 b2 W3 b3 (ix1 r) := by
  rw [(hout c i arg1 harg1 arg2 harg2 arg3 harg3 arg4 harg4 arg5 harg5 arg6 harg6 arg7 harg7 arg8 harg8 arg9 harg9 arg10 harg10 x0 x1 x2 x3 x4 x5 x6 x7 p).2,
    blockFlow_of_rows x0 x1 x2 x3 x4 x5 x6 x7 T C W1 b1 W2 b2 W3 b3 p r h0 h1 h2 h3 h4 h5 h6 h7]
  rfl

/-! ## What each point writes back -/

/-- The flow's z of the arrays as the region finds them. -/
abbrev zArr (c : Dev nD) : Buf (Elt Ideal) ((c : Thread nD τ).loc main_v3_0) :=
  Cert.Flow.zOut (V m c main_arg0) (V m c main_arg1) (V m c main_v0) (V m c main_arg3) (V m c main_v1) (V m c main_arg5) (V m c main_v2) (V m c main_arg7)

/-- The flow's log-determinant of the arrays as the region finds them, as a [32768, 1] array. -/
abbrev ldArr (c : Dev nD) : Buf (Elt Ideal) ((c : Thread nD τ).loc main_v3_1) :=
  fun i : S32768x1.Idx => Cert.Flow.logDetOut (V m c main_arg0) (V m c main_arg1) (V m c main_v0) (V m c main_arg3) (V m c main_v1) (V m c main_arg5) (V m c main_v2) (V m c main_arg7) (ix1 (i 0))

/-- Point t writes back rows 512 t … of the flow's z. -/
theorem flushed8_eq (hout : OutBlocksSpec) (c : Dev nD) (t : Fin cfg0.N) :
    (dats m 0 c).flushed 8 t = ((cfg0.win 8).blk t).view.read (Elt Ideal) (zArr m c) := by
  show (cfg0.win 8).cut (grid0.coords t) ((dats m 0 c).after 8 t) = _
  rw [after0_8]
  have hN : cfg0.N = 64 := N_0
  obtain ⟨-, -, -, -, e0, e1, -⟩ := idx_facts t
  refine funext fun (j : S512x64.Idx) => ?_
  obtain ⟨p, q, rfl⟩ : ∃ (p : Fin 512) (q : Fin 64), j = ix2 p q := ⟨j 0, j 1, eq_ix2 j⟩
  have hr : 512 * t.val + p.val < 32768 := by have := t.isLt; have := p.isLt; omega
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix2 p q)
    = zArr m c (((cfg0.win 8).blk t).view.emb (ix2 p q))
  refine (out8_of_blocks hout c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t)
    (V m c main_arg0) (V m c main_arg1) (V m c main_v0) (V m c main_arg3) (V m c main_v1) (V m c main_arg5) (V m c main_v2) (V m c main_arg7) p q ⟨512 * t.val + p.val, hr⟩
    (fun q' => iblk0_apply m c t (ix2 p q') (ix2 ⟨512 * t.val + p.val, hr⟩ q') rfl rfl)
    (fun k => iblk1_apply m c t (ix2 p k) (ix2 ⟨512 * t.val + p.val, hr⟩ k) rfl rfl)
    (iblk2_eq m c t) (iblk3_eq m c t) (iblk4_eq m c t) (iblk5_eq m c t) (iblk6_eq m c t) (iblk7_eq m c t)).trans ?_
  refine congrArg (zArr m c) (funext fun a => Fin.ext ?_)
  match a with
  | ⟨0, _⟩ => show 512 * t.val + p.val = win0_8.index t 0 * 512 + 1 * p.val; rw [e0]; omega
  | ⟨1, _⟩ => show q.val = win0_8.index t 1 * 64 + 1 * q.val; rw [e1]; omega

/-- Point t writes back rows 512 t … of the flow's log-determinant. -/
theorem flushed9_eq (hout : OutBlocksSpec) (c : Dev nD) (t : Fin cfg0.N) :
    (dats m 0 c).flushed 9 t = ((cfg0.win 9).blk t).view.read (Elt Ideal) (ldArr m c) := by
  show (cfg0.win 9).cut (grid0.coords t) ((dats m 0 c).after 9 t) = _
  rw [after0_9]
  have hN : cfg0.N = 64 := N_0
  obtain ⟨-, -, -, -, -, -, e0, e1⟩ := idx_facts t
  refine funext fun (j : S512x1.Idx) => ?_
  obtain ⟨p, q, rfl⟩ : ∃ (p : Fin 512) (q : Fin 1), j = ix2 p q := ⟨j 0, j 1, eq_ix2 j⟩
  obtain rfl : q = 0 := Subsingleton.elim _ _
  have hr : 512 * t.val + p.val < 32768 := by have := t.isLt; have := p.isLt; omega
  show out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t) (ix2 p (0 : Fin 1))
    = ldArr m c (((cfg0.win 9).blk t).view.emb (ix2 p (0 : Fin 1)))
  refine (out9_of_blocks hout c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t) (iblk m c 6 t) (iblk m c 7 t)
    (V m c main_arg0) (V m c main_arg1) (V m c main_v0) (V m c main_arg3) (V m c main_v1) (V m c main_arg5) (V m c main_v2) (V m c main_arg7) p ⟨512 * t.val + p.val, hr⟩
    (fun q' => iblk0_apply m c t (ix2 p q') (ix2 ⟨512 * t.val + p.val, hr⟩ q') rfl rfl)
    (fun k => iblk1_apply m c t (ix2 p k) (ix2 ⟨512 * t.val + p.val, hr⟩ k) rfl rfl)
    (iblk2_eq m c t) (iblk3_eq m c t) (iblk4_eq m c t) (iblk5_eq m c t) (iblk6_eq m c t) (iblk7_eq m c t)).trans ?_
  show Cert.Flow.logDetOut (V m c main_arg0) (V m c main_arg1) (V m c main_v0) (V m c main_arg3) (V m c main_v1) (V m c main_arg5) (V m c main_v2) (V m c main_arg7) (ix1 ⟨512 * t.val + p.val, hr⟩)
    = Cert.Flow.logDetOut (V m c main_arg0) (V m c main_arg1) (V m c main_v0) (V m c main_arg3) (V m c main_v1) (V m c main_arg5) (V m c main_v2) (V m c main_arg7) (ix1 ((((cfg0.win 9).blk t).view.emb (ix2 p (0 : Fin 1))) 0))
  refine congrArg _ (congrArg ix1 (Fin.ext ?_))
  show 512 * t.val + p.val = win0_9.index t 0 * 512 + 1 * p.val
  rw [e0]; omega

/-! ## The 64 blocks cover the result arrays -/

/-- An index of the z array is in point t's block iff each coordinate is in the block's range on its axis. -/
theorem mem_blk8 (t : Fin cfg0.N) (i : S32768x64.Idx) :
    i ∈ ((cfg0.win 8).blk t).view.set ↔ ∀ a : Fin 2, win0_8.index t a * S512x64.size a ≤ (i a).val ∧ (i a).val < win0_8.index t a * S512x64.size a + S512x64.size a := by
  show i ∈ ((View.whole main_v3_0).slice (win0_8.rect t)).set ↔ _
  rw [View.set_slice_whole, Rect.mem_set_unit]
  exact Iff.rfl

/-- An index of the [32768, 1] array is in point t's block iff each coordinate is in the block's range on its axis. -/
theorem mem_blk9 (t : Fin cfg0.N) (i : S32768x1.Idx) :
    i ∈ ((cfg0.win 9).blk t).view.set ↔ ∀ a : Fin 2, win0_9.index t a * S512x1.size a ≤ (i a).val ∧ (i a).val < win0_9.index t a * S512x1.size a + S512x1.size a := by
  show i ∈ ((View.whole main_v3_1).slice (win0_9.rect t)).set ↔ _
  rw [View.set_slice_whole, Rect.mem_set_unit]
  exact Iff.rfl

/-- Row r of the z array is in the block of point r / 512. -/
theorem cover8 (i : S32768x64.Idx) :
    ∃ t : Fin cfg0.N, (cfg0.win 8).flush t = true ∧ i ∈ ((cfg0.win 8).blk t).view.set := by
  have hi0 : (i 0).val < 32768 := (i 0).isLt
  have hi1 : (i 1).val < 64 := (i 1).isLt
  have hN : cfg0.N = 64 := N_0
  have ht : (i 0).val / 512 < cfg0.N := by rw [hN]; omega
  refine ⟨⟨(i 0).val / 512, ht⟩, flush0_8 _, ?_⟩
  rw [mem_blk8]
  obtain ⟨-, -, -, -, e0, e1, -⟩ := idx_facts ⟨(i 0).val / 512, ht⟩
  intro a
  match a with
  | ⟨0, _⟩ =>
    show win0_8.index ⟨(i 0).val / 512, ht⟩ 0 * 512 ≤ (i 0).val ∧ (i 0).val < win0_8.index ⟨(i 0).val / 512, ht⟩ 0 * 512 + 512
    rw [e0]; show (i 0).val / 512 * 512 ≤ (i 0).val ∧ (i 0).val < (i 0).val / 512 * 512 + 512; omega
  | ⟨1, _⟩ =>
    show win0_8.index ⟨(i 0).val / 512, ht⟩ 1 * 64 ≤ (i 1).val ∧ (i 1).val < win0_8.index ⟨(i 0).val / 512, ht⟩ 1 * 64 + 64
    rw [e1]; omega

/-- Row r of the [32768, 1] array is in the block of point r / 512. -/
theorem cover9 (i : S32768x1.Idx) :
    ∃ t : Fin cfg0.N, (cfg0.win 9).flush t = true ∧ i ∈ ((cfg0.win 9).blk t).view.set := by
  have hi0 : (i 0).val < 32768 := (i 0).isLt
  have hi1 : (i 1).val < 1 := (i 1).isLt
  have hN : cfg0.N = 64 := N_0
  have ht : (i 0).val / 512 < cfg0.N := by rw [hN]; omega
  refine ⟨⟨(i 0).val / 512, ht⟩, flush0_9 _, ?_⟩
  rw [mem_blk9]
  obtain ⟨-, -, -, -, -, -, e0, e1⟩ := idx_facts ⟨(i 0).val / 512, ht⟩
  intro a
  match a with
  | ⟨0, _⟩ =>
    show win0_9.index ⟨(i 0).val / 512, ht⟩ 0 * 512 ≤ (i 0).val ∧ (i 0).val < win0_9.index ⟨(i 0).val / 512, ht⟩ 0 * 512 + 512
    rw [e0]; show (i 0).val / 512 * 512 ≤ (i 0).val ∧ (i 0).val < (i 0).val / 512 * 512 + 512; omega
  | ⟨1, _⟩ =>
    show win0_9.index ⟨(i 0).val / 512, ht⟩ 1 * 1 ≤ (i 1).val ∧ (i 1).val < win0_9.index ⟨(i 0).val / 512, ht⟩ 1 * 1 + 1
    rw [e1]; omega

/-- The z array after the run. -/
theorem final8 (hout : OutBlocksSpec) (c : Dev nD) : (dats m 0 c).arrAt 8 cfg0.N = zArr m c :=
  (dats m 0 c).arrAt_eq_of_cover 8 (zArr m c) (fun t _ => flushed8_eq m hout c t) cover8

/-- The [32768, 1] array after the run. -/
theorem final9 (hout : OutBlocksSpec) (c : Dev nD) : (dats m 0 c).arrAt 9 cfg0.N = ldArr m c :=
  (dats m 0 c).arrAt_eq_of_cover 9 (ldArr m c) (fun t _ => flushed9_eq m hout c t) cover9

/-! ## The arrays as the region finds them, and the reshape after it -/

/-- The conversion of the first weight array before the region is the identity on extended reals. -/
theorem V_main_v0 (c : Dev nD) :
    (V m c main_v0 : S6x160x1024.Idx → EReal) = (m ((c : Thread nD τ).loc main_arg2) : S6x160x1024.Idx → EReal) := by
  show StableHlo.after hostOps0 (fun b => m (c, b)) (Proc.devRef .tc main_v0) = _
  after_results
  rfl

/-- So is the second weight array's. -/
theorem V_main_v1 (c : Dev nD) :
    (V m c main_v1 : S6x1024x1024.Idx → EReal) = (m ((c : Thread nD τ).loc main_arg4) : S6x1024x1024.Idx → EReal) := by
  show StableHlo.after hostOps0 (fun b => m (c, b)) (Proc.devRef .tc main_v1) = _
  after_results
  rfl

/-- And the third's. -/
theorem V_main_v2 (c : Dev nD) :
    (V m c main_v2 : S6x1024x64.Idx → EReal) = (m ((c : Thread nD τ).loc main_arg6) : S6x1024x64.Idx → EReal) := by
  show StableHlo.after hostOps0 (fun b => m (c, b)) (Proc.devRef .tc main_v2) = _
  after_results
  rfl

/-- The flow's z of the arrays as the region finds them is the flow's z of the arguments. -/
theorem zArr_eq (c : Dev nD) :
    (zArr m c : S32768x64.Idx → EReal) = Cert.Flow.zOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show Cert.Flow.zOut (V m c main_arg0) (V m c main_arg1) (V m c main_v0) (V m c main_arg3) (V m c main_v1) (V m c main_arg5) (V m c main_v2) (V m c main_arg7) = _
  rw [V_main_arg0 m c, V_main_arg1 m c, V_main_v0 m c, V_main_arg3 m c, V_main_v1 m c, V_main_arg5 m c,
    V_main_v2 m c, V_main_arg7 m c]

/-- The reshape after the region reads the [32768, 1] array as the [32768] result: the flow's log-determinant. -/
theorem tail_eq (hout : OutBlocksSpec) (c : Dev nD) :
    (Pipeline.afterTail₀ cfgs (dats m) 0 (V0 m) [hostOps1] c main_v4 : S32768.Idx → EReal)
      = Cert.Flow.logDetOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v4) = _
  after_results
  have e : (Pipeline.withArrays (cfgs 0).spec c (V0 m c) (fun w => (dats m 0 c).arrAt w (cfgs 0).N)
      (Proc.devRef .tc main_v3_1) : S32768x1.Idx → EReal) = ldArr m c :=
    (Pipeline.withArrays_arr spec0 launch0.win.arr_inj c _ _ 9).trans (final9 m hout c)
  refine funext fun (i : S32768.Idx) => ?_
  show shapeCast _ (Pipeline.withArrays (cfgs 0).spec c (V0 m c) (fun w => (dats m 0 c).arrAt w (cfgs 0).N)
      (Proc.devRef .tc main_v3_1)) shapeCasts_S32768x1_S32768 i = _
  rw [e]
  refine (shapeCast_apply (s := S32768x1) (t := S32768) (ldArr m c : S32768x1.Idx → EReal) shapeCasts_S32768x1_S32768 i
    (ix2 (i 0) (0 : Fin 1)) ?_).trans ?_
  · show (S32768x1.rowMajor (ix2 (i 0) (0 : Fin 1))).val = (S32768.rowMajor i).val
    rewrite [Shape.rowMajor_val_two, Shape.rowMajor_val_one]
    show (i 0).val * 1 + 0 = (i 0).val
    omega
  · show Cert.Flow.logDetOut (V m c main_arg0) (V m c main_arg1) (V m c main_v0) (V m c main_arg3) (V m c main_v1) (V m c main_arg5) (V m c main_v2) (V m c main_arg7) (ix1 (i 0)) = _
    rw [V_main_arg0 m c, V_main_arg1 m c, V_main_v0 m c, V_main_arg3 m c, V_main_v1 m c, V_main_arg5 m c,
      V_main_v2 m c, V_main_arg7 m c]
    exact congrArg _ (eq_ix1 i).symm

/-! ## The run -/

/-- Given what the body leaves in its output blocks, every run of the kernel ends with the flow's z in the first
    result, the flow's log-determinant in the second, and the arguments as launched. -/
theorem kernel_run (hout : OutBlocksSpec) (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v3_0) = Cert.Flow.zOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v4) = Cert.Flow.logDetOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans ((final8 m hout c).trans (zArr_eq m c)),
      ((h c).2 main_v4 (Pipeline.mem_restRefs_of main_v4 (by decide) (by decide))).trans (tail_eq m hout c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.Flow.Kernel

end
-- ==== Proof.CouplingLayer.lean ====
/-
  One coupling layer assembled from its stages.  A program computes a layer as a chain of arrays over the whole batch
  (the joined input, three matrix products with bias and max with 0, tanh, exponential, product, sums).  The lemmas here
  say: if, at one row, every array of the chain is the stated function of the arrays before it, then the layer's
  results at that row are the specification's even (or odd) layer applied to the previous results at that row.  They
  mention no program: the arrays are variables.
-/
import proofs.«157287_j66073776882121_2_alg».proof.Proof.CouplingSpec

noncomputable section

namespace Cert.Flow.Reference

open Idealize.ShloMosaic Idealize.ShloMosaic.ValueIdx Cert.Flow

/-! ## One coupling layer from its stages read at a row

The stages of one layer are arrays over the whole batch.  Fix a row r.  If each stage's row r is the stated
function of the previous stages' row r (the hypotheses below: one per matrix product with its bias and max with 0,
one for tanh, one for the product with the exponential plus the shift, one for the sum), then the layer's results at
row r are the specification's layer applied to the previous results at row r. -/

section Generic

variable (C : FVec Ideal ⟨2, ![32768, 128]⟩ .f32)
  (W1 : FVec Ideal ⟨3, ![6, 160, 1024]⟩ .f32) (b1 : FVec Ideal ⟨2, ![6, 1024]⟩ .f32)
  (W2 : FVec Ideal ⟨3, ![6, 1024, 1024]⟩ .f32) (b2 : FVec Ideal ⟨2, ![6, 1024]⟩ .f32)
  (W3 : FVec Ideal ⟨3, ![6, 1024, 64]⟩ .f32) (b3 : FVec Ideal ⟨2, ![6, 64]⟩ .f32)
  (l : Fin 6) (r : Fin 32768)
  (Zp Zn : FVec Ideal ⟨2, ![32768, 64]⟩ .f32) (Lp Ln : FVec Ideal ⟨1, ![32768]⟩ .f32)
  (M U S Y : FVec Ideal ⟨2, ![32768, 32]⟩ .f32)
  (A : FVec Ideal ⟨2, ![32768, 160]⟩ .f32)
  (H1 H2 : FVec Ideal ⟨2, ![32768, 1024]⟩ .f32)
  (P : FVec Ideal ⟨2, ![32768, 64]⟩ .f32)

/-- The perceptron: the joined row through the three stages is the specification's perceptron. -/
theorem params_of_stages
    (hA : ∀ k : Fin 160, A (ix2 r k) = joined (fun j => U (ix2 r j)) (condRow C r) k)
    (hH1 : ∀ n : Fin 1024, H1 (ix2 r n) = max ((∑ k : Fin 160, A (ix2 r k) * W1 (ix3 l k n)) + b1 (ix2 l n)) 0)
    (hH2 : ∀ n : Fin 1024, H2 (ix2 r n) = max ((∑ k : Fin 1024, H1 (ix2 r k) * W2 (ix3 l k n)) + b2 (ix2 l n)) 0)
    (hP : ∀ n : Fin 64, P (ix2 r n) = (∑ k : Fin 1024, H2 (ix2 r k) * W3 (ix3 l k n)) + b3 (ix2 l n)) :
    (fun n : Fin 64 => P (ix2 r n)) = params W1 b1 W2 b2 W3 b3 l (fun j => U (ix2 r j)) (condRow C r) := by
  have e1 : (fun k : Fin 160 => A (ix2 r k)) = joined (fun j => U (ix2 r j)) (condRow C r) := funext hA
  have e2 : (fun n : Fin 1024 => H1 (ix2 r n)) = hidden1 W1 b1 l (joined (fun j => U (ix2 r j)) (condRow C r)) := by
    funext n; rw [hH1 n, ← e1]; rfl
  have e3 : (fun n : Fin 1024 => H2 (ix2 r n))
      = hidden2 W2 b2 l (hidden1 W1 b1 l (joined (fun j => U (ix2 r j)) (condRow C r))) := by
    funext n; rw [hH2 n, ← e2]; rfl
  funext n
  rw [hP n]; unfold params; rw [← e3]; rfl

/-- The transformed half and the log-determinant of one layer from its stages at row r: U is the unmasked half
    and M the masked half. -/
theorem layer_of_stages
    (hA : ∀ k : Fin 160, A (ix2 r k) = joined (fun j => U (ix2 r j)) (condRow C r) k)
    (hH1 : ∀ n : Fin 1024, H1 (ix2 r n) = max ((∑ k : Fin 160, A (ix2 r k) * W1 (ix3 l k n)) + b1 (ix2 l n)) 0)
    (hH2 : ∀ n : Fin 1024, H2 (ix2 r n) = max ((∑ k : Fin 1024, H1 (ix2 r k) * W2 (ix3 l k n)) + b2 (ix2 l n)) 0)
    (hP : ∀ n : Fin 64, P (ix2 r n) = (∑ k : Fin 1024, H2 (ix2 r k) * W3 (ix3 l k n)) + b3 (ix2 l n))
    (hS : ∀ j : Fin 32, S (ix2 r j) = Ideal.tanh (P (ix2 r ⟨j.val, by have := j.isLt; omega⟩)))
    (hY : ∀ j : Fin 32, Y (ix2 r j)
      = M (ix2 r j) * Ideal.exp (S (ix2 r j)) + P (ix2 r ⟨32 + j.val, by have := j.isLt; omega⟩))
    (hL : Ln (ix1 r) = Lp (ix1 r) + ∑ j : Fin 32, S (ix2 r j)) :
    (fun j : Fin 32 => Y (ix2 r j))
        = transformed W1 b1 W2 b2 W3 b3 l (fun j => M (ix2 r j)) (fun j => U (ix2 r j)) (condRow C r)
      ∧ Ln (ix1 r) = Lp (ix1 r) + logDet W1 b1 W2 b2 W3 b3 l (fun j => U (ix2 r j)) (condRow C r) := by
  have hp := params_of_stages C W1 b1 W2 b2 W3 b3 l r U A H1 H2 P hA hH1 hH2 hP
  have hs : (fun j : Fin 32 => S (ix2 r j)) = logScale W1 b1 W2 b2 W3 b3 l (fun j => U (ix2 r j)) (condRow C r) := by
    funext j; rw [hS j]; unfold logScale; rw [← hp]
  constructor
  · funext j
    rw [hY j]; unfold transformed shift; rw [← hs, ← hp]
  · rw [hL]; unfold logDet; rw [← hs]

/-- An even layer: the masked half is the first (columns 0 … 31), the unmasked the second. -/
theorem evenLayer_of_stages
    (hM : ∀ j : Fin 32, M (ix2 r j) = Zp (ix2 r ⟨j.val, by have := j.isLt; omega⟩))
    (hU : ∀ j : Fin 32, U (ix2 r j) = Zp (ix2 r ⟨32 + j.val, by have := j.isLt; omega⟩))
    (hA : ∀ k : Fin 160, A (ix2 r k) = joined (fun j => U (ix2 r j)) (condRow C r) k)
    (hH1 : ∀ n : Fin 1024, H1 (ix2 r n) = max ((∑ k : Fin 160, A (ix2 r k) * W1 (ix3 l k n)) + b1 (ix2 l n)) 0)
    (hH2 : ∀ n : Fin 1024, H2 (ix2 r n) = max ((∑ k : Fin 1024, H1 (ix2 r k) * W2 (ix3 l k n)) + b2 (ix2 l n)) 0)
    (hP : ∀ n : Fin 64, P (ix2 r n) = (∑ k : Fin 1024, H2 (ix2 r k) * W3 (ix3 l k n)) + b3 (ix2 l n))
    (hS : ∀ j : Fin 32, S (ix2 r j) = Ideal.tanh (P (ix2 r ⟨j.val, by have := j.isLt; omega⟩)))
    (hY : ∀ j : Fin 32, Y (ix2 r j)
      = M (ix2 r j) * Ideal.exp (S (ix2 r j)) + P (ix2 r ⟨32 + j.val, by have := j.isLt; omega⟩))
    (hL : Ln (ix1 r) = Lp (ix1 r) + ∑ j : Fin 32, S (ix2 r j))
    (hZ0 : ∀ j : Fin 32, Zn (ix2 r ⟨j.val, by have := j.isLt; omega⟩) = Y (ix2 r j))
    (hZ1 : ∀ j : Fin 32, Zn (ix2 r ⟨32 + j.val, by have := j.isLt; omega⟩) = U (ix2 r j)) :
    rowOf Zn Ln r = evenLayer W1 b1 W2 b2 W3 b3 l (condRow C r) (rowOf Zp Lp r) := by
  obtain ⟨hy, hl⟩ := layer_of_stages C W1 b1 W2 b2 W3 b3 l r Lp Ln M U S Y A H1 H2 P hA hH1 hH2 hP hS hY hL
  have hm : (fun j : Fin 32 => M (ix2 r j)) = (rowOf Zp Lp r).1 := funext hM
  have hu : (fun j : Fin 32 => U (ix2 r j)) = (rowOf Zp Lp r).2.1 := funext hU
  rw [hm, hu] at hy
  rw [hu] at hl
  refine Prod.ext ?_ (Prod.ext ?_ ?_)
  · exact (funext hZ0).trans hy
  · exact (funext hZ1).trans hu
  · exact hl

/-- An odd layer: the masked half is the second (columns 32 … 63), the unmasked the first. -/
theorem oddLayer_of_stages
    (hM : ∀ j : Fin 32, M (ix2 r j) = Zp (ix2 r ⟨32 + j.val, by have := j.isLt; omega⟩))
    (hU : ∀ j : Fin 32, U (ix2 r j) = Zp (ix2 r ⟨j.val, by have := j.isLt; omega⟩))
    (hA : ∀ k : Fin 160, A (ix2 r k) = joined (fun j => U (ix2 r j)) (condRow C r) k)
    (hH1 : ∀ n : Fin 1024, H1 (ix2 r n) = max ((∑ k : Fin 160, A (ix2 r k) * W1 (ix3 l k n)) + b1 (ix2 l n)) 0)
    (hH2 : ∀ n : Fin 1024, H2 (ix2 r n) = max ((∑ k : Fin 1024, H1 (ix2 r k) * W2 (ix3 l k n)) + b2 (ix2 l n)) 0)
    (hP : ∀ n : Fin 64, P (ix2 r n) = (∑ k : Fin 1024, H2 (ix2 r k) * W3 (ix3 l k n)) + b3 (ix2 l n))
    (hS : ∀ j : Fin 32, S (ix2 r j) = Ideal.tanh (P (ix2 r ⟨j.val, by have := j.isLt; omega⟩)))
    (hY : ∀ j : Fin 32, Y (ix2 r j)
      = M (ix2 r j) * Ideal.exp (S (ix2 r j)) + P (ix2 r ⟨32 + j.val, by have := j.isLt; omega⟩))
    (hL : Ln (ix1 r) = Lp (ix1 r) + ∑ j : Fin 32, S (ix2 r j))
    (hZ0 : ∀ j : Fin 32, Zn (ix2 r ⟨j.val, by have := j.isLt; omega⟩) = U (ix2 r j))
    (hZ1 : ∀ j : Fin 32, Zn (ix2 r ⟨32 + j.val, by have := j.isLt; omega⟩) = Y (ix2 r j)) :
    rowOf Zn Ln r = oddLayer W1 b1 W2 b2 W3 b3 l (condRow C r) (rowOf Zp Lp r) := by
  obtain ⟨hy, hl⟩ := layer_of_stages C W1 b1 W2 b2 W3 b3 l r Lp Ln M U S Y A H1 H2 P hA hH1 hH2 hP hS hY hL
  have hm : (fun j : Fin 32 => M (ix2 r j)) = (rowOf Zp Lp r).2.1 := funext hM
  have hu : (fun j : Fin 32 => U (ix2 r j)) = (rowOf Zp Lp r).1 := funext hU
  rw [hm, hu] at hy
  rw [hu] at hl
  refine Prod.ext ?_ (Prod.ext ?_ ?_)
  · exact (funext hZ0).trans hu
  · exact (funext hZ1).trans hy
  · exact hl

end Generic

end Cert.Flow.Reference

end
-- ==== Proof.ReferenceFlow.lean ====
/-
  The reference program computes the specification's flow.  The generated module reads the reference one operation at
  a time (each stage at an index from its operands at an index).  For each of the six layers the stages at a row are
  identified with the hypotheses of the assembled-layer lemmas (one short lemma per stage: the index functions of
  slices, reshapes and broadcasts are composed and compared coordinate by coordinate); the six layers are then chained
  from the argument's row, and the two results are read off the final row state.
-/
import proofs.«157287_j66073776882121_2_alg».proof.Proof.CouplingLayer
import proofs.«157287_j66073776882121_2_alg».proof.Proof.ReferenceRead

noncomputable section

namespace Cert.Flow.Reference

open Cert.ReferenceIdeal Cert.ReferenceIdeal.ReadP Idealize.ShloMosaic Idealize.ShloMosaic.ValueIdx Cert.Flow

/-! ### Layer 0 (even: transforms columns 0 … 31, reads 32 … 63) -/

/-- The masked half's row: a slice of the previous result. -/
theorem l0_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v1 (F := Ideal) x0) (ix2 r j) = x0 (ix2 r ⟨j.val, by have := j.isLt; omega⟩) := by
  rw [val_main_v1_apply]
  exact congrArg _ (funext fun a => by match a with | ⟨0, _⟩ => rfl | ⟨1, _⟩ => rfl)

/-- The unmasked half's row: the other slice. -/
theorem l0_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v2 (F := Ideal) x0) (ix2 r j) = x0 (ix2 r ⟨32 + j.val, by have := j.isLt; omega⟩) := by
  rw [val_main_v2_apply]
  exact congrArg _ (funext fun a => by match a with | ⟨0, _⟩ => rfl | ⟨1, _⟩ => rfl)

/-- The perceptron's input row: the unmasked half followed by the conditioning row. -/
theorem l0_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v3 (F := Ideal) x0 x1) (ix2 r k) = joined (fun j => (val_main_v2 (F := Ideal) x0) (ix2 r j)) (condRow x1 r) k := by
  unfold joined
  by_cases h : k.val < 32
  · rw [dif_pos h]; unfold val_main_v3
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v3 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l0_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v12 (F := Ideal) x0 x1 x2 x3) (ix2 r n)
      = max ((∑ k : Fin 160, (val_main_v3 (F := Ideal) x0 x1) (ix2 r k) * x2 (ix3 0 k n)) + x3 (ix2 0 n)) 0 := by
  rw [val_main_v12_apply, val_main_v11_apply, val_main_v6_apply, val_main_v10_apply, val_main_v9_apply, val_main_v8_apply, val_main_v7_apply,
    val_main_call0_v0_apply, val_main_call0_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v5_apply, val_main_v4_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l0_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v21 (F := Ideal) x0 x1 x2 x3 x4 x5) (ix2 r n)
      = max ((∑ k : Fin 1024, (val_main_v12 (F := Ideal) x0 x1 x2 x3) (ix2 r k) * x4 (ix3 0 k n)) + x5 (ix2 0 n)) 0 := by
  rw [val_main_v21_apply, val_main_v20_apply, val_main_v15_apply, val_main_v19_apply, val_main_v18_apply, val_main_v17_apply, val_main_v16_apply,
    val_main_call1_v0_apply, val_main_call1_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v14_apply, val_main_v13_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l0_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v29 (F := Ideal) x0 x1 x2 x3 x4 x5 x6 x7) (ix2 r n)
      = (∑ k : Fin 1024, (val_main_v21 (F := Ideal) x0 x1 x2 x3 x4 x5) (ix2 r k) * x6 (ix3 0 k n)) + x7 (ix2 0 n) := by
  rw [val_main_v29_apply, val_main_v24_apply, val_main_v28_apply, val_main_v27_apply, val_main_v26_apply, val_main_v25_apply]
  simp only [Ideal.maximumf_def, Ideal.addf_def, Ideal.ofBits_def, Ideal.ofBits_zero_f32]
  refine congrArg₂ (· + ·) (Finset.sum_congr rfl fun k _ => ?_) (congrArg x7 ?_)
  · rw [val_main_v23_apply, val_main_v22_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l0_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v31 (F := Ideal) x0 x1 x2 x3 x4 x5 x6 x7) (ix2 r j) = Ideal.tanh ((val_main_v29 (F := Ideal) x0 x1 x2 x3 x4 x5 x6 x7) (ix2 r ⟨j.val, by have := j.isLt; omega⟩)) := by
  rw [val_main_v31_apply, val_main_v30_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l0_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v35 (F := Ideal) x0 x1 x2 x3 x4 x5 x6 x7) (ix2 r j)
      = (val_main_v1 (F := Ideal) x0) (ix2 r j) * Ideal.exp ((val_main_v31 (F := Ideal) x0 x1 x2 x3 x4 x5 x6 x7) (ix2 r j))
        + (val_main_v29 (F := Ideal) x0 x1 x2 x3 x4 x5 x6 x7) (ix2 r ⟨32 + j.val, by have := j.isLt; omega⟩) := by
  rw [val_main_v35_apply, val_main_v34_apply, val_main_v33_apply, val_main_v32_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l0_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v38 (F := Ideal) x0 x1 x2 x3 x4 x5 x6 x7) (ix1 r) = (val_main_v0 (F := Ideal)) (ix1 r) + ∑ j : Fin 32, (val_main_v31 (F := Ideal) x0 x1 x2 x3 x4 x5 x6 x7) (ix2 r j) := by
  rw [val_main_v38_apply, val_main_v37_apply, val_main_cst_0_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l0_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v36 (F := Ideal) x0 x1 x2 x3 x4 x5 x6 x7) (ix2 r ⟨j.val, by have := j.isLt; omega⟩) = (val_main_v35 (F := Ideal) x0 x1 x2 x3 x4 x5 x6 x7) (ix2 r j) := by
  unfold val_main_v36
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l0_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v36 (F := Ideal) x0 x1 x2 x3 x4 x5 x6 x7) (ix2 r ⟨32 + j.val, by have := j.isLt; omega⟩) = (val_main_v2 (F := Ideal) x0) (ix2 r j) := by
  unfold val_main_v36
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 0 at row r is the specification's even layer on the previous results at row r. -/
theorem layer0 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v36 (F := Ideal) x0 x1 x2 x3 x4 x5 x6 x7) (val_main_v38 (F := Ideal) x0 x1 x2 x3 x4 x5 x6 x7) r
      = evenLayer x2 x3 x4 x5 x6 x7 0 (condRow x1 r) (rowOf x0 (val_main_v0 (F := Ideal)) r) :=
  evenLayer_of_stages x1 x2 x3 x4 x5 x6 x7 0 r x0 (val_main_v36 (F := Ideal) x0 x1 x2 x3 x4 x5 x6 x7) (val_main_v0 (F := Ideal)) (val_main_v38 (F := Ideal) x0 x1 x2 x3 x4 x5 x6 x7)
    (val_main_v1 (F := Ideal) x0) (val_main_v2 (F := Ideal) x0) (val_main_v31 (F := Ideal) x0 x1 x2 x3 x4 x5 x6 x7) (val_main_v35 (F := Ideal) x0 x1 x2 x3 x4 x5 x6 x7) (val_main_v3 (F := Ideal) x0 x1) (val_main_v12 (F := Ideal) x0 x1 x2 x3) (val_main_v21 (F := Ideal) x0 x1 x2 x3 x4 x5) (val_main_v29 (F := Ideal) x0 x1 x2 x3 x4 x5 x6 x7)
    (l0_masked x0 x1 x2 x3 x4 x5 x6 x7 r) (l0_unmasked x0 x1 x2 x3 x4 x5 x6 x7 r) (l0_joined x0 x1 x2 x3 x4 x5 x6 x7 r)
    (l0_hidden1 x0 x1 x2 x3 x4 x5 x6 x7 r) (l0_hidden2 x0 x1 x2 x3 x4 x5 x6 x7 r) (l0_outputs x0 x1 x2 x3 x4 x5 x6 x7 r)
    (l0_logScale x0 x1 x2 x3 x4 x5 x6 x7 r) (l0_transformed x0 x1 x2 x3 x4 x5 x6 x7 r) (l0_logDet x0 x1 x2 x3 x4 x5 x6 x7 r)
    (l0_z_first x0 x1 x2 x3 x4 x5 x6 x7 r) (l0_z_second x0 x1 x2 x3 x4 x5 x6 x7 r)

/-! ### Layer 1 (odd: transforms columns 32 … 63, reads 0 … 31) -/

/-- The masked half's row: a slice of the previous result. -/
theorem l1_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v39 (F := Ideal) x0 x1 x2 x3 x4 x5 x6 x7) (ix2 r j) = (val_main_v36 (F := Ideal) x0 x1 x2 x3 x4 x5 x6 x7) (ix2 r ⟨32 + j.val, by have := j.isLt; omega⟩) := by
  rw [val_main_v39_apply]
  exact congrArg _ (funext fun a => by match a with | ⟨0, _⟩ => rfl | ⟨1, _⟩ => rfl)

/-- The unmasked half's row: the other slice. -/
theorem l1_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v40 (F := Ideal) x0 x1 x2 x3 x4 x5 x6 x7) (ix2 r j) = (val_main_v36 (F := Ideal) x0 x1 x2 x3 x4 x5 x6 x7) (ix2 r ⟨j.val, by have := j.isLt; omega⟩) := by
  rw [val_main_v40_apply]
  exact congrArg _ (funext fun a => by match a with | ⟨0, _⟩ => rfl | ⟨1, _⟩ => rfl)

/-- The perceptron's input row: the unmasked half followed by the conditioning row. -/
theorem l1_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v41 (F := Ideal) x0 x1 x2 x3 x4 x5 x6 x7) (ix2 r k) = joined (fun j => (val_main_v40 (F := Ideal) x0 x1 x2 x3 x4 x5 x6 x7) (ix2 r j)) (condRow x1 r) k := by
  unfold joined
  by_cases h : k.val < 32
  · rw [dif_pos h]; unfold val_main_v41
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v41 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l1_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v50 (F := Ideal) x0 x1 x2 x3 x4 x5 x6 x7) (ix2 r n)
      = max ((∑ k : Fin 160, (val_main_v41 (F := Ideal) x0 x1 x2 x3 x4 x5 x6 x7) (ix2 r k) * x2 (ix3 1 k n)) + x3 (ix2 1 n)) 0 := by
  rw [val_main_v50_apply, val_main_v49_apply, val_main_v44_apply, val_main_v48_apply, val_main_v47_apply, val_main_v46_apply, val_main_v45_apply,
    val_main_call2_v0_apply, val_main_call2_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v43_apply, val_main_v42_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l1_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v59 (F := Ideal) x0 x1 x2 x3 x4 x5 x6 x7) (ix2 r n)
      = max ((∑ k : Fin 1024, (val_main_v50 (F := Ideal) x0 x1 x2 x3 x4 x5 x6 x7) (ix2 r k) * x4 (ix3 1 k n)) + x5 (ix2 1 n)) 0 := by
  rw [val_main_v59_apply, val_main_v58_apply, val_main_v53_apply, val_main_v57_apply, val_main_v56_apply, val_main_v55_apply, val_main_v54_apply,
    val_main_call3_v0_apply, val_main_call3_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v52_apply, val_main_v51_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l1_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v67 (F := Ideal) x0 x1 x2 x3 x4 x5 x6 x7) (ix2 r n)
      = (∑ k : Fin 1024, (val_main_v59 (F := Ideal) x0 x1 x2 x3 x4 x5 x6 x7) (ix2 r k) * x6 (ix3 1 k n)) + x7 (ix2 1 n) := by
  rw [val_main_v67_apply, val_main_v62_apply, val_main_v66_apply, val_main_v65_apply, val_main_v64_apply, val_main_v63_apply]
  simp only [Ideal.maximumf_def, Ideal.addf_def, Ideal.ofBits_def, Ideal.ofBits_zero_f32]
  refine congrArg₂ (· + ·) (Finset.sum_congr rfl fun k _ => ?_) (congrArg x7 ?_)
  · rw [val_main_v61_apply, val_main_v60_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l1_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v69 (F := Ideal) x0 x1 x2 x3 x4 x5 x6 x7) (ix2 r j) = Ideal.tanh ((val_main_v67 (F := Ideal) x0 x1 x2 x3 x4 x5 x6 x7) (ix2 r ⟨j.val, by have := j.isLt; omega⟩)) := by
  rw [val_main_v69_apply, val_main_v68_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l1_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v73 (F := Ideal) x0 x1 x2 x3 x4 x5 x6 x7) (ix2 r j)
      = (val_main_v39 (F := Ideal) x0 x1 x2 x3 x4 x5 x6 x7) (ix2 r j) * Ideal.exp ((val_main_v69 (F := Ideal) x0 x1 x2 x3 x4 x5 x6 x7) (ix2 r j))
        + (val_main_v67 (F := Ideal) x0 x1 x2 x3 x4 x5 x6 x7) (ix2 r ⟨32 + j.val, by have := j.isLt; omega⟩) := by
  rw [val_main_v73_apply, val_main_v72_apply, val_main_v71_apply, val_main_v70_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l1_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v76 (F := Ideal) x0 x1 x2 x3 x4 x5 x6 x7) (ix1 r) = (val_main_v38 (F := Ideal) x0 x1 x2 x3 x4 x5 x6 x7) (ix1 r) + ∑ j : Fin 32, (val_main_v69 (F := Ideal) x0 x1 x2 x3 x4 x5 x6 x7) (ix2 r j) := by
  rw [val_main_v76_apply, val_main_v75_apply, val_main_cst_1_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l1_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v74 (F := Ideal) x0 x1 x2 x3 x4 x5 x6 x7) (ix2 r ⟨j.val, by have := j.isLt; omega⟩) = (val_main_v40 (F := Ideal) x0 x1 x2 x3 x4 x5 x6 x7) (ix2 r j) := by
  unfold val_main_v74
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l1_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v74 (F := Ideal) x0 x1 x2 x3 x4 x5 x6 x7) (ix2 r ⟨32 + j.val, by have := j.isLt; omega⟩) = (val_main_v73 (F := Ideal) x0 x1 x2 x3 x4 x5 x6 x7) (ix2 r j) := by
  unfold val_main_v74
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 1 at row r is the specification's odd layer on the previous results at row r. -/
theorem layer1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v74 (F := Ideal) x0 x1 x2 x3 x4 x5 x6 x7) (val_main_v76 (F := Ideal) x0 x1 x2 x3 x4 x5 x6 x7) r
      = oddLayer x2 x3 x4 x5 x6 x7 1 (condRow x1 r) (rowOf (val_main_v36 (F := Ideal) x0 x1 x2 x3 x4 x5 x6 x7) (val_main_v38 (F := Ideal) x0 x1 x2 x3 x4 x5 x6 x7) r) :=
  oddLayer_of_stages x1 x2 x3 x4 x5 x6 x7 1 r (val_main_v36 (F := Ideal) x0 x1 x2 x3 x4 x5 x6 x7) (val_main_v74 (F := Ideal) x0 x1 x2 x3 x4 x5 x6 x7) (val_main_v38 (F := Ideal) x0 x1 x2 x3 x4 x5 x6 x7) (val_main_v76 (F := Ideal) x0 x1 x2 x3 x4 x5 x6 x7)
    (val_main_v39 (F := Ideal) x0 x1 x2 x3 x4 x5 x6 x7) (val_main_v40 (F := Ideal) x0 x1 x2 x3 x4 x5 x6 x7) (val_main_v69 (F := Ideal) x0 x1 x2 x3 x4 x5 x6 x7) (val_main_v73 (F := Ideal) x0 x1 x2 x3 x4 x5 x6 x7) (val_main_v41 (F := Ideal) x0 x1 x2 x3 x4 x5 x6 x7) (val_main_v50 (F := Ideal) x0 x1 x2 x3 x4 x5 x6 x7) (val_main_v59 (F := Ideal) x0 x1 x2 x3 x4 x5 x6 x7) (val_main_v67 (F := Ideal) x0 x1 x2 x3 x4 x5 x6 x7)
    (l1_masked x0 x1 x2 x3 x4 x5 x6 x7 r) (l1_unmasked x0 x1 x2 x3 x4 x5 x6 x7 r) (l1_joined x0 x1 x2 x3 x4 x5 x6 x7 r)
    (l1_hidden1 x0 x1 x2 x3 x4 x5 x6 x7 r) (l1_hidden2 x0 x1 x2 x3 x4 x5 x6 x7 r) (l1_outputs x0 x1 x2 x3 x4 x5 x6 x7 r)
    (l1_logScale x0 x1 x2 x3 x4 x5 x6 x7 r) (l1_transformed x0 x1 x2 x3 x4 x5 x6 x7 r) (l1_logDet x0 x1 x2 x3 x4 x5 x6 x7 r)
    (l1_z_first x0 x1 x2 x3 x4 x5 x6 x7 r) (l1_z_second x0 x1 x2 x3 x4 x5 x6 x7 r)

/-! ### Layer 2 (even: transforms columns 0 … 31, reads 32 … 63) -/

/-- The masked half's row: a slice of the previous result. -/
theorem l2_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v77 (F := Ideal) x0 x1 x2 x3 x4 x5 x6 x7) (ix2 r j) = (val_main_v74 (F := Ideal) x0 x1 x2 x3 x4 x5 x6 x7) (ix2 r ⟨j.val, by have := j.isLt; omega⟩) := by
  rw [val_main_v77_apply]
  exact congrArg _ (funext fun a => by match a with | ⟨0, _⟩ => rfl | ⟨1, _⟩ => rfl)

/-- The unmasked half's row: the other slice. -/
theorem l2_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v78 (F := Ideal) x0 x1 x2 x3 x4 x5 x6 x7) (ix2 r j) = (val_main_v74 (F := Ideal) x0 x1 x2 x3 x4 x5 x6 x7) (ix2 r ⟨32 + j.val, by have := j.isLt; omega⟩) := by
  rw [val_main_v78_apply]
  exact congrArg _ (funext fun a => by match a with | ⟨0, _⟩ => rfl | ⟨1, _⟩ => rfl)

/-- The perceptron's input row: the unmasked half followed by the conditioning row. -/
theorem l2_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v79 (F := Ideal) x0 x1 x2 x3 x4 x5 x6 x7) (ix2 r k) = joined (fun j => (val_main_v78 (F := Ideal) x0 x1 x2 x3 x4 x5 x6 x7) (ix2 r j)) (condRow x1 r) k := by
  unfold joined
  by_cases h : k.val < 32
  · rw [dif_pos h]; unfold val_main_v79
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v79 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l2_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v88 (F := Ideal) x0 x1 x2 x3 x4 x5 x6 x7) (ix2 r n)
      = max ((∑ k : Fin 160, (val_main_v79 (F := Ideal) x0 x1 x2 x3 x4 x5 x6 x7) (ix2 r k) * x2 (ix3 2 k n)) + x3 (ix2 2 n)) 0 := by
  rw [val_main_v88_apply, val_main_v87_apply, val_main_v82_apply, val_main_v86_apply, val_main_v85_apply, val_main_v84_apply, val_main_v83_apply,
    val_main_call4_v0_apply, val_main_call4_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v81_apply, val_main_v80_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l2_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v97 (F := Ideal) x0 x1 x2 x3 x4 x5 x6 x7) (ix2 r n)
      = max ((∑ k : Fin 1024, (val_main_v88 (F := Ideal) x0 x1 x2 x3 x4 x5 x6 x7) (ix2 r k) * x4 (ix3 2 k n)) + x5 (ix2 2 n)) 0 := by
  rw [val_main_v97_apply, val_main_v96_apply, val_main_v91_apply, val_main_v95_apply, val_main_v94_apply, val_main_v93_apply, val_main_v92_apply,
    val_main_call5_v0_apply, val_main_call5_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v90_apply, val_main_v89_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l2_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v105 (F := Ideal) x0 x1 x2 x3 x4 x5 x6 x7) (ix2 r n)
      = (∑ k : Fin 1024, (val_main_v97 (F := Ideal) x0 x1 x2 x3 x4 x5 x6 x7) (ix2 r k) * x6 (ix3 2 k n)) + x7 (ix2 2 n) := by
  rw [val_main_v105_apply, val_main_v100_apply, val_main_v104_apply, val_main_v103_apply, val_main_v102_apply, val_main_v101_apply]
  simp only [Ideal.maximumf_def, Ideal.addf_def, Ideal.ofBits_def, Ideal.ofBits_zero_f32]
  refine congrArg₂ (· + ·) (Finset.sum_congr rfl fun k _ => ?_) (congrArg x7 ?_)
  · rw [val_main_v99_apply, val_main_v98_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l2_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v107 (F := Ideal) x0 x1 x2 x3 x4 x5 x6 x7) (ix2 r j) = Ideal.tanh ((val_main_v105 (F := Ideal) x0 x1 x2 x3 x4 x5 x6 x7) (ix2 r ⟨j.val, by have := j.isLt; omega⟩)) := by
  rw [val_main_v107_apply, val_main_v106_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l2_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v111 (F := Ideal) x0 x1 x2 x3 x4 x5 x6 x7) (ix2 r j)
      = (val_main_v77 (F := Ideal) x0 x1 x2 x3 x4 x5 x6 x7) (ix2 r j) * Ideal.exp ((val_main_v107 (F := Ideal) x0 x1 x2 x3 x4 x5 x6 x7) (ix2 r j))
        + (val_main_v105 (F := Ideal) x0 x1 x2 x3 x4 x5 x6 x7) (ix2 r ⟨32 + j.val, by have := j.isLt; omega⟩) := by
  rw [val_main_v111_apply, val_main_v110_apply, val_main_v109_apply, val_main_v108_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l2_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v114 (F := Ideal) x0 x1 x2 x3 x4 x5 x6 x7) (ix1 r) = (val_main_v76 (F := Ideal) x0 x1 x2 x3 x4 x5 x6 x7) (ix1 r) + ∑ j : Fin 32, (val_main_v107 (F := Ideal) x0 x1 x2 x3 x4 x5 x6 x7) (ix2 r j) := by
  rw [val_main_v114_apply, val_main_v113_apply, val_main_cst_2_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l2_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v112 (F := Ideal) x0 x1 x2 x3 x4 x5 x6 x7) (ix2 r ⟨j.val, by have := j.isLt; omega⟩) = (val_main_v111 (F := Ideal) x0 x1 x2 x3 x4 x5 x6 x7) (ix2 r j) := by
  unfold val_main_v112
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l2_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v112 (F := Ideal) x0 x1 x2 x3 x4 x5 x6 x7) (ix2 r ⟨32 + j.val, by have := j.isLt; omega⟩) = (val_main_v78 (F := Ideal) x0 x1 x2 x3 x4 x5 x6 x7) (ix2 r j) := by
  unfold val_main_v112
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 2 at row r is the specification's even layer on the previous results at row r. -/
theorem layer2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v112 (F := Ideal) x0 x1 x2 x3 x4 x5 x6 x7) (val_main_v114 (F := Ideal) x0 x1 x2 x3 x4 x5 x6 x7) r
      = evenLayer x2 x3 x4 x5 x6 x7 2 (condRow x1 r) (rowOf (val_main_v74 (F := Ideal) x0 x1 x2 x3 x4 x5 x6 x7) (val_main_v76 (F := Ideal) x0 x1 x2 x3 x4 x5 x6 x7) r) :=
  evenLayer_of_stages x1 x2 x3 x4 x5 x6 x7 2 r (val_main_v74 (F := Ideal) x0 x1 x2 x3 x4 x5 x6 x7) (val_main_v112 (F := Ideal) x0 x1 x2 x3 x4 x5 x6 x7) (val_main_v76 (F := Ideal) x0 x1 x2 x3 x4 x5 x6 x7) (val_main_v114 (F := Ideal) x0 x1 x2 x3 x4 x5 x6 x7)
    (val_main_v77 (F := Ideal) x0 x1 x2 x3 x4 x5 x6 x7) (val_main_v78 (F := Ideal) x0 x1 x2 x3 x4 x5 x6 x7) (val_main_v107 (F := Ideal) x0 x1 x2 x3 x4 x5 x6 x7) (val_main_v111 (F := Ideal) x0 x1 x2 x3 x4 x5 x6 x7) (val_main_v79 (F := Ideal) x0 x1 x2 x3 x4 x5 x6 x7) (val_main_v88 (F := Ideal) x0 x1 x2 x3 x4 x5 x6 x7) (val_main_v97 (F := Ideal) x0 x1 x2 x3 x4 x5 x6 x7) (val_main_v105 (F := Ideal) x0 x1 x2 x3 x4 x5 x6 x7)
    (l2_masked x0 x1 x2 x3 x4 x5 x6 x7 r) (l2_unmasked x0 x1 x2 x3 x4 x5 x6 x7 r) (l2_joined x0 x1 x2 x3 x4 x5 x6 x7 r)
    (l2_hidden1 x0 x1 x2 x3 x4 x5 x6 x7 r) (l2_hidden2 x0 x1 x2 x3 x4 x5 x6 x7 r) (l2_outputs x0 x1 x2 x3 x4 x5 x6 x7 r)
    (l2_logScale x0 x1 x2 x3 x4 x5 x6 x7 r) (l2_transformed x0 x1 x2 x3 x4 x5 x6 x7 r) (l2_logDet x0 x1 x2 x3 x4 x5 x6 x7 r)
    (l2_z_first x0 x1 x2 x3 x4 x5 x6 x7 r) (l2_z_second x0 x1 x2 x3 x4 x5 x6 x7 r)

/-! ### Layer 3 (odd: transforms columns 32 … 63, reads 0 … 31) -/

/-- The masked half's row: a slice of the previous result. -/
theorem l3_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v115 (F := Ideal) x0 x1 x2 x3 x4 x5 x6 x7) (ix2 r j) = (val_main_v112 (F := Ideal) x0 x1 x2 x3 x4 x5 x6 x7) (ix2 r ⟨32 + j.val, by have := j.isLt; omega⟩) := by
  rw [val_main_v115_apply]
  exact congrArg _ (funext fun a => by match a with | ⟨0, _⟩ => rfl | ⟨1, _⟩ => rfl)

/-- The unmasked half's row: the other slice. -/
theorem l3_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v116 (F := Ideal) x0 x1 x2 x3 x4 x5 x6 x7) (ix2 r j) = (val_main_v112 (F := Ideal) x0 x1 x2 x3 x4 x5 x6 x7) (ix2 r ⟨j.val, by have := j.isLt; omega⟩) := by
  rw [val_main_v116_apply]
  exact congrArg _ (funext fun a => by match a with | ⟨0, _⟩ => rfl | ⟨1, _⟩ => rfl)

/-- The perceptron's input row: the unmasked half followed by the conditioning row. -/
theorem l3_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v117 (F := Ideal) x0 x1 x2 x3 x4 x5 x6 x7) (ix2 r k) = joined (fun j => (val_main_v116 (F := Ideal) x0 x1 x2 x3 x4 x5 x6 x7) (ix2 r j)) (condRow x1 r) k := by
  unfold joined
  by_cases h : k.val < 32
  · rw [dif_pos h]; unfold val_main_v117
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v117 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l3_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v126 (F := Ideal) x0 x1 x2 x3 x4 x5 x6 x7) (ix2 r n)
      = max ((∑ k : Fin 160, (val_main_v117 (F := Ideal) x0 x1 x2 x3 x4 x5 x6 x7) (ix2 r k) * x2 (ix3 3 k n)) + x3 (ix2 3 n)) 0 := by
  rw [val_main_v126_apply, val_main_v125_apply, val_main_v120_apply, val_main_v124_apply, val_main_v123_apply, val_main_v122_apply, val_main_v121_apply,
    val_main_call6_v0_apply, val_main_call6_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v119_apply, val_main_v118_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l3_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v135 (F := Ideal) x0 x1 x2 x3 x4 x5 x6 x7) (ix2 r n)
      = max ((∑ k : Fin 1024, (val_main_v126 (F := Ideal) x0 x1 x2 x3 x4 x5 x6 x7) (ix2 r k) * x4 (ix3 3 k n)) + x5 (ix2 3 n)) 0 := by
  rw [val_main_v135_apply, val_main_v134_apply, val_main_v129_apply, val_main_v133_apply, val_main_v132_apply, val_main_v131_apply, val_main_v130_apply,
    val_main_call7_v0_apply, val_main_call7_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v128_apply, val_main_v127_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l3_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v143 (F := Ideal) x0 x1 x2 x3 x4 x5 x6 x7) (ix2 r n)
      = (∑ k : Fin 1024, (val_main_v135 (F := Ideal) x0 x1 x2 x3 x4 x5 x6 x7) (ix2 r k) * x6 (ix3 3 k n)) + x7 (ix2 3 n) := by
  rw [val_main_v143_apply, val_main_v138_apply, val_main_v142_apply, val_main_v141_apply, val_main_v140_apply, val_main_v139_apply]
  simp only [Ideal.maximumf_def, Ideal.addf_def, Ideal.ofBits_def, Ideal.ofBits_zero_f32]
  refine congrArg₂ (· + ·) (Finset.sum_congr rfl fun k _ => ?_) (congrArg x7 ?_)
  · rw [val_main_v137_apply, val_main_v136_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l3_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v145 (F := Ideal) x0 x1 x2 x3 x4 x5 x6 x7) (ix2 r j) = Ideal.tanh ((val_main_v143 (F := Ideal) x0 x1 x2 x3 x4 x5 x6 x7) (ix2 r ⟨j.val, by have := j.isLt; omega⟩)) := by
  rw [val_main_v145_apply, val_main_v144_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l3_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v149 (F := Ideal) x0 x1 x2 x3 x4 x5 x6 x7) (ix2 r j)
      = (val_main_v115 (F := Ideal) x0 x1 x2 x3 x4 x5 x6 x7) (ix2 r j) * Ideal.exp ((val_main_v145 (F := Ideal) x0 x1 x2 x3 x4 x5 x6 x7) (ix2 r j))
        + (val_main_v143 (F := Ideal) x0 x1 x2 x3 x4 x5 x6 x7) (ix2 r ⟨32 + j.val, by have := j.isLt; omega⟩) := by
  rw [val_main_v149_apply, val_main_v148_apply, val_main_v147_apply, val_main_v146_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l3_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v152 (F := Ideal) x0 x1 x2 x3 x4 x5 x6 x7) (ix1 r) = (val_main_v114 (F := Ideal) x0 x1 x2 x3 x4 x5 x6 x7) (ix1 r) + ∑ j : Fin 32, (val_main_v145 (F := Ideal) x0 x1 x2 x3 x4 x5 x6 x7) (ix2 r j) := by
  rw [val_main_v152_apply, val_main_v151_apply, val_main_cst_3_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l3_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v150 (F := Ideal) x0 x1 x2 x3 x4 x5 x6 x7) (ix2 r ⟨j.val, by have := j.isLt; omega⟩) = (val_main_v116 (F := Ideal) x0 x1 x2 x3 x4 x5 x6 x7) (ix2 r j) := by
  unfold val_main_v150
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l3_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v150 (F := Ideal) x0 x1 x2 x3 x4 x5 x6 x7) (ix2 r ⟨32 + j.val, by have := j.isLt; omega⟩) = (val_main_v149 (F := Ideal) x0 x1 x2 x3 x4 x5 x6 x7) (ix2 r j) := by
  unfold val_main_v150
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 3 at row r is the specification's odd layer on the previous results at row r. -/
theorem layer3 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v150 (F := Ideal) x0 x1 x2 x3 x4 x5 x6 x7) (val_main_v152 (F := Ideal) x0 x1 x2 x3 x4 x5 x6 x7) r
      = oddLayer x2 x3 x4 x5 x6 x7 3 (condRow x1 r) (rowOf (val_main_v112 (F := Ideal) x0 x1 x2 x3 x4 x5 x6 x7) (val_main_v114 (F := Ideal) x0 x1 x2 x3 x4 x5 x6 x7) r) :=
  oddLayer_of_stages x1 x2 x3 x4 x5 x6 x7 3 r (val_main_v112 (F := Ideal) x0 x1 x2 x3 x4 x5 x6 x7) (val_main_v150 (F := Ideal) x0 x1 x2 x3 x4 x5 x6 x7) (val_main_v114 (F := Ideal) x0 x1 x2 x3 x4 x5 x6 x7) (val_main_v152 (F := Ideal) x0 x1 x2 x3 x4 x5 x6 x7)
    (val_main_v115 (F := Ideal) x0 x1 x2 x3 x4 x5 x6 x7) (val_main_v116 (F := Ideal) x0 x1 x2 x3 x4 x5 x6 x7) (val_main_v145 (F := Ideal) x0 x1 x2 x3 x4 x5 x6 x7) (val_main_v149 (F := Ideal) x0 x1 x2 x3 x4 x5 x6 x7) (val_main_v117 (F := Ideal) x0 x1 x2 x3 x4 x5 x6 x7) (val_main_v126 (F := Ideal) x0 x1 x2 x3 x4 x5 x6 x7) (val_main_v135 (F := Ideal) x0 x1 x2 x3 x4 x5 x6 x7) (val_main_v143 (F := Ideal) x0 x1 x2 x3 x4 x5 x6 x7)
    (l3_masked x0 x1 x2 x3 x4 x5 x6 x7 r) (l3_unmasked x0 x1 x2 x3 x4 x5 x6 x7 r) (l3_joined x0 x1 x2 x3 x4 x5 x6 x7 r)
    (l3_hidden1 x0 x1 x2 x3 x4 x5 x6 x7 r) (l3_hidden2 x0 x1 x2 x3 x4 x5 x6 x7 r) (l3_outputs x0 x1 x2 x3 x4 x5 x6 x7 r)
    (l3_logScale x0 x1 x2 x3 x4 x5 x6 x7 r) (l3_transformed x0 x1 x2 x3 x4 x5 x6 x7 r) (l3_logDet x0 x1 x2 x3 x4 x5 x6 x7 r)
    (l3_z_first x0 x1 x2 x3 x4 x5 x6 x7 r) (l3_z_second x0 x1 x2 x3 x4 x5 x6 x7 r)

/-! ### Layer 4 (even: transforms columns 0 … 31, reads 32 … 63) -/

/-- The masked half's row: a slice of the previous result. -/
theorem l4_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v153 (F := Ideal) x0 x1 x2 x3 x4 x5 x6 x7) (ix2 r j) = (val_main_v150 (F := Ideal) x0 x1 x2 x3 x4 x5 x6 x7) (ix2 r ⟨j.val, by have := j.isLt; omega⟩) := by
  rw [val_main_v153_apply]
  exact congrArg _ (funext fun a => by match a with | ⟨0, _⟩ => rfl | ⟨1, _⟩ => rfl)

/-- The unmasked half's row: the other slice. -/
theorem l4_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v154 (F := Ideal) x0 x1 x2 x3 x4 x5 x6 x7) (ix2 r j) = (val_main_v150 (F := Ideal) x0 x1 x2 x3 x4 x5 x6 x7) (ix2 r ⟨32 + j.val, by have := j.isLt; omega⟩) := by
  rw [val_main_v154_apply]
  exact congrArg _ (funext fun a => by match a with | ⟨0, _⟩ => rfl | ⟨1, _⟩ => rfl)

/-- The perceptron's input row: the unmasked half followed by the conditioning row. -/
theorem l4_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v155 (F := Ideal) x0 x1 x2 x3 x4 x5 x6 x7) (ix2 r k) = joined (fun j => (val_main_v154 (F := Ideal) x0 x1 x2 x3 x4 x5 x6 x7) (ix2 r j)) (condRow x1 r) k := by
  unfold joined
  by_cases h : k.val < 32
  · rw [dif_pos h]; unfold val_main_v155
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v155 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l4_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v164 (F := Ideal) x0 x1 x2 x3 x4 x5 x6 x7) (ix2 r n)
      = max ((∑ k : Fin 160, (val_main_v155 (F := Ideal) x0 x1 x2 x3 x4 x5 x6 x7) (ix2 r k) * x2 (ix3 4 k n)) + x3 (ix2 4 n)) 0 := by
  rw [val_main_v164_apply, val_main_v163_apply, val_main_v158_apply, val_main_v162_apply, val_main_v161_apply, val_main_v160_apply, val_main_v159_apply,
    val_main_call8_v0_apply, val_main_call8_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v157_apply, val_main_v156_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l4_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v173 (F := Ideal) x0 x1 x2 x3 x4 x5 x6 x7) (ix2 r n)
      = max ((∑ k : Fin 1024, (val_main_v164 (F := Ideal) x0 x1 x2 x3 x4 x5 x6 x7) (ix2 r k) * x4 (ix3 4 k n)) + x5 (ix2 4 n)) 0 := by
  rw [val_main_v173_apply, val_main_v172_apply, val_main_v167_apply, val_main_v171_apply, val_main_v170_apply, val_main_v169_apply, val_main_v168_apply,
    val_main_call9_v0_apply, val_main_call9_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v166_apply, val_main_v165_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l4_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v181 (F := Ideal) x0 x1 x2 x3 x4 x5 x6 x7) (ix2 r n)
      = (∑ k : Fin 1024, (val_main_v173 (F := Ideal) x0 x1 x2 x3 x4 x5 x6 x7) (ix2 r k) * x6 (ix3 4 k n)) + x7 (ix2 4 n) := by
  rw [val_main_v181_apply, val_main_v176_apply, val_main_v180_apply, val_main_v179_apply, val_main_v178_apply, val_main_v177_apply]
  simp only [Ideal.maximumf_def, Ideal.addf_def, Ideal.ofBits_def, Ideal.ofBits_zero_f32]
  refine congrArg₂ (· + ·) (Finset.sum_congr rfl fun k _ => ?_) (congrArg x7 ?_)
  · rw [val_main_v175_apply, val_main_v174_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l4_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v183 (F := Ideal) x0 x1 x2 x3 x4 x5 x6 x7) (ix2 r j) = Ideal.tanh ((val_main_v181 (F := Ideal) x0 x1 x2 x3 x4 x5 x6 x7) (ix2 r ⟨j.val, by have := j.isLt; omega⟩)) := by
  rw [val_main_v183_apply, val_main_v182_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l4_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v187 (F := Ideal) x0 x1 x2 x3 x4 x5 x6 x7) (ix2 r j)
      = (val_main_v153 (F := Ideal) x0 x1 x2 x3 x4 x5 x6 x7) (ix2 r j) * Ideal.exp ((val_main_v183 (F := Ideal) x0 x1 x2 x3 x4 x5 x6 x7) (ix2 r j))
        + (val_main_v181 (F := Ideal) x0 x1 x2 x3 x4 x5 x6 x7) (ix2 r ⟨32 + j.val, by have := j.isLt; omega⟩) := by
  rw [val_main_v187_apply, val_main_v186_apply, val_main_v185_apply, val_main_v184_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l4_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v190 (F := Ideal) x0 x1 x2 x3 x4 x5 x6 x7) (ix1 r) = (val_main_v152 (F := Ideal) x0 x1 x2 x3 x4 x5 x6 x7) (ix1 r) + ∑ j : Fin 32, (val_main_v183 (F := Ideal) x0 x1 x2 x3 x4 x5 x6 x7) (ix2 r j) := by
  rw [val_main_v190_apply, val_main_v189_apply, val_main_cst_4_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l4_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v188 (F := Ideal) x0 x1 x2 x3 x4 x5 x6 x7) (ix2 r ⟨j.val, by have := j.isLt; omega⟩) = (val_main_v187 (F := Ideal) x0 x1 x2 x3 x4 x5 x6 x7) (ix2 r j) := by
  unfold val_main_v188
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l4_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v188 (F := Ideal) x0 x1 x2 x3 x4 x5 x6 x7) (ix2 r ⟨32 + j.val, by have := j.isLt; omega⟩) = (val_main_v154 (F := Ideal) x0 x1 x2 x3 x4 x5 x6 x7) (ix2 r j) := by
  unfold val_main_v188
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 4 at row r is the specification's even layer on the previous results at row r. -/
theorem layer4 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v188 (F := Ideal) x0 x1 x2 x3 x4 x5 x6 x7) (val_main_v190 (F := Ideal) x0 x1 x2 x3 x4 x5 x6 x7) r
      = evenLayer x2 x3 x4 x5 x6 x7 4 (condRow x1 r) (rowOf (val_main_v150 (F := Ideal) x0 x1 x2 x3 x4 x5 x6 x7) (val_main_v152 (F := Ideal) x0 x1 x2 x3 x4 x5 x6 x7) r) :=
  evenLayer_of_stages x1 x2 x3 x4 x5 x6 x7 4 r (val_main_v150 (F := Ideal) x0 x1 x2 x3 x4 x5 x6 x7) (val_main_v188 (F := Ideal) x0 x1 x2 x3 x4 x5 x6 x7) (val_main_v152 (F := Ideal) x0 x1 x2 x3 x4 x5 x6 x7) (val_main_v190 (F := Ideal) x0 x1 x2 x3 x4 x5 x6 x7)
    (val_main_v153 (F := Ideal) x0 x1 x2 x3 x4 x5 x6 x7) (val_main_v154 (F := Ideal) x0 x1 x2 x3 x4 x5 x6 x7) (val_main_v183 (F := Ideal) x0 x1 x2 x3 x4 x5 x6 x7) (val_main_v187 (F := Ideal) x0 x1 x2 x3 x4 x5 x6 x7) (val_main_v155 (F := Ideal) x0 x1 x2 x3 x4 x5 x6 x7) (val_main_v164 (F := Ideal) x0 x1 x2 x3 x4 x5 x6 x7) (val_main_v173 (F := Ideal) x0 x1 x2 x3 x4 x5 x6 x7) (val_main_v181 (F := Ideal) x0 x1 x2 x3 x4 x5 x6 x7)
    (l4_masked x0 x1 x2 x3 x4 x5 x6 x7 r) (l4_unmasked x0 x1 x2 x3 x4 x5 x6 x7 r) (l4_joined x0 x1 x2 x3 x4 x5 x6 x7 r)
    (l4_hidden1 x0 x1 x2 x3 x4 x5 x6 x7 r) (l4_hidden2 x0 x1 x2 x3 x4 x5 x6 x7 r) (l4_outputs x0 x1 x2 x3 x4 x5 x6 x7 r)
    (l4_logScale x0 x1 x2 x3 x4 x5 x6 x7 r) (l4_transformed x0 x1 x2 x3 x4 x5 x6 x7 r) (l4_logDet x0 x1 x2 x3 x4 x5 x6 x7 r)
    (l4_z_first x0 x1 x2 x3 x4 x5 x6 x7 r) (l4_z_second x0 x1 x2 x3 x4 x5 x6 x7 r)

/-! ### Layer 5 (odd: transforms columns 32 … 63, reads 0 … 31) -/

/-- The masked half's row: a slice of the previous result. -/
theorem l5_masked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v191 (F := Ideal) x0 x1 x2 x3 x4 x5 x6 x7) (ix2 r j) = (val_main_v188 (F := Ideal) x0 x1 x2 x3 x4 x5 x6 x7) (ix2 r ⟨32 + j.val, by have := j.isLt; omega⟩) := by
  rw [val_main_v191_apply]
  exact congrArg _ (funext fun a => by match a with | ⟨0, _⟩ => rfl | ⟨1, _⟩ => rfl)

/-- The unmasked half's row: the other slice. -/
theorem l5_unmasked (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v192 (F := Ideal) x0 x1 x2 x3 x4 x5 x6 x7) (ix2 r j) = (val_main_v188 (F := Ideal) x0 x1 x2 x3 x4 x5 x6 x7) (ix2 r ⟨j.val, by have := j.isLt; omega⟩) := by
  rw [val_main_v192_apply]
  exact congrArg _ (funext fun a => by match a with | ⟨0, _⟩ => rfl | ⟨1, _⟩ => rfl)

/-- The perceptron's input row: the unmasked half followed by the conditioning row. -/
theorem l5_joined (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (k : Fin 160) :
    (val_main_v193 (F := Ideal) x0 x1 x2 x3 x4 x5 x6 x7) (ix2 r k) = joined (fun j => (val_main_v192 (F := Ideal) x0 x1 x2 x3 x4 x5 x6 x7) (ix2 r j)) (condRow x1 r) k := by
  unfold joined
  by_cases h : k.val < 32
  · rw [dif_pos h]; unfold val_main_v193
    refine concatenate_pair_apply_left (t := S32768x160) (s₁ := S32768x32) (s₂ := S32768x128) 1 _ _ _
      (ix2 r k) rfl (ix2 r (⟨k.val, h⟩ : Fin 32)) ?_
    intro b; match b with | ⟨0, _⟩ => rfl | ⟨1, _⟩ => rfl
  · rw [dif_neg h]; unfold val_main_v193 condRow
    refine concatenate_pair_apply_right (t := S32768x160) (s₁ := S32768x32) (s₂ := S32768x128) 1 _ _ _
      (ix2 r k) rfl rfl (ix2 r (⟨k.val - 32, by have := k.isLt; omega⟩ : Fin 128)) ?_ ?_
    · intro b hb; match b with | ⟨0, _⟩ => rfl | ⟨1, _⟩ => exact absurd rfl hb
    · show (k.val - 32) + 32 = k.val; omega

/-- First stage: the joined row times the layer's first weight matrix, plus its bias, max with 0. -/
theorem l5_hidden1 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v202 (F := Ideal) x0 x1 x2 x3 x4 x5 x6 x7) (ix2 r n)
      = max ((∑ k : Fin 160, (val_main_v193 (F := Ideal) x0 x1 x2 x3 x4 x5 x6 x7) (ix2 r k) * x2 (ix3 5 k n)) + x3 (ix2 5 n)) 0 := by
  rw [val_main_v202_apply, val_main_v201_apply, val_main_v196_apply, val_main_v200_apply, val_main_v199_apply, val_main_v198_apply, val_main_v197_apply,
    val_main_call10_v0_apply, val_main_call10_cst_apply]
  simp only [Ideal.maximumf_def, Ideal.addf_def, Ideal.ofBits_def, Ideal.ofBits_zero_f32]
  refine congrArg₂ max (congrArg₂ (· + ·) (Finset.sum_congr rfl fun k _ => ?_) (congrArg x3 ?_)) rfl
  · rw [val_main_v195_apply, val_main_v194_apply]
    refine congrArg₂ (· * ·) (congrArg _ ?_) (congrArg x2 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 160 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Second stage: the first hidden row times the second weight matrix, plus its bias, max with 0. -/
theorem l5_hidden2 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 1024) :
    (val_main_v211 (F := Ideal) x0 x1 x2 x3 x4 x5 x6 x7) (ix2 r n)
      = max ((∑ k : Fin 1024, (val_main_v202 (F := Ideal) x0 x1 x2 x3 x4 x5 x6 x7) (ix2 r k) * x4 (ix3 5 k n)) + x5 (ix2 5 n)) 0 := by
  rw [val_main_v211_apply, val_main_v210_apply, val_main_v205_apply, val_main_v209_apply, val_main_v208_apply, val_main_v207_apply, val_main_v206_apply,
    val_main_call11_v0_apply, val_main_call11_cst_apply]
  simp only [Ideal.maximumf_def, Ideal.addf_def, Ideal.ofBits_def, Ideal.ofBits_zero_f32]
  refine congrArg₂ max (congrArg₂ (· + ·) (Finset.sum_congr rfl fun k _ => ?_) (congrArg x5 ?_)) rfl
  · rw [val_main_v204_apply, val_main_v203_apply]
    refine congrArg₂ (· * ·) (congrArg _ ?_) (congrArg x4 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 1024 + n.val) / 1024 % 1024 = k.val; omega
      | ⟨2, _⟩ => show (k.val * 1024 + n.val) % 1024 = n.val; omega
  · refine funext fun a => Fin.ext ?_
    have hn := n.isLt
    match a with
    | ⟨0, _⟩ => rfl
    | ⟨1, _⟩ => show n.val % 1024 = n.val; omega

/-- Third stage: the layer's 64 outputs. -/
theorem l5_outputs (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (n : Fin 64) :
    (val_main_v219 (F := Ideal) x0 x1 x2 x3 x4 x5 x6 x7) (ix2 r n)
      = (∑ k : Fin 1024, (val_main_v211 (F := Ideal) x0 x1 x2 x3 x4 x5 x6 x7) (ix2 r k) * x6 (ix3 5 k n)) + x7 (ix2 5 n) := by
  rw [val_main_v219_apply, val_main_v214_apply, val_main_v218_apply, val_main_v217_apply, val_main_v216_apply, val_main_v215_apply]
  simp only [Ideal.maximumf_def, Ideal.addf_def, Ideal.ofBits_def, Ideal.ofBits_zero_f32]
  refine congrArg₂ (· + ·) (Finset.sum_congr rfl fun k _ => ?_) (congrArg x7 ?_)
  · rw [val_main_v213_apply, val_main_v212_apply]
    refine congrArg₂ (· * ·) (congrArg _ ?_) (congrArg x6 ?_)
    · exact funext fun a => by match a with | ⟨0, _⟩ => rfl | ⟨1, _⟩ => rfl
    · refine funext fun a => Fin.ext ?_
      have hk := k.isLt; have hn := n.isLt
      match a with
      | ⟨0, _⟩ => rfl
      | ⟨1, _⟩ => show (k.val * 64 + n.val) / 64 % 1024 = k.val; omega
      | ⟨2, _⟩ => show (k.val * 64 + n.val) % 64 = n.val; omega
  · refine funext fun a => Fin.ext ?_
    have hn := n.isLt
    match a with
    | ⟨0, _⟩ => rfl
    | ⟨1, _⟩ => show n.val % 64 = n.val; omega

/-- The log-scales: tanh of the first 32 outputs. -/
theorem l5_logScale (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v221 (F := Ideal) x0 x1 x2 x3 x4 x5 x6 x7) (ix2 r j) = Ideal.tanh ((val_main_v219 (F := Ideal) x0 x1 x2 x3 x4 x5 x6 x7) (ix2 r ⟨j.val, by have := j.isLt; omega⟩)) := by
  rw [val_main_v221_apply, val_main_v220_apply]
  simp only [Ideal.hostUnary_tanh_def]
  exact congrArg _ (congrArg _ (funext fun a => by match a with | ⟨0, _⟩ => rfl | ⟨1, _⟩ => rfl))

/-- The transformed half: masked times the exponential of the log-scale, plus the shift (the last 32 outputs). -/
theorem l5_transformed (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v225 (F := Ideal) x0 x1 x2 x3 x4 x5 x6 x7) (ix2 r j)
      = (val_main_v191 (F := Ideal) x0 x1 x2 x3 x4 x5 x6 x7) (ix2 r j) * Ideal.exp ((val_main_v221 (F := Ideal) x0 x1 x2 x3 x4 x5 x6 x7) (ix2 r j))
        + (val_main_v219 (F := Ideal) x0 x1 x2 x3 x4 x5 x6 x7) (ix2 r ⟨32 + j.val, by have := j.isLt; omega⟩) := by
  rw [val_main_v225_apply, val_main_v224_apply, val_main_v223_apply, val_main_v222_apply]
  simp only [Ideal.addf_def, Ideal.mulf_def, Ideal.hostUnary_exp_def]
  exact congrArg _ (congrArg _ (funext fun a => by match a with | ⟨0, _⟩ => rfl | ⟨1, _⟩ => rfl))

/-- The log-determinant: the previous one plus the sum of the log-scales. -/
theorem l5_logDet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    (val_main_v228 (F := Ideal) x0 x1 x2 x3 x4 x5 x6 x7) (ix1 r) = (val_main_v190 (F := Ideal) x0 x1 x2 x3 x4 x5 x6 x7) (ix1 r) + ∑ j : Fin 32, (val_main_v221 (F := Ideal) x0 x1 x2 x3 x4 x5 x6 x7) (ix2 r j) := by
  rw [val_main_v228_apply, val_main_v227_apply, val_main_cst_5_apply]
  simp only [Ideal.addf_def, Ideal.ofBits_def, Ideal.ofBits_zero_f32, zero_add]
  refine congrArg _ (Finset.sum_congr rfl fun j _ => congrArg _ ?_)
  exact funext fun a => by match a with | ⟨0, _⟩ => rfl | ⟨1, _⟩ => rfl

/-- The new result's columns 0 … 31. -/
theorem l5_z_first (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v226 (F := Ideal) x0 x1 x2 x3 x4 x5 x6 x7) (ix2 r ⟨j.val, by have := j.isLt; omega⟩) = (val_main_v192 (F := Ideal) x0 x1 x2 x3 x4 x5 x6 x7) (ix2 r j) := by
  unfold val_main_v226
  refine concatenate_pair_apply_left (t := S32768x64) (s₁ := S32768x32) (s₂ := S32768x32) 1 _ _ _
    (ix2 r (⟨j.val, by have := j.isLt; omega⟩ : Fin 64)) rfl (ix2 r j) ?_
  intro b; match b with | ⟨0, _⟩ => rfl | ⟨1, _⟩ => rfl

/-- The new result's columns 32 … 63. -/
theorem l5_z_second (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) (j : Fin 32) :
    (val_main_v226 (F := Ideal) x0 x1 x2 x3 x4 x5 x6 x7) (ix2 r ⟨32 + j.val, by have := j.isLt; omega⟩) = (val_main_v225 (F := Ideal) x0 x1 x2 x3 x4 x5 x6 x7) (ix2 r j) := by
  unfold val_main_v226
  refine concatenate_pair_apply_right (t := S32768x64) (s₁ := S32768x32) (s₂ := S32768x32) 1 _ _ _
    (ix2 r (⟨32 + j.val, by have := j.isLt; omega⟩ : Fin 64)) rfl rfl (ix2 r j) ?_ ?_
  · intro b hb; match b with | ⟨0, _⟩ => rfl | ⟨1, _⟩ => exact absurd rfl hb
  · show j.val + 32 = 32 + j.val; omega

/-- Layer 5 at row r is the specification's odd layer on the previous results at row r. -/
theorem layer5 (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v226 (F := Ideal) x0 x1 x2 x3 x4 x5 x6 x7) (val_main_v228 (F := Ideal) x0 x1 x2 x3 x4 x5 x6 x7) r
      = oddLayer x2 x3 x4 x5 x6 x7 5 (condRow x1 r) (rowOf (val_main_v188 (F := Ideal) x0 x1 x2 x3 x4 x5 x6 x7) (val_main_v190 (F := Ideal) x0 x1 x2 x3 x4 x5 x6 x7) r) :=
  oddLayer_of_stages x1 x2 x3 x4 x5 x6 x7 5 r (val_main_v188 (F := Ideal) x0 x1 x2 x3 x4 x5 x6 x7) (val_main_v226 (F := Ideal) x0 x1 x2 x3 x4 x5 x6 x7) (val_main_v190 (F := Ideal) x0 x1 x2 x3 x4 x5 x6 x7) (val_main_v228 (F := Ideal) x0 x1 x2 x3 x4 x5 x6 x7)
    (val_main_v191 (F := Ideal) x0 x1 x2 x3 x4 x5 x6 x7) (val_main_v192 (F := Ideal) x0 x1 x2 x3 x4 x5 x6 x7) (val_main_v221 (F := Ideal) x0 x1 x2 x3 x4 x5 x6 x7) (val_main_v225 (F := Ideal) x0 x1 x2 x3 x4 x5 x6 x7) (val_main_v193 (F := Ideal) x0 x1 x2 x3 x4 x5 x6 x7) (val_main_v202 (F := Ideal) x0 x1 x2 x3 x4 x5 x6 x7) (val_main_v211 (F := Ideal) x0 x1 x2 x3 x4 x5 x6 x7) (val_main_v219 (F := Ideal) x0 x1 x2 x3 x4 x5 x6 x7)
    (l5_masked x0 x1 x2 x3 x4 x5 x6 x7 r) (l5_unmasked x0 x1 x2 x3 x4 x5 x6 x7 r) (l5_joined x0 x1 x2 x3 x4 x5 x6 x7 r)
    (l5_hidden1 x0 x1 x2 x3 x4 x5 x6 x7 r) (l5_hidden2 x0 x1 x2 x3 x4 x5 x6 x7 r) (l5_outputs x0 x1 x2 x3 x4 x5 x6 x7 r)
    (l5_logScale x0 x1 x2 x3 x4 x5 x6 x7 r) (l5_transformed x0 x1 x2 x3 x4 x5 x6 x7 r) (l5_logDet x0 x1 x2 x3 x4 x5 x6 x7 r)
    (l5_z_first x0 x1 x2 x3 x4 x5 x6 x7 r) (l5_z_second x0 x1 x2 x3 x4 x5 x6 x7 r)

/-! ## The six layers in order, from the argument's row -/

/-- The start: the argument's row, with the zero array's element (the word 0 of f32, the extended real 0) as
    log-determinant. -/
theorem start_row (x0 : (⟨S32768x64, .f32⟩ : BufTy).Contents (Elt Ideal)) (r : Fin 32768) :
    rowOf x0 (val_main_v0 (F := Ideal)) r = startRow x0 r := by
  unfold rowOf startRow
  refine Prod.ext rfl (Prod.ext rfl ?_)
  show val_main_v0 (F := Ideal) (ix1 r) = 0
  rw [val_main_v0_apply, val_main_cst_apply]
  simp only [Ideal.ofBits_def, Ideal.ofBits_zero_f32]

/-- Row r of the reference's two results is the specification's flow at row r. -/
theorem flow_row (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal))
    (r : Fin 32768) :
    rowOf (val_main_v226 (F := Ideal) x0 x1 x2 x3 x4 x5 x6 x7) (val_main_v228 (F := Ideal) x0 x1 x2 x3 x4 x5 x6 x7) r
      = flowRow x0 x1 x2 x3 x4 x5 x6 x7 r := by
  rw [layer5, layer4, layer3, layer2, layer1, layer0, start_row]
  rfl

/-- The reference's first result is the specification's. -/
theorem reference_z (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal)) :
    val_main_v226 (F := Ideal) x0 x1 x2 x3 x4 x5 x6 x7 = zOut x0 x1 x2 x3 x4 x5 x6 x7 := by
  funext i
  have hr := flow_row x0 x1 x2 x3 x4 x5 x6 x7 (i 0)
  unfold zOut
  by_cases h : (i 1).val < 32
  · rw [dif_pos h, ← hr]
    show val_main_v226 (F := Ideal) x0 x1 x2 x3 x4 x5 x6 x7 i
      = val_main_v226 (F := Ideal) x0 x1 x2 x3 x4 x5 x6 x7 (ix2 (i 0) ⟨(i 1).val, by omega⟩)
    exact congrArg _ (funext fun a => by match a with | ⟨0, _⟩ => rfl | ⟨1, _⟩ => rfl)
  · rw [dif_neg h, ← hr]
    have h1 : (i 1).val < 64 := (i 1).isLt
    show val_main_v226 (F := Ideal) x0 x1 x2 x3 x4 x5 x6 x7 i
      = val_main_v226 (F := Ideal) x0 x1 x2 x3 x4 x5 x6 x7 (ix2 (i 0) ⟨32 + ((i 1).val - 32), by omega⟩)
    refine congrArg _ (funext fun a => ?_)
    match a with
    | ⟨0, _⟩ => rfl
    | ⟨1, _⟩ => exact Fin.ext (by show (i 1).val = 32 + ((i 1).val - 32); omega)

/-- The reference's second result is the specification's. -/
theorem reference_logdet (x0 : (⟨S32768x64, .f32⟩ : BufTy).Contents (Elt Ideal)) (x1 : (⟨S32768x128, .f32⟩ : BufTy).Contents (Elt Ideal))
    (x2 : (⟨S6x160x1024, .f32⟩ : BufTy).Contents (Elt Ideal)) (x3 : (⟨S6x1024, .f32⟩ : BufTy).Contents (Elt Ideal))
    (x4 : (⟨S6x1024x1024, .f32⟩ : BufTy).Contents (Elt Ideal)) (x5 : (⟨S6x1024, .f32⟩ : BufTy).Contents (Elt Ideal))
    (x6 : (⟨S6x1024x64, .f32⟩ : BufTy).Contents (Elt Ideal)) (x7 : (⟨S6x64, .f32⟩ : BufTy).Contents (Elt Ideal)) :
    val_main_v228 (F := Ideal) x0 x1 x2 x3 x4 x5 x6 x7 = logDetOut x0 x1 x2 x3 x4 x5 x6 x7 := by
  funext i
  have hr := flow_row x0 x1 x2 x3 x4 x5 x6 x7 (i 0)
  unfold logDetOut
  rw [← hr]
  show val_main_v228 (F := Ideal) x0 x1 x2 x3 x4 x5 x6 x7 i = val_main_v228 (F := Ideal) x0 x1 x2 x3 x4 x5 x6 x7 (ix1 (i 0))
  exact congrArg _ (funext fun a => by match a with | ⟨0, _⟩ => rfl)

end Cert.Flow.Reference

end
-- ==== Proof.ReferenceRunLib.lean ====
/-
  What a buffer holds after a literal line of the reference program's operations, read off by one rewriting pass, and the
  two facts that let the line be cut into consecutive pieces.

  The library's pass rewrites each operation's result at its own buffer to its function's value and at any other buffer to
  what was there.  It does not reach the operands of a two-operand concatenation: they sit in a list of dependent pairs, and
  the type of the concatenation's shape fact depends on that list, so a rewrite cannot go through it.  `cat2` is the same
  concatenation with its two operands as plain arguments; `read_results` is the library's pass with that restatement
  added.  `after_append`: running a concatenated line is running its pieces in order.
-/
import proofs.«157287_j66073776882121_2_alg».proof.Proof.ReferenceRead
import proofs.«157287_j66073776882121_2_alg».proof.Proof.Gen.ReferenceIdeal
import Idealize.ShloMosaic.Lib.StableHlo.Run

noncomputable section

namespace Cert.Flow.ReferenceRun

open Idealize.ShloMosaic Idealize.ShloMosaic.StableHlo

/-- A two-operand concatenation with its operands as plain arguments. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- The library's two-operand concatenation is `cat2` (by unfolding). -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = cat2 t a s₁ s₂ h x₁ x₂ := rfl

/-- What a buffer holds after a literal line of operations: each operation's result at its own buffer is its function's
    value, at any other buffer what was there; a concatenation's operands are read through `cat2`. -/
macro "read_results" : tactic =>
  `(tactic| (simp (disch := decide) only [Idealize.ShloMosaic.StableHlo.after_cons, Idealize.ShloMosaic.StableHlo.after_nil,
      Cert.Flow.ReferenceRun.concatenate_pair_eq,
      Idealize.ShloMosaic.StableHlo.nullary_result', Idealize.ShloMosaic.StableHlo.unary_result',
      Idealize.ShloMosaic.StableHlo.binary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.reshape_result_ne']))

variable {τ : Topo} {sig : RefSig} {Val : EltTy → Type}

/-- Running a concatenated line of operations is running its two pieces in order. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Flow.ReferenceRun

end
-- ==== Proof.ReferencePart0.lean ====
/-
  The first part of the reference program's @main (its statements 1 … 60: the first coupling layer and the start of the
  second): its operations as a literal line, the part as that line, the line's side conditions, and what each buffer that a
  later part reads holds after it, as the named stage of the eight argument arrays.
-/
import proofs.«157287_j66073776882121_2_alg».proof.Proof.ReferenceRunLib

noncomputable section

namespace Cert.Flow.ReferenceRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 66 operations of this part of @main, in order (a called function's operations stand in its call's place). -/
abbrev ops0 : List (HloOp τ sig (Elt F)) :=
  [ nullary main_cst (constant S_ .f32 0x00000000#32),
    unary main_cst main_v0 (broadcastInDim S32768 ![] bcast_S_S32768 : (⟨S_, .f32⟩ : BufTy).Contents (Elt F) → (⟨S32768, .f32⟩ : BufTy).Contents (Elt F)),
    unary main_arg0 main_v1 ((extractStridedSlice S32768x32 ![0, 0] · slices_S32768x64_S32768x32_0_0) : (⟨S32768x64, .f32⟩ : BufTy).Contents (Elt F) → (⟨S32768x32, .f32⟩ : BufTy).Contents (Elt F)),
    unary main_arg0 main_v2 ((extractStridedSlice S32768x32 ![0, 32] · slices_S32768x64_S32768x32_0_32) : (⟨S32768x64, .f32⟩ : BufTy).Contents (Elt F) → (⟨S32768x32, .f32⟩ : BufTy).Contents (Elt F)),
    binary main_v2 main_arg1 main_v3 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v4 ((extractStridedSlice S1x160x1024 ![0, 0, 0] · slices_S6x160x1024_S1x160x1024_0_0_0) : (⟨S6x160x1024, .f32⟩ : BufTy).Contents (Elt F) → (⟨S1x160x1024, .f32⟩ : BufTy).Contents (Elt F)),
    reshape main_v4 main_v5 rfl shapeCasts_S1x160x1024_S160x1024,
    binary main_v3 main_v5 main_v6 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v7 ((extractStridedSlice S1x1024 ![0, 0] · slices_S6x1024_S1x1024_0_0) : (⟨S6x1024, .f32⟩ : BufTy).Contents (Elt F) → (⟨S1x1024, .f32⟩ : BufTy).Contents (Elt F)),
    reshape main_v7 main_v8 rfl shapeCasts_S1x1024_S1024,
    unary main_v8 main_v9 (broadcastInDim S1x1024 ![1] bcast_S1024_S1x1024_1 : (⟨S1024, .f32⟩ : BufTy).Contents (Elt F) → (⟨S1x1024, .f32⟩ : BufTy).Contents (Elt F)),
    unary main_v9 main_v10 (broadcastInDim S32768x1024 ![0, 1] bcast_S1x1024_S32768x1024_0_1 : (⟨S1x1024, .f32⟩ : BufTy).Contents (Elt F) → (⟨S32768x1024, .f32⟩ : BufTy).Contents (Elt F)),
    binary main_v6 main_v10 main_v11 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S32768x1024, .f32⟩) main_call0_v0) (broadcastInDim S32768x1024 ![] bcast_S_S32768x1024),
    TRef.binary (TRef.of (T := ⟨S32768x1024, .f32⟩) main_v11) (TRef.of (T := ⟨S32768x1024, .f32⟩) main_call0_v0) (TRef.of (T := ⟨S32768x1024, .f32⟩) main_v12) maximumf,
    unary main_arg4 main_v13 ((extractStridedSlice S1x1024x1024 ![0, 0, 0] · slices_S6x1024x1024_S1x1024x1024_0_0_0) : (⟨S6x1024x1024, .f32⟩ : BufTy).Contents (Elt F) → (⟨S1x1024x1024, .f32⟩ : BufTy).Contents (Elt F)),
    reshape main_v13 main_v14 rfl shapeCasts_S1x1024x1024_S1024x1024,
    binary main_v12 main_v14 main_v15 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v16 ((extractStridedSlice S1x1024 ![0, 0] · slices_S6x1024_S1x1024_0_0) : (⟨S6x1024, .f32⟩ : BufTy).Contents (Elt F) → (⟨S1x1024, .f32⟩ : BufTy).Contents (Elt F)),
    reshape main_v16 main_v17 rfl shapeCasts_S1x1024_S1024,
    unary main_v17 main_v18 (broadcastInDim S1x1024 ![1] bcast_S1024_S1x1024_1 : (⟨S1024, .f32⟩ : BufTy).Contents (Elt F) → (⟨S1x1024, .f32⟩ : BufTy).Contents (Elt F)),
    unary main_v18 main_v19 (broadcastInDim S32768x1024 ![0, 1] bcast_S1x1024_S32768x1024_0_1 : (⟨S1x1024, .f32⟩ : BufTy).Contents (Elt F) → (⟨S32768x1024, .f32⟩ : BufTy).Contents (Elt F)),
    binary main_v15 main_v19 main_v20 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x1024, .f32⟩) main_call1_v0) (broadcastInDim S32768x1024 ![] bcast_S_S32768x1024),
    TRef.binary (TRef.of (T := ⟨S32768x1024, .f32⟩) main_v20) (TRef.of (T := ⟨S32768x1024, .f32⟩) main_call1_v0) (TRef.of (T := ⟨S32768x1024, .f32⟩) main_v21) maximumf,
    unary main_arg6 main_v22 ((extractStridedSlice S1x1024x64 ![0, 0, 0] · slices_S6x1024x64_S1x1024x64_0_0_0) : (⟨S6x1024x64, .f32⟩ : BufTy).Contents (Elt F) → (⟨S1x1024x64, .f32⟩ : BufTy).Contents (Elt F)),
    reshape main_v22 main_v23 rfl shapeCasts_S1x1024x64_S1024x64,
    binary main_v21 main_v23 main_v24 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v25 ((extractStridedSlice S1x64 ![0, 0] · slices_S6x64_S1x64_0_0) : (⟨S6x64, .f32⟩ : BufTy).Contents (Elt F) → (⟨S1x64, .f32⟩ : BufTy).Contents (Elt F)),
    reshape main_v25 main_v26 rfl shapeCasts_S1x64_S64,
    unary main_v26 main_v27 (broadcastInDim S1x64 ![1] bcast_S64_S1x64_1 : (⟨S64, .f32⟩ : BufTy).Contents (Elt F) → (⟨S1x64, .f32⟩ : BufTy).Contents (Elt F)),
    unary main_v27 main_v28 (broadcastInDim S32768x64 ![0, 1] bcast_S1x64_S32768x64_0_1 : (⟨S1x64, .f32⟩ : BufTy).Contents (Elt F) → (⟨S32768x64, .f32⟩ : BufTy).Contents (Elt F)),
    binary main_v24 main_v28 main_v29 (addf : (⟨S32768x64, .f32⟩ : BufTy).Contents (Elt F) → (⟨S32768x64, .f32⟩ : BufTy).Contents (Elt F) → (⟨S32768x64, .f32⟩ : BufTy).Contents (Elt F)),
    unary main_v29 main_v30 ((extractStridedSlice S32768x32 ![0, 0] · slices_S32768x64_S32768x32_0_0) : (⟨S32768x64, .f32⟩ : BufTy).Contents (Elt F) → (⟨S32768x32, .f32⟩ : BufTy).Contents (Elt F)),
    unary main_v30 main_v31 (Host.tanh : (⟨S32768x32, .f32⟩ : BufTy).Contents (Elt F) → (⟨S32768x32, .f32⟩ : BufTy).Contents (Elt F)),
    unary main_v29 main_v32 ((extractStridedSlice S32768x32 ![0, 32] · slices_S32768x64_S32768x32_0_32) : (⟨S32768x64, .f32⟩ : BufTy).Contents (Elt F) → (⟨S32768x32, .f32⟩ : BufTy).Contents (Elt F)),
    unary main_v31 main_v33 (Host.exp : (⟨S32768x32, .f32⟩ : BufTy).Contents (Elt F) → (⟨S32768x32, .f32⟩ : BufTy).Contents (Elt F)),
    binary main_v1 main_v33 main_v34 (mulf : (⟨S32768x32, .f32⟩ : BufTy).Contents (Elt F) → (⟨S32768x32, .f32⟩ : BufTy).Contents (Elt F) → (⟨S32768x32, .f32⟩ : BufTy).Contents (Elt F)),
    binary main_v34 main_v32 main_v35 (addf : (⟨S32768x32, .f32⟩ : BufTy).Contents (Elt F) → (⟨S32768x32, .f32⟩ : BufTy).Contents (Elt F) → (⟨S32768x32, .f32⟩ : BufTy).Contents (Elt F)),
    binary main_v35 main_v2 main_v36 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_0 (constant S_ .f32 0x00000000#32),
    binary main_v31 main_cst_0 main_v37 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v0 main_v37 main_v38 (addf : (⟨S32768, .f32⟩ : BufTy).Contents (Elt F) → (⟨S32768, .f32⟩ : BufTy).Contents (Elt F) → (⟨S32768, .f32⟩ : BufTy).Contents (Elt F)),
    unary main_v36 main_v39 ((extractStridedSlice S32768x32 ![0, 32] · slices_S32768x64_S32768x32_0_32) : (⟨S32768x64, .f32⟩ : BufTy).Contents (Elt F) → (⟨S32768x32, .f32⟩ : BufTy).Contents (Elt F)),
    unary main_v36 main_v40 ((extractStridedSlice S32768x32 ![0, 0] · slices_S32768x64_S32768x32_0_0) : (⟨S32768x64, .f32⟩ : BufTy).Contents (Elt F) → (⟨S32768x32, .f32⟩ : BufTy).Contents (Elt F)),
    binary main_v40 main_arg1 main_v41 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v42 ((extractStridedSlice S1x160x1024 ![1, 0, 0] · slices_S6x160x1024_S1x160x1024_1_0_0) : (⟨S6x160x1024, .f32⟩ : BufTy).Contents (Elt F) → (⟨S1x160x1024, .f32⟩ : BufTy).Contents (Elt F)),
    reshape main_v42 main_v43 rfl shapeCasts_S1x160x1024_S160x1024,
    binary main_v41 main_v43 main_v44 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v45 ((extractStridedSlice S1x1024 ![1, 0] · slices_S6x1024_S1x1024_1_0) : (⟨S6x1024, .f32⟩ : BufTy).Contents (Elt F) → (⟨S1x1024, .f32⟩ : BufTy).Contents (Elt F)),
    reshape main_v45 main_v46 rfl shapeCasts_S1x1024_S1024,
    unary main_v46 main_v47 (broadcastInDim S1x1024 ![1] bcast_S1024_S1x1024_1 : (⟨S1024, .f32⟩ : BufTy).Contents (Elt F) → (⟨S1x1024, .f32⟩ : BufTy).Contents (Elt F)),
    unary main_v47 main_v48 (broadcastInDim S32768x1024 ![0, 1] bcast_S1x1024_S32768x1024_0_1 : (⟨S1x1024, .f32⟩ : BufTy).Contents (Elt F) → (⟨S32768x1024, .f32⟩ : BufTy).Contents (Elt F)),
    binary main_v44 main_v48 main_v49 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S32768x1024, .f32⟩) main_call2_v0) (broadcastInDim S32768x1024 ![] bcast_S_S32768x1024),
    TRef.binary (TRef.of (T := ⟨S32768x1024, .f32⟩) main_v49) (TRef.of (T := ⟨S32768x1024, .f32⟩) main_call2_v0) (TRef.of (T := ⟨S32768x1024, .f32⟩) main_v50) maximumf,
    unary main_arg4 main_v51 ((extractStridedSlice S1x1024x1024 ![1, 0, 0] · slices_S6x1024x1024_S1x1024x1024_1_0_0) : (⟨S6x1024x1024, .f32⟩ : BufTy).Contents (Elt F) → (⟨S1x1024x1024, .f32⟩ : BufTy).Contents (Elt F)),
    reshape main_v51 main_v52 rfl shapeCasts_S1x1024x1024_S1024x1024,
    binary main_v50 main_v52 main_v53 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v54 ((extractStridedSlice S1x1024 ![1, 0] · slices_S6x1024_S1x1024_1_0) : (⟨S6x1024, .f32⟩ : BufTy).Contents (Elt F) → (⟨S1x1024, .f32⟩ : BufTy).Contents (Elt F)),
    reshape main_v54 main_v55 rfl shapeCasts_S1x1024_S1024,
    unary main_v55 main_v56 (broadcastInDim S1x1024 ![1] bcast_S1024_S1x1024_1 : (⟨S1024, .f32⟩ : BufTy).Contents (Elt F) → (⟨S1x1024, .f32⟩ : BufTy).Contents (Elt F)),
    unary main_v56 main_v57 (broadcastInDim S32768x1024 ![0, 1] bcast_S1x1024_S32768x1024_0_1 : (⟨S1x1024, .f32⟩ : BufTy).Contents (Elt F) → (⟨S32768x1024, .f32⟩ : BufTy).Contents (Elt F)) ]

set_option maxRecDepth 8192 in
set_option maxHeartbeats 4000000 in
/-- This part of @main is the line of its operations. -/
theorem part0_eq (c : Dev nD) : main_part0 (F := F) c = seq ops0 := rfl

set_option maxRecDepth 8192 in
/-- Every operation touches TensorCore references only. -/
theorem part0_sub : (ops0 : List (HloOp τ sig (Elt F))).Forall fun op => op.bufs ⊆ tcRefs τ sig :=
  ⟨nullary_bufs_sub .., unary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub ..⟩

set_option maxRecDepth 8192 in
/-- Every operation determines its results. -/
theorem part0_fresh : ∀ op ∈ (ops0 : List (HloOp τ sig (Elt F))), op.fresh = ∅ :=
  List.forall_iff_forall_mem.mp (show (ops0 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-! ## What the later parts read, after this part: each buffer at its named stage of the eight arguments -/

set_option maxHeartbeats 4000000 in
theorem eval0_v38 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) :
    after ops0 W (Proc.devRef .tc main_v38) = ReadP.val_main_v38 (F := F) x0 x1 x2 x3 x4 x5 x6 x7 := by
  subst ha0 ha1 ha2 ha3 ha4 ha5 ha6 ha7
  read_results
  rfl

set_option maxHeartbeats 4000000 in
theorem eval0_v39 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) :
    after ops0 W (Proc.devRef .tc main_v39) = ReadP.val_main_v39 (F := F) x0 x1 x2 x3 x4 x5 x6 x7 := by
  subst ha0 ha1 ha2 ha3 ha4 ha5 ha6 ha7
  read_results
  rfl

set_option maxHeartbeats 4000000 in
theorem eval0_v40 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) :
    after ops0 W (Proc.devRef .tc main_v40) = ReadP.val_main_v40 (F := F) x0 x1 x2 x3 x4 x5 x6 x7 := by
  subst ha0 ha1 ha2 ha3 ha4 ha5 ha6 ha7
  read_results
  rfl

set_option maxHeartbeats 4000000 in
theorem eval0_v53 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) :
    after ops0 W (Proc.devRef .tc main_v53) = ReadP.val_main_v53 (F := F) x0 x1 x2 x3 x4 x5 x6 x7 := by
  subst ha0 ha1 ha2 ha3 ha4 ha5 ha6 ha7
  read_results
  rfl

set_option maxHeartbeats 4000000 in
theorem eval0_v57 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7) :
    after ops0 W (Proc.devRef .tc main_v57) = ReadP.val_main_v57 (F := F) x5 := by
  subst ha0 ha1 ha2 ha3 ha4 ha5 ha6 ha7
  read_results
  rfl

/-! ## The arguments are not written -/

set_option maxHeartbeats 4000000 in
theorem eval0_arg0 (W : Valuation τ sig (Elt F)) :
    after ops0 W (Proc.devRef .tc main_arg0) = W (Proc.devRef .tc main_arg0) := by
  read_results

set_option maxHeartbeats 4000000 in
theorem eval0_arg1 (W : Valuation τ sig (Elt F)) :
    after ops0 W (Proc.devRef .tc main_arg1) = W (Proc.devRef .tc main_arg1) := by
  read_results

set_option maxHeartbeats 4000000 in
theorem eval0_arg2 (W : Valuation τ sig (Elt F)) :
    after ops0 W (Proc.devRef .tc main_arg2) = W (Proc.devRef .tc main_arg2) := by
  read_results

set_option maxHeartbeats 4000000 in
theorem eval0_arg3 (W : Valuation τ sig (Elt F)) :
    after ops0 W (Proc.devRef .tc main_arg3) = W (Proc.devRef .tc main_arg3) := by
  read_results

set_option maxHeartbeats 4000000 in
theorem eval0_arg4 (W : Valuation τ sig (Elt F)) :
    after ops0 W (Proc.devRef .tc main_arg4) = W (Proc.devRef .tc main_arg4) := by
  read_results

set_option maxHeartbeats 4000000 in
theorem eval0_arg5 (W : Valuation τ sig (Elt F)) :
    after ops0 W (Proc.devRef .tc main_arg5) = W (Proc.devRef .tc main_arg5) := by
  read_results

set_option maxHeartbeats 4000000 in
theorem eval0_arg6 (W : Valuation τ sig (Elt F)) :
    after ops0 W (Proc.devRef .tc main_arg6) = W (Proc.devRef .tc main_arg6) := by
  read_results

set_option maxHeartbeats 4000000 in
theorem eval0_arg7 (W : Valuation τ sig (Elt F)) :
    after ops0 W (Proc.devRef .tc main_arg7) = W (Proc.devRef .tc main_arg7) := by
  read_results

end Cert.Flow.ReferenceRun

end
-- ==== Proof.ReferencePart1.lean ====
/-
  The second part of the reference program's @main (its statements 61 … 120: the rest of the second coupling layer and the
  third): its operations as a literal line, the part as that line, the line's side conditions, and what each buffer that a
  later part reads holds after it, as the named stage of the eight argument arrays, given what the first part left.
-/
import proofs.«157287_j66073776882121_2_alg».proof.Proof.ReferenceRunLib

noncomputable section

namespace Cert.Flow.ReferenceRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- The 66 operations of this part of @main, in order (a called function's operations stand in its call's place). -/
abbrev ops1 : List (HloOp τ sig (Elt F)) :=
  [ binary main_v53 main_v57 main_v58 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S32768x1024, .f32⟩) main_call3_v0) (broadcastInDim S32768x1024 ![] bcast_S_S32768x1024),
    TRef.binary (TRef.of (T := ⟨S32768x1024, .f32⟩) main_v58) (TRef.of (T := ⟨S32768x1024, .f32⟩) main_call3_v0) (TRef.of (T := ⟨S32768x1024, .f32⟩) main_v59) maximumf,
    unary main_arg6 main_v60 ((extractStridedSlice S1x1024x64 ![1, 0, 0] · slices_S6x1024x64_S1x1024x64_1_0_0) : (⟨S6x1024x64, .f32⟩ : BufTy).Contents (Elt F) → (⟨S1x1024x64, .f32⟩ : BufTy).Contents (Elt F)),
    reshape main_v60 main_v61 rfl shapeCasts_S1x1024x64_S1024x64,
    binary main_v59 main_v61 main_v62 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v63 ((extractStridedSlice S1x64 ![1, 0] · slices_S6x64_S1x64_1_0) : (⟨S6x64, .f32⟩ : BufTy).Contents (Elt F) → (⟨S1x64, .f32⟩ : BufTy).Contents (Elt F)),
    reshape main_v63 main_v64 rfl shapeCasts_S1x64_S64,
    unary main_v64 main_v65 (broadcastInDim S1x64 ![1] bcast_S64_S1x64_1 : (⟨S64, .f32⟩ : BufTy).Contents (Elt F) → (⟨S1x64, .f32⟩ : BufTy).Contents (Elt F)),
    unary main_v65 main_v66 (broadcastInDim S32768x64 ![0, 1] bcast_S1x64_S32768x64_0_1 : (⟨S1x64, .f32⟩ : BufTy).Contents (Elt F) → (⟨S32768x64, .f32⟩ : BufTy).Contents (Elt F)),
    binary main_v62 main_v66 main_v67 (addf : (⟨S32768x64, .f32⟩ : BufTy).Contents (Elt F) → (⟨S32768x64, .f32⟩ : BufTy).Contents (Elt F) → (⟨S32768x64, .f32⟩ : BufTy).Contents (Elt F)),
    unary main_v67 main_v68 ((extractStridedSlice S32768x32 ![0, 0] · slices_S32768x64_S32768x32_0_0) : (⟨S32768x64, .f32⟩ : BufTy).Contents (Elt F) → (⟨S32768x32, .f32⟩ : BufTy).Contents (Elt F)),
    unary main_v68 main_v69 (Host.tanh : (⟨S32768x32, .f32⟩ : BufTy).Contents (Elt F) → (⟨S32768x32, .f32⟩ : BufTy).Contents (Elt F)),
    unary main_v67 main_v70 ((extractStridedSlice S32768x32 ![0, 32] · slices_S32768x64_S32768x32_0_32) : (⟨S32768x64, .f32⟩ : BufTy).Contents (Elt F) → (⟨S32768x32, .f32⟩ : BufTy).Contents (Elt F)),
    unary main_v69 main_v71 (Host.exp : (⟨S32768x32, .f32⟩ : BufTy).Contents (Elt F) → (⟨S32768x32, .f32⟩ : BufTy).Contents (Elt F)),
    binary main_v39 main_v71 main_v72 (mulf : (⟨S32768x32, .f32⟩ : BufTy).Contents (Elt F) → (⟨S32768x32, .f32⟩ : BufTy).Contents (Elt F) → (⟨S32768x32, .f32⟩ : BufTy).Contents (Elt F)),
    binary main_v72 main_v70 main_v73 (addf : (⟨S32768x32, .f32⟩ : BufTy).Contents (Elt F) → (⟨S32768x32, .f32⟩ : BufTy).Contents (Elt F) → (⟨S32768x32, .f32⟩ : BufTy).Contents (Elt F)),
    binary main_v40 main_v73 main_v74 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_1 (constant S_ .f32 0x00000000#32),
    binary main_v69 main_cst_1 main_v75 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v38 main_v75 main_v76 (addf : (⟨S32768, .f32⟩ : BufTy).Contents (Elt F) → (⟨S32768, .f32⟩ : BufTy).Contents (Elt F) → (⟨S32768, .f32⟩ : BufTy).Contents (Elt F)),
    unary main_v74 main_v77 ((extractStridedSlice S32768x32 ![0, 0] · slices_S32768x64_S32768x32_0_0) : (⟨S32768x64, .f32⟩ : BufTy).Contents (Elt F) → (⟨S32768x32, .f32⟩ : BufTy).Contents (Elt F)),
    unary main_v74 main_v78 ((extractStridedSlice S32768x32 ![0, 32] · slices_S32768x64_S32768x32_0_32) : (⟨S32768x64, .f32⟩ : BufTy).Contents (Elt F) → (⟨S32768x32, .f32⟩ : BufTy).Contents (Elt F)),
    binary main_v78 main_arg1 main_v79 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v80 ((extractStridedSlice S1x160x1024 ![2, 0, 0] · slices_S6x160x1024_S1x160x1024_2_0_0) : (⟨S6x160x1024, .f32⟩ : BufTy).Contents (Elt F) → (⟨S1x160x1024, .f32⟩ : BufTy).Contents (Elt F)),
    reshape main_v80 main_v81 rfl shapeCasts_S1x160x1024_S160x1024,
    binary main_v79 main_v81 main_v82 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v83 ((extractStridedSlice S1x1024 ![2, 0] · slices_S6x1024_S1x1024_2_0) : (⟨S6x1024, .f32⟩ : BufTy).Contents (Elt F) → (⟨S1x1024, .f32⟩ : BufTy).Contents (Elt F)),
    reshape main_v83 main_v84 rfl shapeCasts_S1x1024_S1024,
    unary main_v84 main_v85 (broadcastInDim S1x1024 ![1] bcast_S1024_S1x1024_1 : (⟨S1024, .f32⟩ : BufTy).Contents (Elt F) → (⟨S1x1024, .f32⟩ : BufTy).Contents (Elt F)),
    unary main_v85 main_v86 (broadcastInDim S32768x1024 ![0, 1] bcast_S1x1024_S32768x1024_0_1 : (⟨S1x1024, .f32⟩ : BufTy).Contents (Elt F) → (⟨S32768x1024, .f32⟩ : BufTy).Contents (Elt F)),
    binary main_v82 main_v86 main_v87 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S32768x1024, .f32⟩) main_call4_v0) (broadcastInDim S32768x1024 ![] bcast_S_S32768x1024),
    TRef.binary (TRef.of (T := ⟨S32768x1024, .f32⟩) main_v87) (TRef.of (T := ⟨S32768x1024, .f32⟩) main_call4_v0) (TRef.of (T := ⟨S32768x1024, .f32⟩) main_v88) maximumf,
    unary main_arg4 main_v89 ((extractStridedSlice S1x1024x1024 ![2, 0, 0] · slices_S6x1024x1024_S1x1024x1024_2_0_0) : (⟨S6x1024x1024, .f32⟩ : BufTy).Contents (Elt F) → (⟨S1x1024x1024, .f32⟩ : BufTy).Contents (Elt F)),
    reshape main_v89 main_v90 rfl shapeCasts_S1x1024x1024_S1024x1024,
    binary main_v88 main_v90 main_v91 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v92 ((extractStridedSlice S1x1024 ![2, 0] · slices_S6x1024_S1x1024_2_0) : (⟨S6x1024, .f32⟩ : BufTy).Contents (Elt F) → (⟨S1x1024, .f32⟩ : BufTy).Contents (Elt F)),
    reshape main_v92 main_v93 rfl shapeCasts_S1x1024_S1024,
    unary main_v93 main_v94 (broadcastInDim S1x1024 ![1] bcast_S1024_S1x1024_1 : (⟨S1024, .f32⟩ : BufTy).Contents (Elt F) → (⟨S1x1024, .f32⟩ : BufTy).Contents (Elt F)),
    unary main_v94 main_v95 (broadcastInDim S32768x1024 ![0, 1] bcast_S1x1024_S32768x1024_0_1 : (⟨S1x1024, .f32⟩ : BufTy).Contents (Elt F) → (⟨S32768x1024, .f32⟩ : BufTy).Contents (Elt F)),
    binary main_v91 main_v95 main_v96 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S32768x1024, .f32⟩) main_call5_v0) (broadcastInDim S32768x1024 ![] bcast_S_S32768x1024),
    TRef.binary (TRef.of (T := ⟨S32768x1024, .f32⟩) main_v96) (TRef.of (T := ⟨S32768x1024, .f32⟩) main_call5_v0) (TRef.of (T := ⟨S32768x1024, .f32⟩) main_v97) maximumf,
    unary main_arg6 main_v98 ((extractStridedSlice S1x1024x64 ![2, 0, 0] · slices_S6x1024x64_S1x1024x64_2_0_0) : (⟨S6x1024x64, .f32⟩ : BufTy).Contents (Elt F) → (⟨S1x1024x64, .f32⟩ : BufTy).Contents (Elt F)),
    reshape main_v98 main_v99 rfl shapeCasts_S1x1024x64_S1024x64,
    binary main_v97 main_v99 main_v100 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v101 ((extractStridedSlice S1x64 ![2, 0] · slices_S6x64_S1x64_2_0) : (⟨S6x64, .f32⟩ : BufTy).Contents (Elt F) → (⟨S1x64, .f32⟩ : BufTy).Contents (Elt F)),
    reshape main_v101 main_v102 rfl shapeCasts_S1x64_S64,
    unary main_v102 main_v103 (broadcastInDim S1x64 ![1] bcast_S64_S1x64_1 : (⟨S64, .f32⟩ : BufTy).Contents (Elt F) → (⟨S1x64, .f32⟩ : BufTy).Contents (Elt F)),
    unary main_v103 main_v104 (broadcastInDim S32768x64 ![0, 1] bcast_S1x64_S32768x64_0_1 : (⟨S1x64, .f32⟩ : BufTy).Contents (Elt F) → (⟨S32768x64, .f32⟩ : BufTy).Contents (Elt F)),
    binary main_v100 main_v104 main_v105 (addf : (⟨S32768x64, .f32⟩ : BufTy).Contents (Elt F) → (⟨S32768x64, .f32⟩ : BufTy).Contents (Elt F) → (⟨S32768x64, .f32⟩ : BufTy).Contents (Elt F)),
    unary main_v105 main_v106 ((extractStridedSlice S32768x32 ![0, 0] · slices_S32768x64_S32768x32_0_0) : (⟨S32768x64, .f32⟩ : BufTy).Contents (Elt F) → (⟨S32768x32, .f32⟩ : BufTy).Contents (Elt F)),
    unary main_v106 main_v107 (Host.tanh : (⟨S32768x32, .f32⟩ : BufTy).Contents (Elt F) → (⟨S32768x32, .f32⟩ : BufTy).Contents (Elt F)),
    unary main_v105 main_v108 ((extractStridedSlice S32768x32 ![0, 32] · slices_S32768x64_S32768x32_0_32) : (⟨S32768x64, .f32⟩ : BufTy).Contents (Elt F) → (⟨S32768x32, .f32⟩ : BufTy).Contents (Elt F)),
    unary main_v107 main_v109 (Host.exp : (⟨S32768x32, .f32⟩ : BufTy).Contents (Elt F) → (⟨S32768x32, .f32⟩ : BufTy).Contents (Elt F)),
    binary main_v77 main_v109 main_v110 (mulf : (⟨S32768x32, .f32⟩ : BufTy).Contents (Elt F) → (⟨S32768x32, .f32⟩ : BufTy).Contents (Elt F) → (⟨S32768x32, .f32⟩ : BufTy).Contents (Elt F)),
    binary main_v110 main_v108 main_v111 (addf : (⟨S32768x32, .f32⟩ : BufTy).Contents (Elt F) → (⟨S32768x32, .f32⟩ : BufTy).Contents (Elt F) → (⟨S32768x32, .f32⟩ : BufTy).Contents (Elt F)),
    binary main_v111 main_v78 main_v112 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_2 (constant S_ .f32 0x00000000#32),
    binary main_v107 main_cst_2 main_v113 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v76 main_v113 main_v114 (addf : (⟨S32768, .f32⟩ : BufTy).Contents (Elt F) → (⟨S32768, .f32⟩ : BufTy).Contents (Elt F) → (⟨S32768, .f32⟩ : BufTy).Contents (Elt F)),
    unary main_v112 main_v115 ((extractStridedSlice S32768x32 ![0, 32] · slices_S32768x64_S32768x32_0_32) : (⟨S32768x64, .f32⟩ : BufTy).Contents (Elt F) → (⟨S32768x32, .f32⟩ : BufTy).Contents (Elt F)) ]

set_option maxRecDepth 8192 in
set_option maxHeartbeats 4000000 in
/-- This part of @main is the line of its operations. -/
theorem part1_eq (c : Dev nD) : main_part1 (F := F) c = seq ops1 := rfl

set_option maxRecDepth 8192 in
/-- Every operation touches TensorCore references only. -/
theorem part1_sub : (ops1 : List (HloOp τ sig (Elt F))).Forall fun op => op.bufs ⊆ tcRefs τ sig :=
  ⟨binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub .., unary_bufs_sub ..⟩

set_option maxRecDepth 8192 in
/-- Every operation determines its results. -/
theorem part1_fresh : ∀ op ∈ (ops1 : List (HloOp τ sig (Elt F))), op.fresh = ∅ :=
  List.forall_iff_forall_mem.mp (show (ops1 : List (HloOp τ sig (Elt F))).Forall fun op => op.fresh = ∅ from
    ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩)

/-! ## What the later parts read, after this part: each buffer at its named stage of the eight arguments -/

set_option maxHeartbeats 4000000 in
theorem eval1_v112 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h38 : W (Proc.devRef .tc main_v38) = ReadP.val_main_v38 (F := F) x0 x1 x2 x3 x4 x5 x6 x7) (h39 : W (Proc.devRef .tc main_v39) = ReadP.val_main_v39 (F := F) x0 x1 x2 x3 x4 x5 x6 x7) (h40 : W (Proc.devRef .tc main_v40) = ReadP.val_main_v40 (F := F) x0 x1 x2 x3 x4 x5 x6 x7) (h53 : W (Proc.devRef .tc main_v53) = ReadP.val_main_v53 (F := F) x0 x1 x2 x3 x4 x5 x6 x7) (h57 : W (Proc.devRef .tc main_v57) = ReadP.val_main_v57 (F := F) x5) :
    after ops1 W (Proc.devRef .tc main_v112) = ReadP.val_main_v112 (F := F) x0 x1 x2 x3 x4 x5 x6 x7 := by
  subst ha0 ha1 ha2 ha3 ha4 ha5 ha6 ha7
  read_results
  try rw [h38]
  try rw [h39]
  try rw [h40]
  try rw [h53]
  try rw [h57]
  rfl

set_option maxHeartbeats 4000000 in
theorem eval1_v114 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h38 : W (Proc.devRef .tc main_v38) = ReadP.val_main_v38 (F := F) x0 x1 x2 x3 x4 x5 x6 x7) (h39 : W (Proc.devRef .tc main_v39) = ReadP.val_main_v39 (F := F) x0 x1 x2 x3 x4 x5 x6 x7) (h40 : W (Proc.devRef .tc main_v40) = ReadP.val_main_v40 (F := F) x0 x1 x2 x3 x4 x5 x6 x7) (h53 : W (Proc.devRef .tc main_v53) = ReadP.val_main_v53 (F := F) x0 x1 x2 x3 x4 x5 x6 x7) (h57 : W (Proc.devRef .tc main_v57) = ReadP.val_main_v57 (F := F) x5) :
    after ops1 W (Proc.devRef .tc main_v114) = ReadP.val_main_v114 (F := F) x0 x1 x2 x3 x4 x5 x6 x7 := by
  subst ha0 ha1 ha2 ha3 ha4 ha5 ha6 ha7
  read_results
  try rw [h38]
  try rw [h39]
  try rw [h40]
  try rw [h53]
  try rw [h57]
  rfl

set_option maxHeartbeats 4000000 in
theorem eval1_v115 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h38 : W (Proc.devRef .tc main_v38) = ReadP.val_main_v38 (F := F) x0 x1 x2 x3 x4 x5 x6 x7) (h39 : W (Proc.devRef .tc main_v39) = ReadP.val_main_v39 (F := F) x0 x1 x2 x3 x4 x5 x6 x7) (h40 : W (Proc.devRef .tc main_v40) = ReadP.val_main_v40 (F := F) x0 x1 x2 x3 x4 x5 x6 x7) (h53 : W (Proc.devRef .tc main_v53) = ReadP.val_main_v53 (F := F) x0 x1 x2 x3 x4 x5 x6 x7) (h57 : W (Proc.devRef .tc main_v57) = ReadP.val_main_v57 (F := F) x5) :
    after ops1 W (Proc.devRef .tc main_v115) = ReadP.val_main_v115 (F := F) x0 x1 x2 x3 x4 x5 x6 x7 := by
  subst ha0 ha1 ha2 ha3 ha4 ha5 ha6 ha7
  read_results
  try rw [h38]
  try rw [h39]
  try rw [h40]
  try rw [h53]
  try rw [h57]
  rfl

/-! ## The arguments are not written -/

set_option maxHeartbeats 4000000 in
theorem eval1_arg0 (W : Valuation τ sig (Elt F)) :
    after ops1 W (Proc.devRef .tc main_arg0) = W (Proc.devRef .tc main_arg0) := by
  read_results

set_option maxHeartbeats 4000000 in
theorem eval1_arg1 (W : Valuation τ sig (Elt F)) :
    after ops1 W (Proc.devRef .tc main_arg1) = W (Proc.devRef .tc main_arg1) := by
  read_results

set_option maxHeartbeats 4000000 in
theorem eval1_arg2 (W : Valuation τ sig (Elt F)) :
    after ops1 W (Proc.devRef .tc main_arg2) = W (Proc.devRef .tc main_arg2) := by
  read_results

set_option maxHeartbeats 4000000 in
theorem eval1_arg3 (W : Valuation τ sig (Elt F)) :
    after ops1 W (Proc.devRef .tc main_arg3) = W (Proc.devRef .tc main_arg3) := by
  read_results

set_option maxHeartbeats 4000000 in
theorem eval1_arg4 (W : Valuation τ sig (Elt F)) :
    after ops1 W (Proc.devRef .tc main_arg4) = W (Proc.devRef .tc main_arg4) := by
  read_results

set_option maxHeartbeats 4000000 in
theorem eval1_arg5 (W : Valuation τ sig (Elt F)) :
    after ops1 W (Proc.devRef .tc main_arg5) = W (Proc.devRef .tc main_arg5) := by
  read_results

set_option maxHeartbeats 4000000 in
theorem eval1_arg6 (W : Valuation τ sig (Elt F)) :
    after ops1 W (Proc.devRef .tc main_arg6) = W (Proc.devRef .tc main_arg6) := by
  read_results

set_option maxHeartbeats 4000000 in
theorem eval1_arg7 (W : Valuation τ sig (Elt F)) :
    after ops1 W (Proc.devRef .tc main_arg7) = W (Proc.devRef .tc main_arg7) := by
  read_results

end Cert.Flow.ReferenceRun

end
-- ==== Proof.ReferencePart2.lean ====
/-
  Part 2 of the reference program (its operations 132 … 199 of 260, in program order) as a literal line of
  operations, and what it computes: from any contents W of the buffers in which the arguments are x0 … x7 and the stages
  earlier parts leave (main_v112, main_v114, main_v115) hold the read program's values of those stages, the stages later
  parts read (main_v152, main_v153, main_v154, main_v173, main_v174) hold the read program's values too, and the arguments are not written.
-/
import proofs.«157287_j66073776882121_2_alg».proof.Proof.ReferenceRunLib

noncomputable section

namespace Cert.Flow.ReferenceRun

open Cert.ReferenceIdeal Cert.ReferenceIdeal.Gen Idealize.ShloMosaic Idealize.ShloMosaic.TcCoe Idealize.SL.Sem Idealize.ShloMosaic.StableHlo

variable {F : FTy → Type} [FloatOps F]

/-- Part 2 of the program: its operations 132 … 199 of 260, in order. -/
abbrev ops2 : List (HloOp τ sig (Elt F)) :=
  [ unary main_v112 main_v116 ((extractStridedSlice S32768x32 ![0, 0] · slices_S32768x64_S32768x32_0_0) : (⟨S32768x64, .f32⟩ : BufTy).Contents (Elt F) → (⟨S32768x32, .f32⟩ : BufTy).Contents (Elt F)),
    binary main_v116 main_arg1 main_v117 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v118 ((extractStridedSlice S1x160x1024 ![3, 0, 0] · slices_S6x160x1024_S1x160x1024_3_0_0) : (⟨S6x160x1024, .f32⟩ : BufTy).Contents (Elt F) → (⟨S1x160x1024, .f32⟩ : BufTy).Contents (Elt F)),
    reshape main_v118 main_v119 rfl shapeCasts_S1x160x1024_S160x1024,
    binary main_v117 main_v119 main_v120 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v121 ((extractStridedSlice S1x1024 ![3, 0] · slices_S6x1024_S1x1024_3_0) : (⟨S6x1024, .f32⟩ : BufTy).Contents (Elt F) → (⟨S1x1024, .f32⟩ : BufTy).Contents (Elt F)),
    reshape main_v121 main_v122 rfl shapeCasts_S1x1024_S1024,
    unary main_v122 main_v123 (broadcastInDim S1x1024 ![1] bcast_S1024_S1x1024_1 : (⟨S1024, .f32⟩ : BufTy).Contents (Elt F) → (⟨S1x1024, .f32⟩ : BufTy).Contents (Elt F)),
    unary main_v123 main_v124 (broadcastInDim S32768x1024 ![0, 1] bcast_S1x1024_S32768x1024_0_1 : (⟨S1x1024, .f32⟩ : BufTy).Contents (Elt F) → (⟨S32768x1024, .f32⟩ : BufTy).Contents (Elt F)),
    binary main_v120 main_v124 main_v125 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S32768x1024, .f32⟩) main_call6_v0) (broadcastInDim S32768x1024 ![] bcast_S_S32768x1024),
    TRef.binary (TRef.of (T := ⟨S32768x1024, .f32⟩) main_v125) (TRef.of (T := ⟨S32768x1024, .f32⟩) main_call6_v0) (TRef.of (T := ⟨S32768x1024, .f32⟩) main_v126) maximumf,
    unary main_arg4 main_v127 ((extractStridedSlice S1x1024x1024 ![3, 0, 0] · slices_S6x1024x1024_S1x1024x1024_3_0_0) : (⟨S6x1024x1024, .f32⟩ : BufTy).Contents (Elt F) → (⟨S1x1024x1024, .f32⟩ : BufTy).Contents (Elt F)),
    reshape main_v127 main_v128 rfl shapeCasts_S1x1024x1024_S1024x1024,
    binary main_v126 main_v128 main_v129 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v130 ((extractStridedSlice S1x1024 ![3, 0] · slices_S6x1024_S1x1024_3_0) : (⟨S6x1024, .f32⟩ : BufTy).Contents (Elt F) → (⟨S1x1024, .f32⟩ : BufTy).Contents (Elt F)),
    reshape main_v130 main_v131 rfl shapeCasts_S1x1024_S1024,
    unary main_v131 main_v132 (broadcastInDim S1x1024 ![1] bcast_S1024_S1x1024_1 : (⟨S1024, .f32⟩ : BufTy).Contents (Elt F) → (⟨S1x1024, .f32⟩ : BufTy).Contents (Elt F)),
    unary main_v132 main_v133 (broadcastInDim S32768x1024 ![0, 1] bcast_S1x1024_S32768x1024_0_1 : (⟨S1x1024, .f32⟩ : BufTy).Contents (Elt F) → (⟨S32768x1024, .f32⟩ : BufTy).Contents (Elt F)),
    binary main_v129 main_v133 main_v134 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S32768x1024, .f32⟩) main_call7_v0) (broadcastInDim S32768x1024 ![] bcast_S_S32768x1024),
    TRef.binary (TRef.of (T := ⟨S32768x1024, .f32⟩) main_v134) (TRef.of (T := ⟨S32768x1024, .f32⟩) main_call7_v0) (TRef.of (T := ⟨S32768x1024, .f32⟩) main_v135) maximumf,
    unary main_arg6 main_v136 ((extractStridedSlice S1x1024x64 ![3, 0, 0] · slices_S6x1024x64_S1x1024x64_3_0_0) : (⟨S6x1024x64, .f32⟩ : BufTy).Contents (Elt F) → (⟨S1x1024x64, .f32⟩ : BufTy).Contents (Elt F)),
    reshape main_v136 main_v137 rfl shapeCasts_S1x1024x64_S1024x64,
    binary main_v135 main_v137 main_v138 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v139 ((extractStridedSlice S1x64 ![3, 0] · slices_S6x64_S1x64_3_0) : (⟨S6x64, .f32⟩ : BufTy).Contents (Elt F) → (⟨S1x64, .f32⟩ : BufTy).Contents (Elt F)),
    reshape main_v139 main_v140 rfl shapeCasts_S1x64_S64,
    unary main_v140 main_v141 (broadcastInDim S1x64 ![1] bcast_S64_S1x64_1 : (⟨S64, .f32⟩ : BufTy).Contents (Elt F) → (⟨S1x64, .f32⟩ : BufTy).Contents (Elt F)),
    unary main_v141 main_v142 (broadcastInDim S32768x64 ![0, 1] bcast_S1x64_S32768x64_0_1 : (⟨S1x64, .f32⟩ : BufTy).Contents (Elt F) → (⟨S32768x64, .f32⟩ : BufTy).Contents (Elt F)),
    binary main_v138 main_v142 main_v143 (addf : (⟨S32768x64, .f32⟩ : BufTy).Contents (Elt F) → (⟨S32768x64, .f32⟩ : BufTy).Contents (Elt F) → (⟨S32768x64, .f32⟩ : BufTy).Contents (Elt F)),
    unary main_v143 main_v144 ((extractStridedSlice S32768x32 ![0, 0] · slices_S32768x64_S32768x32_0_0) : (⟨S32768x64, .f32⟩ : BufTy).Contents (Elt F) → (⟨S32768x32, .f32⟩ : BufTy).Contents (Elt F)),
    unary main_v144 main_v145 (Host.tanh : (⟨S32768x32, .f32⟩ : BufTy).Contents (Elt F) → (⟨S32768x32, .f32⟩ : BufTy).Contents (Elt F)),
    unary main_v143 main_v146 ((extractStridedSlice S32768x32 ![0, 32] · slices_S32768x64_S32768x32_0_32) : (⟨S32768x64, .f32⟩ : BufTy).Contents (Elt F) → (⟨S32768x32, .f32⟩ : BufTy).Contents (Elt F)),
    unary main_v145 main_v147 (Host.exp : (⟨S32768x32, .f32⟩ : BufTy).Contents (Elt F) → (⟨S32768x32, .f32⟩ : BufTy).Contents (Elt F)),
    binary main_v115 main_v147 main_v148 (mulf : (⟨S32768x32, .f32⟩ : BufTy).Contents (Elt F) → (⟨S32768x32, .f32⟩ : BufTy).Contents (Elt F) → (⟨S32768x32, .f32⟩ : BufTy).Contents (Elt F)),
    binary main_v148 main_v146 main_v149 (addf : (⟨S32768x32, .f32⟩ : BufTy).Contents (Elt F) → (⟨S32768x32, .f32⟩ : BufTy).Contents (Elt F) → (⟨S32768x32, .f32⟩ : BufTy).Contents (Elt F)),
    binary main_v116 main_v149 main_v150 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_3 (constant S_ .f32 0x00000000#32),
    binary main_v145 main_cst_3 main_v151 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v114 main_v151 main_v152 (addf : (⟨S32768, .f32⟩ : BufTy).Contents (Elt F) → (⟨S32768, .f32⟩ : BufTy).Contents (Elt F) → (⟨S32768, .f32⟩ : BufTy).Contents (Elt F)),
    unary main_v150 main_v153 ((extractStridedSlice S32768x32 ![0, 0] · slices_S32768x64_S32768x32_0_0) : (⟨S32768x64, .f32⟩ : BufTy).Contents (Elt F) → (⟨S32768x32, .f32⟩ : BufTy).Contents (Elt F)),
    unary main_v150 main_v154 ((extractStridedSlice S32768x32 ![0, 32] · slices_S32768x64_S32768x32_0_32) : (⟨S32768x64, .f32⟩ : BufTy).Contents (Elt F) → (⟨S32768x32, .f32⟩ : BufTy).Contents (Elt F)),
    binary main_v154 main_arg1 main_v155 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v156 ((extractStridedSlice S1x160x1024 ![4, 0, 0] · slices_S6x160x1024_S1x160x1024_4_0_0) : (⟨S6x160x1024, .f32⟩ : BufTy).Contents (Elt F) → (⟨S1x160x1024, .f32⟩ : BufTy).Contents (Elt F)),
    reshape main_v156 main_v157 rfl shapeCasts_S1x160x1024_S160x1024,
    binary main_v155 main_v157 main_v158 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v159 ((extractStridedSlice S1x1024 ![4, 0] · slices_S6x1024_S1x1024_4_0) : (⟨S6x1024, .f32⟩ : BufTy).Contents (Elt F) → (⟨S1x1024, .f32⟩ : BufTy).Contents (Elt F)),
    reshape main_v159 main_v160 rfl shapeCasts_S1x1024_S1024,
    unary main_v160 main_v161 (broadcastInDim S1x1024 ![1] bcast_S1024_S1x1024_1 : (⟨S1024, .f32⟩ : BufTy).Contents (Elt F) → (⟨S1x1024, .f32⟩ : BufTy).Contents (Elt F)),
    unary main_v161 main_v162 (broadcastInDim S32768x1024 ![0, 1] bcast_S1x1024_S32768x1024_0_1 : (⟨S1x1024, .f32⟩ : BufTy).Contents (Elt F) → (⟨S32768x1024, .f32⟩ : BufTy).Contents (Elt F)),
    binary main_v158 main_v162 main_v163 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S32768x1024, .f32⟩) main_call8_v0) (broadcastInDim S32768x1024 ![] bcast_S_S32768x1024),
    TRef.binary (TRef.of (T := ⟨S32768x1024, .f32⟩) main_v163) (TRef.of (T := ⟨S32768x1024, .f32⟩) main_call8_v0) (TRef.of (T := ⟨S32768x1024, .f32⟩) main_v164) maximumf,
    unary main_arg4 main_v165 ((extractStridedSlice S1x1024x1024 ![4, 0, 0] · slices_S6x1024x1024_S1x1024x1024_4_0_0) : (⟨S6x1024x1024, .f32⟩ : BufTy).Contents (Elt F) → (⟨S1x1024x1024, .f32⟩ : BufTy).Contents (Elt F)),
    reshape main_v165 main_v166 rfl shapeCasts_S1x1024x1024_S1024x1024,
    binary main_v164 main_v166 main_v167 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v168 ((extractStridedSlice S1x1024 ![4, 0] · slices_S6x1024_S1x1024_4_0) : (⟨S6x1024, .f32⟩ : BufTy).Contents (Elt F) → (⟨S1x1024, .f32⟩ : BufTy).Contents (Elt F)),
    reshape main_v168 main_v169 rfl shapeCasts_S1x1024_S1024,
    unary main_v169 main_v170 (broadcastInDim S1x1024 ![1] bcast_S1024_S1x1024_1 : (⟨S1024, .f32⟩ : BufTy).Contents (Elt F) → (⟨S1x1024, .f32⟩ : BufTy).Contents (Elt F)),
    unary main_v170 main_v171 (broadcastInDim S32768x1024 ![0, 1] bcast_S1x1024_S32768x1024_0_1 : (⟨S1x1024, .f32⟩ : BufTy).Contents (Elt F) → (⟨S32768x1024, .f32⟩ : BufTy).Contents (Elt F)),
    binary main_v167 main_v171 main_v172 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S32768x1024, .f32⟩) main_call9_v0) (broadcastInDim S32768x1024 ![] bcast_S_S32768x1024),
    TRef.binary (TRef.of (T := ⟨S32768x1024, .f32⟩) main_v172) (TRef.of (T := ⟨S32768x1024, .f32⟩) main_call9_v0) (TRef.of (T := ⟨S32768x1024, .f32⟩) main_v173) maximumf,
    unary main_arg6 main_v174 ((extractStridedSlice S1x1024x64 ![4, 0, 0] · slices_S6x1024x64_S1x1024x64_4_0_0) : (⟨S6x1024x64, .f32⟩ : BufTy).Contents (Elt F) → (⟨S1x1024x64, .f32⟩ : BufTy).Contents (Elt F)) ]

set_option maxRecDepth 8192 in
set_option maxHeartbeats 4000000 in
/-- Part 2 is the sequence of those operations. -/
theorem part2_eq (c : Dev nD) : main_part2 (F := F) c = seq ops2 := rfl

set_option maxRecDepth 8192 in
/-- Each touches TensorCore references only. -/
theorem part2_sub : (ops2 : List (HloOp τ sig (Elt F))).Forall fun op => op.bufs ⊆ tcRefs τ sig :=
  ⟨unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub ..⟩

set_option maxRecDepth 8192 in
set_option maxHeartbeats 4000000 in
/-- None allocates a buffer. -/
theorem part2_fresh : ∀ op ∈ (ops2 : List (HloOp τ sig (Elt F))), op.fresh = ∅ := by
  intro _ h; (repeat (cases h with | head => rfl | tail _ h => ?_)); exact nomatch h

set_option maxRecDepth 8192 in
set_option maxHeartbeats 4000000 in
/-- After part 2, buffer main_v152 holds the read program's stage 152 of the arguments. -/
theorem eval2_v152 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h112 : W (Proc.devRef .tc main_v112) = ReadP.val_main_v112 (F := F) x0 x1 x2 x3 x4 x5 x6 x7) (h114 : W (Proc.devRef .tc main_v114) = ReadP.val_main_v114 (F := F) x0 x1 x2 x3 x4 x5 x6 x7) (h115 : W (Proc.devRef .tc main_v115) = ReadP.val_main_v115 (F := F) x0 x1 x2 x3 x4 x5 x6 x7) :
    after ops2 W (Proc.devRef .tc main_v152) = ReadP.val_main_v152 (F := F) x0 x1 x2 x3 x4 x5 x6 x7 := by
  subst ha0 ha1 ha2 ha3 ha4 ha5 ha6 ha7
  read_results
  try simp only [h112, h114, h115]
  rfl

set_option maxRecDepth 8192 in
set_option maxHeartbeats 4000000 in
/-- After part 2, buffer main_v153 holds the read program's stage 153 of the arguments. -/
theorem eval2_v153 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h112 : W (Proc.devRef .tc main_v112) = ReadP.val_main_v112 (F := F) x0 x1 x2 x3 x4 x5 x6 x7) (h114 : W (Proc.devRef .tc main_v114) = ReadP.val_main_v114 (F := F) x0 x1 x2 x3 x4 x5 x6 x7) (h115 : W (Proc.devRef .tc main_v115) = ReadP.val_main_v115 (F := F) x0 x1 x2 x3 x4 x5 x6 x7) :
    after ops2 W (Proc.devRef .tc main_v153) = ReadP.val_main_v153 (F := F) x0 x1 x2 x3 x4 x5 x6 x7 := by
  subst ha0 ha1 ha2 ha3 ha4 ha5 ha6 ha7
  read_results
  try simp only [h112, h114, h115]
  rfl

set_option maxRecDepth 8192 in
set_option maxHeartbeats 4000000 in
/-- After part 2, buffer main_v154 holds the read program's stage 154 of the arguments. -/
theorem eval2_v154 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h112 : W (Proc.devRef .tc main_v112) = ReadP.val_main_v112 (F := F) x0 x1 x2 x3 x4 x5 x6 x7) (h114 : W (Proc.devRef .tc main_v114) = ReadP.val_main_v114 (F := F) x0 x1 x2 x3 x4 x5 x6 x7) (h115 : W (Proc.devRef .tc main_v115) = ReadP.val_main_v115 (F := F) x0 x1 x2 x3 x4 x5 x6 x7) :
    after ops2 W (Proc.devRef .tc main_v154) = ReadP.val_main_v154 (F := F) x0 x1 x2 x3 x4 x5 x6 x7 := by
  subst ha0 ha1 ha2 ha3 ha4 ha5 ha6 ha7
  read_results
  try simp only [h112, h114, h115]
  rfl

set_option maxRecDepth 8192 in
set_option maxHeartbeats 4000000 in
/-- After part 2, buffer main_v173 holds the read program's stage 173 of the arguments. -/
theorem eval2_v173 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h112 : W (Proc.devRef .tc main_v112) = ReadP.val_main_v112 (F := F) x0 x1 x2 x3 x4 x5 x6 x7) (h114 : W (Proc.devRef .tc main_v114) = ReadP.val_main_v114 (F := F) x0 x1 x2 x3 x4 x5 x6 x7) (h115 : W (Proc.devRef .tc main_v115) = ReadP.val_main_v115 (F := F) x0 x1 x2 x3 x4 x5 x6 x7) :
    after ops2 W (Proc.devRef .tc main_v173) = ReadP.val_main_v173 (F := F) x0 x1 x2 x3 x4 x5 x6 x7 := by
  subst ha0 ha1 ha2 ha3 ha4 ha5 ha6 ha7
  read_results
  try simp only [h112, h114, h115]
  rfl

set_option maxRecDepth 8192 in
set_option maxHeartbeats 4000000 in
/-- After part 2, buffer main_v174 holds the read program's stage 174 of the arguments. -/
theorem eval2_v174 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h112 : W (Proc.devRef .tc main_v112) = ReadP.val_main_v112 (F := F) x0 x1 x2 x3 x4 x5 x6 x7) (h114 : W (Proc.devRef .tc main_v114) = ReadP.val_main_v114 (F := F) x0 x1 x2 x3 x4 x5 x6 x7) (h115 : W (Proc.devRef .tc main_v115) = ReadP.val_main_v115 (F := F) x0 x1 x2 x3 x4 x5 x6 x7) :
    after ops2 W (Proc.devRef .tc main_v174) = ReadP.val_main_v174 (F := F) x6 := by
  subst ha0 ha1 ha2 ha3 ha4 ha5 ha6 ha7
  read_results
  try simp only [h112, h114, h115]
  rfl

set_option maxHeartbeats 4000000 in
/-- Part 2 does not write argument 0. -/
theorem eval2_arg0 (W : Valuation τ sig (Elt F)) :
    after ops2 W (Proc.devRef .tc main_arg0) = W (Proc.devRef .tc main_arg0) := by
  read_results

set_option maxHeartbeats 4000000 in
/-- Part 2 does not write argument 1. -/
theorem eval2_arg1 (W : Valuation τ sig (Elt F)) :
    after ops2 W (Proc.devRef .tc main_arg1) = W (Proc.devRef .tc main_arg1) := by
  read_results

set_option maxHeartbeats 4000000 in
/-- Part 2 does not write argument 2. -/
theorem eval2_arg2 (W : Valuation τ sig (Elt F)) :
    after ops2 W (Proc.devRef .tc main_arg2) = W (Proc.devRef .tc main_arg2) := by
  read_results

set_option maxHeartbeats 4000000 in
/-- Part 2 does not write argument 3. -/
theorem eval2_arg3 (W : Valuation τ sig (Elt F)) :
    after ops2 W (Proc.devRef .tc main_arg3) = W (Proc.devRef .tc main_arg3) := by
  read_results

set_option maxHeartbeats 4000000 in
/-- Part 2 does not write argument 4. -/
theorem eval2_arg4 (W : Valuation τ sig (Elt F)) :
    after ops2 W (Proc.devRef .tc main_arg4) = W (Proc.devRef .tc main_arg4) := by
  read_results

set_option maxHeartbeats 4000000 in
/-- Part 2 does not write argument 5. -/
theorem eval2_arg5 (W : Valuation τ sig (Elt F)) :
    after ops2 W (Proc.devRef .tc main_arg5) = W (Proc.devRef .tc main_arg5) := by
  read_results

set_option maxHeartbeats 4000000 in
/-- Part 2 does not write argument 6. -/
theorem eval2_arg6 (W : Valuation τ sig (Elt F)) :
    after ops2 W (Proc.devRef .tc main_arg6) = W (Proc.devRef .tc main_arg6) := by
  read_results

set_option maxHeartbeats 4000000 in
/-- Part 2 does not write argument 7. -/
theorem eval2_arg7 (W : Valuation τ sig (Elt F)) :
    after ops2 W (Proc.devRef .tc main_arg7) = W (Proc.devRef .tc main_arg7) := by
  read_results

end Cert.Flow.ReferenceRun

end
-- ==== Proof.ReferencePart3.lean ====
/-
  Part 3 of the reference program (its operations 200 … 259 of 260, in program order) as a literal line of
  operations, and what it computes: from any contents W of the buffers in which the arguments are x0 … x7 and the stages
  earlier parts leave (main_v152, main_v153, main_v154, main_v173, main_v174) hold the read program's values of those stages, the stages later
  parts read (main_v226, main_v228) hold the read program's values too, and the arguments are not written.
-/
import proofs.«157287_j66073776882121_2_alg».proof.Proof.ReferenceRunLib

noncomputable section

namespace Cert.Flow.ReferenceRun

open Cert.ReferenceIdeal Cert.ReferenceIdeal.Gen Idealize.ShloMosaic Idealize.ShloMosaic.TcCoe Idealize.SL.Sem Idealize.ShloMosaic.StableHlo

variable {F : FTy → Type} [FloatOps F]

/-- Part 3 of the program: its operations 200 … 259 of 260, in order. -/
abbrev ops3 : List (HloOp τ sig (Elt F)) :=
  [ reshape main_v174 main_v175 rfl shapeCasts_S1x1024x64_S1024x64,
    binary main_v173 main_v175 main_v176 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v177 ((extractStridedSlice S1x64 ![4, 0] · slices_S6x64_S1x64_4_0) : (⟨S6x64, .f32⟩ : BufTy).Contents (Elt F) → (⟨S1x64, .f32⟩ : BufTy).Contents (Elt F)),
    reshape main_v177 main_v178 rfl shapeCasts_S1x64_S64,
    unary main_v178 main_v179 (broadcastInDim S1x64 ![1] bcast_S64_S1x64_1 : (⟨S64, .f32⟩ : BufTy).Contents (Elt F) → (⟨S1x64, .f32⟩ : BufTy).Contents (Elt F)),
    unary main_v179 main_v180 (broadcastInDim S32768x64 ![0, 1] bcast_S1x64_S32768x64_0_1 : (⟨S1x64, .f32⟩ : BufTy).Contents (Elt F) → (⟨S32768x64, .f32⟩ : BufTy).Contents (Elt F)),
    binary main_v176 main_v180 main_v181 (addf : (⟨S32768x64, .f32⟩ : BufTy).Contents (Elt F) → (⟨S32768x64, .f32⟩ : BufTy).Contents (Elt F) → (⟨S32768x64, .f32⟩ : BufTy).Contents (Elt F)),
    unary main_v181 main_v182 ((extractStridedSlice S32768x32 ![0, 0] · slices_S32768x64_S32768x32_0_0) : (⟨S32768x64, .f32⟩ : BufTy).Contents (Elt F) → (⟨S32768x32, .f32⟩ : BufTy).Contents (Elt F)),
    unary main_v182 main_v183 (Host.tanh : (⟨S32768x32, .f32⟩ : BufTy).Contents (Elt F) → (⟨S32768x32, .f32⟩ : BufTy).Contents (Elt F)),
    unary main_v181 main_v184 ((extractStridedSlice S32768x32 ![0, 32] · slices_S32768x64_S32768x32_0_32) : (⟨S32768x64, .f32⟩ : BufTy).Contents (Elt F) → (⟨S32768x32, .f32⟩ : BufTy).Contents (Elt F)),
    unary main_v183 main_v185 (Host.exp : (⟨S32768x32, .f32⟩ : BufTy).Contents (Elt F) → (⟨S32768x32, .f32⟩ : BufTy).Contents (Elt F)),
    binary main_v153 main_v185 main_v186 (mulf : (⟨S32768x32, .f32⟩ : BufTy).Contents (Elt F) → (⟨S32768x32, .f32⟩ : BufTy).Contents (Elt F) → (⟨S32768x32, .f32⟩ : BufTy).Contents (Elt F)),
    binary main_v186 main_v184 main_v187 (addf : (⟨S32768x32, .f32⟩ : BufTy).Contents (Elt F) → (⟨S32768x32, .f32⟩ : BufTy).Contents (Elt F) → (⟨S32768x32, .f32⟩ : BufTy).Contents (Elt F)),
    binary main_v187 main_v154 main_v188 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_4 (constant S_ .f32 0x00000000#32),
    binary main_v183 main_cst_4 main_v189 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v152 main_v189 main_v190 (addf : (⟨S32768, .f32⟩ : BufTy).Contents (Elt F) → (⟨S32768, .f32⟩ : BufTy).Contents (Elt F) → (⟨S32768, .f32⟩ : BufTy).Contents (Elt F)),
    unary main_v188 main_v191 ((extractStridedSlice S32768x32 ![0, 32] · slices_S32768x64_S32768x32_0_32) : (⟨S32768x64, .f32⟩ : BufTy).Contents (Elt F) → (⟨S32768x32, .f32⟩ : BufTy).Contents (Elt F)),
    unary main_v188 main_v192 ((extractStridedSlice S32768x32 ![0, 0] · slices_S32768x64_S32768x32_0_0) : (⟨S32768x64, .f32⟩ : BufTy).Contents (Elt F) → (⟨S32768x32, .f32⟩ : BufTy).Contents (Elt F)),
    binary main_v192 main_arg1 main_v193 ((fun a b => concatenate S32768x160 1 [⟨S32768x32, a⟩, ⟨S32768x128, b⟩] concatenates_S32768x32_S32768x128_S32768x160_d1) : (⟨S32768x32, .f32⟩ : BufTy).Contents (Elt F) → (⟨S32768x128, .f32⟩ : BufTy).Contents (Elt F) → (⟨S32768x160, .f32⟩ : BufTy).Contents (Elt F)),
    unary main_arg2 main_v194 ((extractStridedSlice S1x160x1024 ![5, 0, 0] · slices_S6x160x1024_S1x160x1024_5_0_0) : (⟨S6x160x1024, .f32⟩ : BufTy).Contents (Elt F) → (⟨S1x160x1024, .f32⟩ : BufTy).Contents (Elt F)),
    reshape main_v194 main_v195 rfl shapeCasts_S1x160x1024_S160x1024,
    binary main_v193 main_v195 main_v196 ((fun l r => Host.dotGeneral dot_S32768x160_S160x1024_S32768x1024_1_0_0_1_n_n none l r) : (⟨S32768x160, .f32⟩ : BufTy).Contents (Elt F) → (⟨S160x1024, .f32⟩ : BufTy).Contents (Elt F) → (⟨S32768x1024, .f32⟩ : BufTy).Contents (Elt F)),
    unary main_arg3 main_v197 ((extractStridedSlice S1x1024 ![5, 0] · slices_S6x1024_S1x1024_5_0) : (⟨S6x1024, .f32⟩ : BufTy).Contents (Elt F) → (⟨S1x1024, .f32⟩ : BufTy).Contents (Elt F)),
    reshape main_v197 main_v198 rfl shapeCasts_S1x1024_S1024,
    unary main_v198 main_v199 (broadcastInDim S1x1024 ![1] bcast_S1024_S1x1024_1 : (⟨S1024, .f32⟩ : BufTy).Contents (Elt F) → (⟨S1x1024, .f32⟩ : BufTy).Contents (Elt F)),
    unary main_v199 main_v200 (broadcastInDim S32768x1024 ![0, 1] bcast_S1x1024_S32768x1024_0_1 : (⟨S1x1024, .f32⟩ : BufTy).Contents (Elt F) → (⟨S32768x1024, .f32⟩ : BufTy).Contents (Elt F)),
    binary main_v196 main_v200 main_v201 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S32768x1024, .f32⟩) main_call10_v0) (broadcastInDim S32768x1024 ![] bcast_S_S32768x1024),
    TRef.binary (TRef.of (T := ⟨S32768x1024, .f32⟩) main_v201) (TRef.of (T := ⟨S32768x1024, .f32⟩) main_call10_v0) (TRef.of (T := ⟨S32768x1024, .f32⟩) main_v202) maximumf,
    unary main_arg4 main_v203 ((extractStridedSlice S1x1024x1024 ![5, 0, 0] · slices_S6x1024x1024_S1x1024x1024_5_0_0) : (⟨S6x1024x1024, .f32⟩ : BufTy).Contents (Elt F) → (⟨S1x1024x1024, .f32⟩ : BufTy).Contents (Elt F)),
    reshape main_v203 main_v204 rfl shapeCasts_S1x1024x1024_S1024x1024,
    binary main_v202 main_v204 main_v205 ((fun l r => Host.dotGeneral dot_S32768x1024_S1024x1024_S32768x1024_1_0_0_1_n_n none l r) : (⟨S32768x1024, .f32⟩ : BufTy).Contents (Elt F) → (⟨S1024x1024, .f32⟩ : BufTy).Contents (Elt F) → (⟨S32768x1024, .f32⟩ : BufTy).Contents (Elt F)),
    unary main_arg5 main_v206 ((extractStridedSlice S1x1024 ![5, 0] · slices_S6x1024_S1x1024_5_0) : (⟨S6x1024, .f32⟩ : BufTy).Contents (Elt F) → (⟨S1x1024, .f32⟩ : BufTy).Contents (Elt F)),
    reshape main_v206 main_v207 rfl shapeCasts_S1x1024_S1024,
    unary main_v207 main_v208 (broadcastInDim S1x1024 ![1] bcast_S1024_S1x1024_1 : (⟨S1024, .f32⟩ : BufTy).Contents (Elt F) → (⟨S1x1024, .f32⟩ : BufTy).Contents (Elt F)),
    unary main_v208 main_v209 (broadcastInDim S32768x1024 ![0, 1] bcast_S1x1024_S32768x1024_0_1 : (⟨S1x1024, .f32⟩ : BufTy).Contents (Elt F) → (⟨S32768x1024, .f32⟩ : BufTy).Contents (Elt F)),
    binary main_v205 main_v209 main_v210 (addf : (⟨S32768x1024, .f32⟩ : BufTy).Contents (Elt F) → (⟨S32768x1024, .f32⟩ : BufTy).Contents (Elt F) → (⟨S32768x1024, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S32768x1024, .f32⟩) main_call11_v0) (broadcastInDim S32768x1024 ![] bcast_S_S32768x1024),
    TRef.binary (TRef.of (T := ⟨S32768x1024, .f32⟩) main_v210) (TRef.of (T := ⟨S32768x1024, .f32⟩) main_call11_v0) (TRef.of (T := ⟨S32768x1024, .f32⟩) main_v211) maximumf,
    unary main_arg6 main_v212 ((extractStridedSlice S1x1024x64 ![5, 0, 0] · slices_S6x1024x64_S1x1024x64_5_0_0) : (⟨S6x1024x64, .f32⟩ : BufTy).Contents (Elt F) → (⟨S1x1024x64, .f32⟩ : BufTy).Contents (Elt F)),
    reshape main_v212 main_v213 rfl shapeCasts_S1x1024x64_S1024x64,
    binary main_v211 main_v213 main_v214 ((fun l r => Host.dotGeneral dot_S32768x1024_S1024x64_S32768x64_1_0_0_1_n_n none l r) : (⟨S32768x1024, .f32⟩ : BufTy).Contents (Elt F) → (⟨S1024x64, .f32⟩ : BufTy).Contents (Elt F) → (⟨S32768x64, .f32⟩ : BufTy).Contents (Elt F)),
    unary main_arg7 main_v215 ((extractStridedSlice S1x64 ![5, 0] · slices_S6x64_S1x64_5_0) : (⟨S6x64, .f32⟩ : BufTy).Contents (Elt F) → (⟨S1x64, .f32⟩ : BufTy).Contents (Elt F)),
    reshape main_v215 main_v216 rfl shapeCasts_S1x64_S64,
    unary main_v216 main_v217 (broadcastInDim S1x64 ![1] bcast_S64_S1x64_1 : (⟨S64, .f32⟩ : BufTy).Contents (Elt F) → (⟨S1x64, .f32⟩ : BufTy).Contents (Elt F)),
    unary main_v217 main_v218 (broadcastInDim S32768x64 ![0, 1] bcast_S1x64_S32768x64_0_1 : (⟨S1x64, .f32⟩ : BufTy).Contents (Elt F) → (⟨S32768x64, .f32⟩ : BufTy).Contents (Elt F)),
    binary main_v214 main_v218 main_v219 (addf : (⟨S32768x64, .f32⟩ : BufTy).Contents (Elt F) → (⟨S32768x64, .f32⟩ : BufTy).Contents (Elt F) → (⟨S32768x64, .f32⟩ : BufTy).Contents (Elt F)),
    unary main_v219 main_v220 ((extractStridedSlice S32768x32 ![0, 0] · slices_S32768x64_S32768x32_0_0) : (⟨S32768x64, .f32⟩ : BufTy).Contents (Elt F) → (⟨S32768x32, .f32⟩ : BufTy).Contents (Elt F)),
    unary main_v220 main_v221 (Host.tanh : (⟨S32768x32, .f32⟩ : BufTy).Contents (Elt F) → (⟨S32768x32, .f32⟩ : BufTy).Contents (Elt F)),
    unary main_v219 main_v222 ((extractStridedSlice S32768x32 ![0, 32] · slices_S32768x64_S32768x32_0_32) : (⟨S32768x64, .f32⟩ : BufTy).Contents (Elt F) → (⟨S32768x32, .f32⟩ : BufTy).Contents (Elt F)),
    unary main_v221 main_v223 (Host.exp : (⟨S32768x32, .f32⟩ : BufTy).Contents (Elt F) → (⟨S32768x32, .f32⟩ : BufTy).Contents (Elt F)),
    binary main_v191 main_v223 main_v224 (mulf : (⟨S32768x32, .f32⟩ : BufTy).Contents (Elt F) → (⟨S32768x32, .f32⟩ : BufTy).Contents (Elt F) → (⟨S32768x32, .f32⟩ : BufTy).Contents (Elt F)),
    binary main_v224 main_v222 main_v225 (addf : (⟨S32768x32, .f32⟩ : BufTy).Contents (Elt F) → (⟨S32768x32, .f32⟩ : BufTy).Contents (Elt F) → (⟨S32768x32, .f32⟩ : BufTy).Contents (Elt F)),
    binary main_v192 main_v225 main_v226 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    nullary main_cst_5 (constant S_ .f32 0x00000000#32),
    binary main_v221 main_cst_5 main_v227 ((fun x v => Host.reduceAdd x v reducesTo_S32768x32_S32768_d1 h_S_) : (⟨S32768x32, .f32⟩ : BufTy).Contents (Elt F) → (⟨S_, .f32⟩ : BufTy).Contents (Elt F) → (⟨S32768, .f32⟩ : BufTy).Contents (Elt F)),
    binary main_v190 main_v227 main_v228 (addf : (⟨S32768, .f32⟩ : BufTy).Contents (Elt F) → (⟨S32768, .f32⟩ : BufTy).Contents (Elt F) → (⟨S32768, .f32⟩ : BufTy).Contents (Elt F)) ]

set_option maxRecDepth 8192 in
set_option maxHeartbeats 4000000 in
/-- Part 3 is the sequence of those operations. -/
theorem part3_eq (c : Dev nD) : main_part3 (F := F) c = seq ops3 := rfl

set_option maxRecDepth 8192 in
/-- Each touches TensorCore references only. -/
theorem part3_sub : (ops3 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub .., unary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., unary_bufs_sub .., unary_bufs_sub .., binary_bufs_sub .., binary_bufs_sub .., binary_bufs_sub .., nullary_bufs_sub .., binary_bufs_sub .., binary_bufs_sub ..⟩

set_option maxRecDepth 8192 in
set_option maxHeartbeats 4000000 in
/-- None allocates a buffer. -/
theorem part3_fresh : ∀ op ∈ (ops3 : List (HloOp τ sig (Elt F))), op.fresh = ∅ := by
  intro _ h; (repeat (cases h with | head => rfl | tail _ h => ?_)); exact nomatch h

set_option maxRecDepth 8192 in
set_option maxHeartbeats 4000000 in
/-- After part 3, buffer main_v226 holds the read program's stage 226 of the arguments. -/
theorem eval3_v226 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h152 : W (Proc.devRef .tc main_v152) = ReadP.val_main_v152 (F := F) x0 x1 x2 x3 x4 x5 x6 x7) (h153 : W (Proc.devRef .tc main_v153) = ReadP.val_main_v153 (F := F) x0 x1 x2 x3 x4 x5 x6 x7) (h154 : W (Proc.devRef .tc main_v154) = ReadP.val_main_v154 (F := F) x0 x1 x2 x3 x4 x5 x6 x7) (h173 : W (Proc.devRef .tc main_v173) = ReadP.val_main_v173 (F := F) x0 x1 x2 x3 x4 x5 x6 x7) (h174 : W (Proc.devRef .tc main_v174) = ReadP.val_main_v174 (F := F) x6) :
    after ops3 W (Proc.devRef .tc main_v226) = ReadP.val_main_v226 (F := F) x0 x1 x2 x3 x4 x5 x6 x7 := by
  subst ha0 ha1 ha2 ha3 ha4 ha5 ha6 ha7
  read_results
  try simp only [h152, h153, h154, h173, h174]
  rfl

set_option maxRecDepth 8192 in
set_option maxHeartbeats 4000000 in
/-- After part 3, buffer main_v228 holds the read program's stage 228 of the arguments. -/
theorem eval3_v228 (W : Valuation τ sig (Elt F)) (x0 : (⟨S32768x64, .f32⟩ : BufTy).Contents (Elt F)) (x1 : (⟨S32768x128, .f32⟩ : BufTy).Contents (Elt F)) (x2 : (⟨S6x160x1024, .f32⟩ : BufTy).Contents (Elt F)) (x3 : (⟨S6x1024, .f32⟩ : BufTy).Contents (Elt F)) (x4 : (⟨S6x1024x1024, .f32⟩ : BufTy).Contents (Elt F)) (x5 : (⟨S6x1024, .f32⟩ : BufTy).Contents (Elt F)) (x6 : (⟨S6x1024x64, .f32⟩ : BufTy).Contents (Elt F)) (x7 : (⟨S6x64, .f32⟩ : BufTy).Contents (Elt F))
    (ha0 : W (Proc.devRef .tc main_arg0) = x0) (ha1 : W (Proc.devRef .tc main_arg1) = x1) (ha2 : W (Proc.devRef .tc main_arg2) = x2) (ha3 : W (Proc.devRef .tc main_arg3) = x3) (ha4 : W (Proc.devRef .tc main_arg4) = x4) (ha5 : W (Proc.devRef .tc main_arg5) = x5) (ha6 : W (Proc.devRef .tc main_arg6) = x6) (ha7 : W (Proc.devRef .tc main_arg7) = x7)
    (h152 : W (Proc.devRef .tc main_v152) = ReadP.val_main_v152 (F := F) x0 x1 x2 x3 x4 x5 x6 x7) (h153 : W (Proc.devRef .tc main_v153) = ReadP.val_main_v153 (F := F) x0 x1 x2 x3 x4 x5 x6 x7) (h154 : W (Proc.devRef .tc main_v154) = ReadP.val_main_v154 (F := F) x0 x1 x2 x3 x4 x5 x6 x7) (h173 : W (Proc.devRef .tc main_v173) = ReadP.val_main_v173 (F := F) x0 x1 x2 x3 x4 x5 x6 x7) (h174 : W (Proc.devRef .tc main_v174) = ReadP.val_main_v174 (F := F) x6) :
    after ops3 W (Proc.devRef .tc main_v228) = ReadP.val_main_v228 (F := F) x0 x1 x2 x3 x4 x5 x6 x7 := by
  subst ha0 ha1 ha2 ha3 ha4 ha5 ha6 ha7
  read_results
  try simp only [h152, h153, h154, h173, h174]
  rfl

set_option maxHeartbeats 4000000 in
/-- Part 3 does not write argument 0. -/
theorem eval3_arg0 (W : Valuation τ sig (Elt F)) :
    after ops3 W (Proc.devRef .tc main_arg0) = W (Proc.devRef .tc main_arg0) := by
  read_results

set_option maxHeartbeats 4000000 in
/-- Part 3 does not write argument 1. -/
theorem eval3_arg1 (W : Valuation τ sig (Elt F)) :
    after ops3 W (Proc.devRef .tc main_arg1) = W (Proc.devRef .tc main_arg1) := by
  read_results

set_option maxHeartbeats 4000000 in
/-- Part 3 does not write argument 2. -/
theorem eval3_arg2 (W : Valuation τ sig (Elt F)) :
    after ops3 W (Proc.devRef .tc main_arg2) = W (Proc.devRef .tc main_arg2) := by
  read_results

set_option maxHeartbeats 4000000 in
/-- Part 3 does not write argument 3. -/
theorem eval3_arg3 (W : Valuation τ sig (Elt F)) :
    after ops3 W (Proc.devRef .tc main_arg3) = W (Proc.devRef .tc main_arg3) := by
  read_results

set_option maxHeartbeats 4000000 in
/-- Part 3 does not write argument 4. -/
theorem eval3_arg4 (W : Valuation τ sig (Elt F)) :
    after ops3 W (Proc.devRef .tc main_arg4) = W (Proc.devRef .tc main_arg4) := by
  read_results

set_option maxHeartbeats 4000000 in
/-- Part 3 does not write argument 5. -/
theorem eval3_arg5 (W : Valuation τ sig (Elt F)) :
    after ops3 W (Proc.devRef .tc main_arg5) = W (Proc.devRef .tc main_arg5) := by
  read_results

set_option maxHeartbeats 4000000 in
/-- Part 3 does not write argument 6. -/
theorem eval3_arg6 (W : Valuation τ sig (Elt F)) :
    after ops3 W (Proc.devRef .tc main_arg6) = W (Proc.devRef .tc main_arg6) := by
  read_results

set_option maxHeartbeats 4000000 in
/-- Part 3 does not write argument 7. -/
theorem eval3_arg7 (W : Valuation τ sig (Elt F)) :
    after ops3 W (Proc.devRef .tc main_arg7) = W (Proc.devRef .tc main_arg7) := by
  read_results

end Cert.Flow.ReferenceRun

end
-- ==== Proof.ReferenceRunLayers.lean ====
/-
  The reference program's run: on every device, from any memory with zero counters, every weakly fair execution of its
  @main terminates with the two results at their named stages of the eight argument arrays' launch contents, and the
  arguments unchanged.

  @main is printed as four consecutive parts; each part is the line of its operations (the four part modules), so @main is
  the line of all of them, the four lists concatenated.  The library's run of a line gives every buffer as the fold of the
  operations over the launch contents; the fold over a concatenation is the folds in order, and each part's fold is read
  by that part's evaluation lemmas from what the previous parts left.
-/
import proofs.«157287_j66073776882121_2_alg».proof.Proof.ReferencePart0
import proofs.«157287_j66073776882121_2_alg».proof.Proof.ReferencePart1
import proofs.«157287_j66073776882121_2_alg».proof.Proof.ReferencePart2
import proofs.«157287_j66073776882121_2_alg».proof.Proof.ReferencePart3

noncomputable section

namespace Cert.Flow.ReferenceRun

open Cert.ReferenceIdeal Cert.ReferenceIdeal.Gen Idealize.ShloMosaic Idealize.ShloMosaic.TcCoe Idealize.SL.Sem Idealize.ShloMosaic.StableHlo

variable {F : FTy → Type} [FloatOps F]

/-- @main is the line of the four parts' operations, in order. -/
theorem main_eq (c : Dev nD) : main (F := F) c = seq (ops0 ++ (ops1 ++ (ops2 ++ ops3))) := by
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the whole line touches TensorCore references only. -/
theorem ops_sub : (ops0 ++ (ops1 ++ (ops2 ++ ops3)) : List (HloOp τ sig (Elt F))).Forall fun op => op.bufs ⊆ tcRefs τ sig := by
  refine List.forall_iff_forall_mem.mpr fun op h => ?_
  rcases List.mem_append.mp h with h | h
  · exact List.forall_iff_forall_mem.mp part0_sub op h
  rcases List.mem_append.mp h with h | h
  · exact List.forall_iff_forall_mem.mp part1_sub op h
  rcases List.mem_append.mp h with h | h
  · exact List.forall_iff_forall_mem.mp part2_sub op h
  · exact List.forall_iff_forall_mem.mp part3_sub op h

/-- Every operation of the whole line determines its results. -/
theorem ops_fresh : ∀ op ∈ (ops0 ++ (ops1 ++ (ops2 ++ ops3)) : List (HloOp τ sig (Elt F))), op.fresh = ∅ := by
  intro op h
  rcases List.mem_append.mp h with h | h
  · exact part0_fresh op h
  rcases List.mem_append.mp h with h | h
  · exact part1_fresh op h
  rcases List.mem_append.mp h with h | h
  · exact part2_fresh op h
  · exact part3_fresh op h

/-- The whole line from contents `V`: the two results at their stages of `V`'s arguments, the arguments as `V` has them. -/
theorem after_all (V : Valuation τ sig (Elt F)) :
    after (ops0 ++ (ops1 ++ (ops2 ++ ops3))) V (Proc.devRef .tc main_v226) = ReadP.val_main_v226 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    ∧ after (ops0 ++ (ops1 ++ (ops2 ++ ops3))) V (Proc.devRef .tc main_v228) = ReadP.val_main_v228 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    ∧ after (ops0 ++ (ops1 ++ (ops2 ++ ops3))) V (Proc.devRef .tc main_arg0) = V (Proc.devRef .tc main_arg0)
    ∧ after (ops0 ++ (ops1 ++ (ops2 ++ ops3))) V (Proc.devRef .tc main_arg1) = V (Proc.devRef .tc main_arg1)
    ∧ after (ops0 ++ (ops1 ++ (ops2 ++ ops3))) V (Proc.devRef .tc main_arg2) = V (Proc.devRef .tc main_arg2)
    ∧ after (ops0 ++ (ops1 ++ (ops2 ++ ops3))) V (Proc.devRef .tc main_arg3) = V (Proc.devRef .tc main_arg3)
    ∧ after (ops0 ++ (ops1 ++ (ops2 ++ ops3))) V (Proc.devRef .tc main_arg4) = V (Proc.devRef .tc main_arg4)
    ∧ after (ops0 ++ (ops1 ++ (ops2 ++ ops3))) V (Proc.devRef .tc main_arg5) = V (Proc.devRef .tc main_arg5)
    ∧ after (ops0 ++ (ops1 ++ (ops2 ++ ops3))) V (Proc.devRef .tc main_arg6) = V (Proc.devRef .tc main_arg6)
    ∧ after (ops0 ++ (ops1 ++ (ops2 ++ ops3))) V (Proc.devRef .tc main_arg7) = V (Proc.devRef .tc main_arg7) := by
  rw [after_append, after_append, after_append]
  -- after the first part
  have h38 := eval0_v38 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  have h39 := eval0_v39 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  have h40 := eval0_v40 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  have h53 := eval0_v53 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  have h57 := eval0_v57 V (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) rfl rfl rfl rfl rfl rfl rfl rfl
  -- after the second
  have h112 := eval1_v112 (after ops0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (eval0_arg0 V) (eval0_arg1 V) (eval0_arg2 V) (eval0_arg3 V) (eval0_arg4 V) (eval0_arg5 V) (eval0_arg6 V) (eval0_arg7 V) h38 h39 h40 h53 h57
  have h114 := eval1_v114 (after ops0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (eval0_arg0 V) (eval0_arg1 V) (eval0_arg2 V) (eval0_arg3 V) (eval0_arg4 V) (eval0_arg5 V) (eval0_arg6 V) (eval0_arg7 V) h38 h39 h40 h53 h57
  have h115 := eval1_v115 (after ops0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (eval0_arg0 V) (eval0_arg1 V) (eval0_arg2 V) (eval0_arg3 V) (eval0_arg4 V) (eval0_arg5 V) (eval0_arg6 V) (eval0_arg7 V) h38 h39 h40 h53 h57
  -- after the third
  have h152 := eval2_v152 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval1_arg0 _).trans (eval0_arg0 V)) ((eval1_arg1 _).trans (eval0_arg1 V)) ((eval1_arg2 _).trans (eval0_arg2 V)) ((eval1_arg3 _).trans (eval0_arg3 V)) ((eval1_arg4 _).trans (eval0_arg4 V)) ((eval1_arg5 _).trans (eval0_arg5 V)) ((eval1_arg6 _).trans (eval0_arg6 V)) ((eval1_arg7 _).trans (eval0_arg7 V)) h112 h114 h115
  have h153 := eval2_v153 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval1_arg0 _).trans (eval0_arg0 V)) ((eval1_arg1 _).trans (eval0_arg1 V)) ((eval1_arg2 _).trans (eval0_arg2 V)) ((eval1_arg3 _).trans (eval0_arg3 V)) ((eval1_arg4 _).trans (eval0_arg4 V)) ((eval1_arg5 _).trans (eval0_arg5 V)) ((eval1_arg6 _).trans (eval0_arg6 V)) ((eval1_arg7 _).trans (eval0_arg7 V)) h112 h114 h115
  have h154 := eval2_v154 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval1_arg0 _).trans (eval0_arg0 V)) ((eval1_arg1 _).trans (eval0_arg1 V)) ((eval1_arg2 _).trans (eval0_arg2 V)) ((eval1_arg3 _).trans (eval0_arg3 V)) ((eval1_arg4 _).trans (eval0_arg4 V)) ((eval1_arg5 _).trans (eval0_arg5 V)) ((eval1_arg6 _).trans (eval0_arg6 V)) ((eval1_arg7 _).trans (eval0_arg7 V)) h112 h114 h115
  have h173 := eval2_v173 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval1_arg0 _).trans (eval0_arg0 V)) ((eval1_arg1 _).trans (eval0_arg1 V)) ((eval1_arg2 _).trans (eval0_arg2 V)) ((eval1_arg3 _).trans (eval0_arg3 V)) ((eval1_arg4 _).trans (eval0_arg4 V)) ((eval1_arg5 _).trans (eval0_arg5 V)) ((eval1_arg6 _).trans (eval0_arg6 V)) ((eval1_arg7 _).trans (eval0_arg7 V)) h112 h114 h115
  have h174 := eval2_v174 (after ops1 (after ops0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval1_arg0 _).trans (eval0_arg0 V)) ((eval1_arg1 _).trans (eval0_arg1 V)) ((eval1_arg2 _).trans (eval0_arg2 V)) ((eval1_arg3 _).trans (eval0_arg3 V)) ((eval1_arg4 _).trans (eval0_arg4 V)) ((eval1_arg5 _).trans (eval0_arg5 V)) ((eval1_arg6 _).trans (eval0_arg6 V)) ((eval1_arg7 _).trans (eval0_arg7 V)) h112 h114 h115
  -- after the fourth
  exact ⟨eval3_v226 (after ops2 (after ops1 (after ops0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval2_arg0 _).trans ((eval1_arg0 _).trans (eval0_arg0 V))) ((eval2_arg1 _).trans ((eval1_arg1 _).trans (eval0_arg1 V))) ((eval2_arg2 _).trans ((eval1_arg2 _).trans (eval0_arg2 V))) ((eval2_arg3 _).trans ((eval1_arg3 _).trans (eval0_arg3 V))) ((eval2_arg4 _).trans ((eval1_arg4 _).trans (eval0_arg4 V))) ((eval2_arg5 _).trans ((eval1_arg5 _).trans (eval0_arg5 V))) ((eval2_arg6 _).trans ((eval1_arg6 _).trans (eval0_arg6 V))) ((eval2_arg7 _).trans ((eval1_arg7 _).trans (eval0_arg7 V))) h152 h153 h154 h173 h174,
    eval3_v228 (after ops2 (after ops1 (after ops0 V))) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) ((eval2_arg0 _).trans ((eval1_arg0 _).trans (eval0_arg0 V))) ((eval2_arg1 _).trans ((eval1_arg1 _).trans (eval0_arg1 V))) ((eval2_arg2 _).trans ((eval1_arg2 _).trans (eval0_arg2 V))) ((eval2_arg3 _).trans ((eval1_arg3 _).trans (eval0_arg3 V))) ((eval2_arg4 _).trans ((eval1_arg4 _).trans (eval0_arg4 V))) ((eval2_arg5 _).trans ((eval1_arg5 _).trans (eval0_arg5 V))) ((eval2_arg6 _).trans ((eval1_arg6 _).trans (eval0_arg6 V))) ((eval2_arg7 _).trans ((eval1_arg7 _).trans (eval0_arg7 V))) h152 h153 h154 h173 h174,
    (eval3_arg0 _).trans ((eval2_arg0 _).trans ((eval1_arg0 _).trans (eval0_arg0 V))),
    (eval3_arg1 _).trans ((eval2_arg1 _).trans ((eval1_arg1 _).trans (eval0_arg1 V))),
    (eval3_arg2 _).trans ((eval2_arg2 _).trans ((eval1_arg2 _).trans (eval0_arg2 V))),
    (eval3_arg3 _).trans ((eval2_arg3 _).trans ((eval1_arg3 _).trans (eval0_arg3 V))),
    (eval3_arg4 _).trans ((eval2_arg4 _).trans ((eval1_arg4 _).trans (eval0_arg4 V))),
    (eval3_arg5 _).trans ((eval2_arg5 _).trans ((eval1_arg5 _).trans (eval0_arg5 V))),
    (eval3_arg6 _).trans ((eval2_arg6 _).trans ((eval1_arg6 _).trans (eval0_arg6 V))),
    (eval3_arg7 _).trans ((eval2_arg7 _).trans ((eval1_arg7 _).trans (eval0_arg7 V)))⟩

/-- On every device, for any float values, from any memory with zero counters: every weakly fair execution of @main
    terminates with each result at its named stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v226) = ReadP.val_main_v226 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v228) = ReadP.val_main_v228 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have key := after_all (F := F) (launchContents m c)
      ⟨(h c main_v226).trans key.1, (h c main_v228).trans key.2.1,
        (h c main_arg0).trans key.2.2.1, (h c main_arg1).trans key.2.2.2.1, (h c main_arg2).trans key.2.2.2.2.1,
        (h c main_arg3).trans key.2.2.2.2.2.1, (h c main_arg4).trans key.2.2.2.2.2.2.1, (h c main_arg5).trans key.2.2.2.2.2.2.2.1,
        (h c main_arg6).trans key.2.2.2.2.2.2.2.2.1, (h c main_arg7).trans key.2.2.2.2.2.2.2.2.2⟩)
    (run_seq scopedRefs_eq scopedSems_eq defs main (fun _ => ops0 ++ (ops1 ++ (ops2 ++ ops3))) main_eq (fun _ => ops_sub) m ρ
      (fun _ => ops_fresh))

end Cert.Flow.ReferenceRun

end
-- ==== Proof.lean ====
/-
  The conditional normalizing flow: six affine coupling layers over the 32768 rows of `T`, each row with its 128
  conditioning values.  Layer `l` feeds the unmasked half of the row, joined with the conditioning values, through a
  three-stage perceptron (weights `W1 l`, `W2 l`, `W3 l`, biases `b1 l`, `b2 l`, `b3 l`, a maximum with 0 after the first
  two stages), takes tanh of the first 32 outputs as log-scales `s` and the last 32 as shifts `t`, replaces the masked half
  by `masked * exp s + t` and adds the sum of `s` to the row's log-determinant; even layers transform columns 0 … 31, odd
  layers columns 32 … 63.

  The kernel tiles the rows in 64 blocks of 512 and runs the six layers as a loop of three trips, two layers per trip, on
  a carried triple (first half, second half, log-determinant), the weights read through narrower float formats; the
  reference runs the six layers one after the other on whole arrays.  At the extended reals a change of float format is
  the identity, the kernel's matrix products into a zero accumulator and the host's contractions are the same sums, and
  the kernel's lane sums and the host's row sums are the same sums, so both programs compute the one function of
  Proof/CouplingSpec.lean (`zOut`, `logDetOut`), row by row: no algebraic law beyond `0 + x = x` is used, and the
  precondition is never opened.

  The kernel side: Proof/KernelRow.lean (one trip of the loop on one row is one pair of layers), Proof/KernelTrips.lean and
  Proof/KernelBlock.lean (the carried value before each trip, by induction on the trip; the two output blocks),
  Proof/KernelArrays.lean (from blocks to the result arrays, the reshape after the call, the run).  The reference side:
  Proof/CouplingLayer.lean and Proof/ReferenceFlow.lean (each layer's stages, read at a row, are the specification's layer),
  Proof/ReferenceRunLayers.lean (the reference's run, part by part).  The ideal pass rewrote nothing, so the idealization
  conjunct is trivial.
-/
import proofs.«157287_j66073776882121_2_alg».proof.Defs
import proofs.«157287_j66073776882121_2_alg».proof.Proof.Gen.Kernel
import proofs.«157287_j66073776882121_2_alg».proof.Proof.Gen.Kernel.Skeleton
import proofs.«157287_j66073776882121_2_alg».proof.Proof.Gen.Kernel.Loops
import proofs.«157287_j66073776882121_2_alg».proof.Proof.Gen.Kernel.Launch
import proofs.«157287_j66073776882121_2_alg».proof.Proof.Gen.Kernel.Points
import proofs.«157287_j66073776882121_2_alg».proof.Proof.Gen.Kernel.Frame
import proofs.«157287_j66073776882121_2_alg».proof.Proof.Gen.KernelIdeal
import proofs.«157287_j66073776882121_2_alg».proof.Proof.Gen.KernelIdeal.Skeleton
import proofs.«157287_j66073776882121_2_alg».proof.Proof.Gen.KernelIdeal.Loops
import proofs.«157287_j66073776882121_2_alg».proof.Proof.Gen.KernelIdeal.Launch
import proofs.«157287_j66073776882121_2_alg».proof.Proof.Gen.KernelIdeal.Points
import proofs.«157287_j66073776882121_2_alg».proof.Proof.Gen.KernelIdeal.Frame
import proofs.«157287_j66073776882121_2_alg».proof.Proof.Gen.ReferenceIdeal
import proofs.«157287_j66073776882121_2_alg».proof.Proof.Gen.Pre_finite_inputs
import proofs.«157287_j66073776882121_2_alg».proof.Proof.KernelBlock
import proofs.«157287_j66073776882121_2_alg».proof.Proof.KernelArrays
import proofs.«157287_j66073776882121_2_alg».proof.Proof.ReferenceFlow
import proofs.«157287_j66073776882121_2_alg».proof.Proof.ReferenceRunLayers
import Idealize.ShloMosaic.Adequacy
import Idealize.ShloMosaic.Init

noncomputable section

namespace Cert.Proof

open Idealize.ShloMosaic Idealize.ShloMosaic.TcCoe Idealize.SL.Sem

/-- The kernel as printed runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.Flow.ReferenceRun.run (F := Ideal) m ρ)

/-- The ideal pass rewrote nothing. -/
theorem preserves : Cert.preserves_Kernel_KernelIdeal := trivial

/-- At the extended reals the kernel's two results and the reference's are the flow's `zOut` and `logDetOut` of the
    arguments, which agree. -/
theorem algebraic : Cert.algebraic_KernelIdeal_ReferenceIdeal := by
  intro m ρ m' ρ' _ hagree
  refine ⟨fun c => Cert.Flow.zOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Flow.logDetOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.Flow.Kernel.kernel_run Cert.Flow.Kernel.outBlocks m ρ, ?_⟩
  refine (θ_run Cert.ReferenceIdeal.defs _ _).mono (fun _ h c => ⟨(h c).1.trans ?_, (h c).2.1.trans ?_, (h c).2.2⟩)
    (Cert.Flow.ReferenceRun.run (F := Ideal) m' ρ')
  · obtain ⟨a0, a1, a2, a3, a4, a5, a6, a7⟩ := hagree c
    rw [Cert.Flow.Reference.reference_z, a0, a1, a2, a3, a4, a5, a6, a7]
  · obtain ⟨a0, a1, a2, a3, a4, a5, a6, a7⟩ := hagree c
    rw [Cert.Flow.Reference.reference_logdet, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
